-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S64x1024x1024 : Shape := ⟨3, ![64, 1024, 1024]⟩
abbrev S512x512 : Shape := ⟨2, ![512, 512]⟩
abbrev S512 : Shape := ⟨1, ![512]⟩
abbrev S1024x512 : Shape := ⟨2, ![1024, 512]⟩
abbrev S1024x256 : Shape := ⟨2, ![1024, 256]⟩
abbrev S256 : Shape := ⟨1, ![256]⟩
abbrev S512x256 : Shape := ⟨2, ![512, 256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S2 .f32) (main_v63 : IVec S_ 1) (main_v67 : IVec S_ 1) : IVec S_ 1 :=
  let main_v68 : IVec S_ 1 := andi main_v63 main_v67
  let main_v69 : FVec F S2 .f32 := Host.absf main_arg14
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg11 : FVec F S256 .f32) (main_arg12 : FVec F S256 .f32) (main_arg13 : FVec F S256x2 .f32) (main_arg14 : FVec F S2 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x2 .f32 := Host.absf main_arg13
  let main_cst_24 : FVec F S_ .f32 := constant S_ .f32 0x7F800000#32
  let main_v65 : FVec F S256x2 .f32 := broadcastInDim S256x2 ![] bcast_S_S256x2 main_cst_24
  let main_v66 : IVec S256x2 1 := cmpf .olt main_v64 main_v65
  let main_c_25 : IVec S_ 1 := constantI S_ 1 1#1
  let main_v67 : IVec S_ 1 := (fun x v => Host.reduce IntOp.andi x v reducesTo_S256x2_S_d0_1 h_S_) main_v66 main_c_25
  fn_part4 (F := F) main_arg14 main_v63 main_v67

def fn_part2 {F : FTy → Type} [FloatOps F] (main_arg7 : FVec F S256 .f32) (main_arg8 : FVec F S512x256 .f32) (main_arg9 : FVec F S256 .f32) (main_arg10 : FVec F S256x256 .f32) (main_arg11 : FVec F S256 .f32) (main_arg12 : FVec F S256 .f32) (main_arg13 : FVec F S256x2 .f32) (main_arg14 : FVec F S2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x256 .f32 := Host.absf main_arg8
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_v48 main_v49 main_v50

def fn_part1 {F : FTy → Type} [FloatOps F] (main_arg4 : FVec F S1024x512 .f32) (main_arg5 : FVec F S512 .f32) (main_arg6 : FVec F S1024x256 .f32) (main_arg7 : FVec F S256 .f32) (main_arg8 : FVec F S512x256 .f32) (main_arg9 : FVec F S256 .f32) (main_arg10 : FVec F S256x256 .f32) (main_arg11 : FVec F S256 .f32) (main_arg12 : FVec F S256 .f32) (main_arg13 : FVec F S256x2 .f32) (main_arg14 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x256 .f32 := Host.absf main_arg6
  let main_cst_10 : FVec F S_ .f32 := constant S_ .f32 0x7F800000#32
  let main_v30 : FVec F S1024x256 .f32 := broadcastInDim S1024x256 ![] bcast_S_S1024x256 main_cst_10
  let main_v31 : IVec S1024x256 1 := cmpf .olt main_v29 main_v30
  let main_c_11 : IVec S_ 1 := constantI S_ 1 1#1
  let main_v32 : IVec S_ 1 := (fun x v => Host.reduce IntOp.andi x v reducesTo_S1024x256_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S64x1024x256 .f32) (main_arg1 : FVec F S64x1024x1024 .f32) (main_arg2 : FVec F S512x512 .f32) (main_arg3 : FVec F S512 .f32) (main_arg4 : FVec F S1024x512 .f32) (main_arg5 : FVec F S512 .f32) (main_arg6 : FVec F S1024x256 .f32) (main_arg7 : FVec F S256 .f32) (main_arg8 : FVec F S512x256 .f32) (main_arg9 : FVec F S256 .f32) (main_arg10 : FVec F S256x256 .f32) (main_arg11 : FVec F S256 .f32) (main_arg12 : FVec F S256 .f32) (main_arg13 : FVec F S256x2 .f32) (main_arg14 : FVec F S2 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S64x1024x256 : Shape := ⟨3, ![64, 1024, 256]⟩
abbrev S64x1024x1024 : Shape := ⟨3, ![64, 1024, 1024]⟩
abbrev S512x512 : Shape := ⟨2, ![512, 512]⟩
abbrev S512 : Shape := ⟨1, ![512]⟩
abbrev S1024x512 : Shape := ⟨2, ![1024, 512]⟩
abbrev S1024x256 : Shape := ⟨2, ![1024, 256]⟩
abbrev S256 : Shape := ⟨1, ![256]⟩
abbrev S512x256 : Shape := ⟨2, ![512, 256]⟩
abbrev S256x256 : Shape := ⟨2, ![256, 256]⟩
abbrev S256x2 : Shape := ⟨2, ![256, 2]⟩
abbrev S2 : Shape := ⟨1, ![2]⟩
abbrev S1x512 : Shape := ⟨2, ![1, 512]⟩
abbrev S1x256 : Shape := ⟨2, ![1, 256]⟩
abbrev S1x2 : Shape := ⟨2, ![1, 2]⟩
abbrev S64x1024x2 : Shape := ⟨3, ![64, 1024, 2]⟩
abbrev S1x1024x256 : Shape := ⟨3, ![1, 1024, 256]⟩
abbrev S1x1024x1024 : Shape := ⟨3, ![1, 1024, 1024]⟩
abbrev S1x1024x2 : Shape := ⟨3, ![1, 1024, 2]⟩
abbrev S1024x1024 : Shape := ⟨2, ![1024, 1024]⟩
abbrev S1024x2 : Shape := ⟨2, ![1024, 2]⟩
abbrev S1024 : Shape := ⟨1, ![1024]⟩
abbrev S1024x1 : Shape := ⟨2, ![1024, 1]⟩
abbrev S65536x2 : Shape := ⟨2, ![65536, 2]⟩

abbrev nBuf : Space → Nat
  | .hbm => 24
  | .vmem => 19
  | .smem => 0
  | _ => 0

abbrev bufTy : (tb : Table) → Fin (tcTables nBuf tb) → BufTy
  | .hbm, ⟨0, _⟩ => ⟨S64x1024x256, .f32⟩
  | .hbm, ⟨1, _⟩ => ⟨S64x1024x1024, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S1024x256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256x2, .f32⟩
  | .hbm, ⟨14, _⟩ => ⟨S2, .f32⟩
  | .hbm, ⟨15, _⟩ => ⟨S1x512, .f32⟩
  | .hbm, ⟨16, _⟩ => ⟨S1x512, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x2, .f32⟩
  | .hbm, ⟨21, _⟩ => ⟨S1x256, .f32⟩
  | .hbm, ⟨22, _⟩ => ⟨S64x1024x2, .f32⟩
  | .hbm, ⟨23, _⟩ => ⟨S65536x2, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x1024, .f32⟩
  | .local _ .vmem, ⟨3, _⟩ => ⟨S1x1024x1024, .f32⟩
  | .local _ .vmem, ⟨4, _⟩ => ⟨S512x512, .f32⟩
  | .local _ .vmem, ⟨5, _⟩ => ⟨S1x512, .f32⟩
  | .local _ .vmem, ⟨6, _⟩ => ⟨S1024x512, .f32⟩
  | .local _ .vmem, ⟨7, _⟩ => ⟨S1x512, .f32⟩
  | .local _ .vmem, ⟨8, _⟩ => ⟨S1024x256, .f32⟩
  | .local _ .vmem, ⟨9, _⟩ => ⟨S1x256, .f32⟩
  | .local _ .vmem, ⟨10, _⟩ => ⟨S512x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S1x256, .f32⟩
  | .local _ .vmem, ⟨15, _⟩ => ⟨S256x2, .f32⟩
  | .local _ .vmem, ⟨16, _⟩ => ⟨S1x2, .f32⟩
  | .local _ .vmem, ⟨17, _⟩ => ⟨S1x1024x2, .f32⟩
  | .local _ .vmem, ⟨18, _⟩ => ⟨S1x1024x2, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1024x2 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S512_S1x512 : S512.ShapeCasts S1x512
  shapeCasts_S256_S1x256 : S256.ShapeCasts S1x256
  shapeCasts_S2_S1x2 : S2.ShapeCasts S1x2
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  concatenates_S1024x256_S1024x256_S1024x512_d1 : Shape.Concatenates [S1024x256, S1024x256] S1024x512 1
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  concatenates_S1024x512_S1024x512_S1024x1024_d1 : Shape.Concatenates [S1024x512, S1024x512] S1024x1024 1
  inb_S1024x512_S1024x512_0_0 : ∀ a, (![0, 0] : Fin 2 → Nat) a + S1024x512.size a ≤ S1024x512.size a
  h_S1024x512 : 0 < S1024x512.numel
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  reduces_S1024x2_S1024 : S1024x2.Reduces [1] S1024
  shapeCasts_S1024_S1024x1 : S1024.ShapeCasts S1024x1
  broadcasts_S1024x1_S1024x2 : S1024x1.Broadcasts S1024x2
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  shapeCasts_S1024x2_S1x1024x2 : S1024x2.ShapeCasts S1x1024x2
  shapeCasts_S64x1024x2_S65536x2 : S64x1024x2.ShapeCasts S65536x2
  dot_S1024x1024_S1024x256_S1024x256_1_0_0_1_n_n_wf : DotDims.WF S1024x1024 S1024x256 S1024x256 [1] [0] [0] [1] [] []
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x256_S256x2_S1024x2_1_0_0_1_n_n_wf : DotDims.WF S1024x256 S256x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S64x1024x256.size a
  hwx0_0 : ∀ i : grid0.Coords, EltTy.bits .f32 = 32 ∨ (Rect.block (s := S64x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .f32 = 32 ∨ (Rect.block (s := S1024x512) S1024x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x256.size a
  hwx0_6 : ∀ i : grid0.Coords, EltTy.bits .f32 = 32 ∨ (Rect.block (s := S1024x256) S1024x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x2.size a ≤ S256x2.size a
  hwx0_13 : ∀ i : grid0.Coords, EltTy.bits .f32 = 32 ∨ (Rect.block (s := S256x2) S256x2.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2.size a ≤ S1x2.size a
  hwx0_14 : ∀ i : grid0.Coords, EltTy.bits .f32 = 32 ∨ (Rect.block (s := S1x2) S1x2.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1024x2.size a ≤ S64x1024x2.size a
  hwx0_15 : ∀ i : grid0.Coords, EltTy.bits .f32 = 32 ∨ (Rect.block (s := S64x1024x2) S1x1024x2.size (cc0_transform_15 i) (hinb0_15 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S1x2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S1x1024x2.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S64x1024x1024 : Shape := ⟨3, ![64, 1024, 1024]⟩
abbrev S512x512 : Shape := ⟨2, ![512, 512]⟩
abbrev S512 : Shape := ⟨1, ![512]⟩
abbrev S1024x512 : Shape := ⟨2, ![1024, 512]⟩
abbrev S1024x256 : Shape := ⟨2, ![1024, 256]⟩
abbrev S256 : Shape := ⟨1, ![256]⟩
abbrev S512x256 : Shape := ⟨2, ![512, 256]⟩
abbrev S256x256 : Shape := ⟨2, ![256, 256]⟩
abbrev S256x2 : Shape := ⟨2, ![256, 2]⟩
abbrev S2 : Shape := ⟨1, ![2]⟩
abbrev S64x1024x512 : Shape := ⟨3, ![64, 1024, 512]⟩
abbrev S1x1x512 : Shape := ⟨3, ![1, 1, 512]⟩
abbrev S_ : Shape := ⟨0, ![]⟩
abbrev S1x1x256 : Shape := ⟨3, ![1, 1, 256]⟩
abbrev S65536x256 : Shape := ⟨2, ![65536, 256]⟩
abbrev S1x256 : Shape := ⟨2, ![1, 256]⟩
abbrev S65536x2 : Shape := ⟨2, ![65536, 2]⟩
abbrev S1x2 : Shape := ⟨2, ![1, 2]⟩
abbrev S65536 : Shape := ⟨1, ![65536]⟩
abbrev S65536x1 : Shape := ⟨2, ![65536, 1]⟩

abbrev nBuf : Space → Nat
  | .hbm => 82
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x1024x1024, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S1024x256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256x2, .f32⟩
  | .hbm, ⟨14, _⟩ => ⟨S2, .f32⟩
  | .hbm, ⟨15, _⟩ => ⟨S64x1024x256, .f32⟩
  | .hbm, ⟨16, _⟩ => ⟨S64x1024x512, .f32⟩
  | .hbm, ⟨17, _⟩ => ⟨S64x1024x512, .f32⟩
  | .hbm, ⟨18, _⟩ => ⟨S1x1x512, .f32⟩
  | .hbm, ⟨19, _⟩ => ⟨S64x1024x512, .f32⟩
  | .hbm, ⟨20, _⟩ => ⟨S64x1024x512, .f32⟩
  | .hbm, ⟨21, _⟩ => ⟨S_, .f32⟩
  | .hbm, ⟨22, _⟩ => ⟨S64x1024x512, .f32⟩
  | .hbm, ⟨23, _⟩ => ⟨S64x1024x512, .f32⟩
  | .hbm, ⟨24, _⟩ => ⟨S64x1024x512, .f32⟩
  | .hbm, ⟨25, _⟩ => ⟨S64x1024x1024, .f32⟩
  | .hbm, ⟨26, _⟩ => ⟨S64x1024x512, .f32⟩
  | .hbm, ⟨27, _⟩ => ⟨S1x1x512, .f32⟩
  | .hbm, ⟨28, _⟩ => ⟨S64x1024x512, .f32⟩
  | .hbm, ⟨29, _⟩ => ⟨S64x1024x512, .f32⟩
  | .hbm, ⟨30, _⟩ => ⟨S_, .f32⟩
  | .hbm, ⟨31, _⟩ => ⟨S64x1024x512, .f32⟩
  | .hbm, ⟨32, _⟩ => ⟨S64x1024x512, .f32⟩
  | .hbm, ⟨33, _⟩ => ⟨S64x1024x512, .f32⟩
  | .hbm, ⟨34, _⟩ => ⟨S64x1024x1024, .f32⟩
  | .hbm, ⟨35, _⟩ => ⟨S64x1024x256, .f32⟩
  | .hbm, ⟨36, _⟩ => ⟨S1x1x256, .f32⟩
  | .hbm, ⟨37, _⟩ => ⟨S64x1024x256, .f32⟩
  | .hbm, ⟨38, _⟩ => ⟨S64x1024x256, .f32⟩
  | .hbm, ⟨39, _⟩ => ⟨S_, .f32⟩
  | .hbm, ⟨40, _⟩ => ⟨S64x1024x256, .f32⟩
  | .hbm, ⟨41, _⟩ => ⟨S64x1024x256, .f32⟩
  | .hbm, ⟨42, _⟩ => ⟨S64x1024x256, .f32⟩
  | .hbm, ⟨43, _⟩ => ⟨S64x1024x512, .f32⟩
  | .hbm, ⟨44, _⟩ => ⟨S64x1024x256, .f32⟩
  | .hbm, ⟨45, _⟩ => ⟨S1x1x256, .f32⟩
  | .hbm, ⟨46, _⟩ => ⟨S64x1024x256, .f32⟩
  | .hbm, ⟨47, _⟩ => ⟨S64x1024x256, .f32⟩
  | .hbm, ⟨48, _⟩ => ⟨S_, .f32⟩
  | .hbm, ⟨49, _⟩ => ⟨S64x1024x256, .f32⟩
  | .hbm, ⟨50, _⟩ => ⟨S64x1024x256, .f32⟩
  | .hbm, ⟨51, _⟩ => ⟨S65536x256, .f32⟩
  | .hbm, ⟨52, _⟩ => ⟨S65536x256, .f32⟩
  | .hbm, ⟨53, _⟩ => ⟨S1x256, .f32⟩
  | .hbm, ⟨54, _⟩ => ⟨S65536x256, .f32⟩
  | .hbm, ⟨55, _⟩ => ⟨S65536x256, .f32⟩
  | .hbm, ⟨56, _⟩ => ⟨S_, .f32⟩
  | .hbm, ⟨57, _⟩ => ⟨S65536x256, .f32⟩
  | .hbm, ⟨58, _⟩ => ⟨S65536x256, .i1⟩
  | .hbm, ⟨59, _⟩ => ⟨S1x256, .f32⟩
  | .hbm, ⟨60, _⟩ => ⟨S65536x256, .f32⟩
  | .hbm, ⟨61, _⟩ => ⟨S65536x256, .f32⟩
  | .hbm, ⟨62, _⟩ => ⟨S65536x256, .f32⟩
  | .hbm, ⟨63, _⟩ => ⟨S65536x2, .f32⟩
  | .hbm, ⟨64, _⟩ => ⟨S1x2, .f32⟩
  | .hbm, ⟨65, _⟩ => ⟨S65536x2, .f32⟩
  | .hbm, ⟨66, _⟩ => ⟨S65536x2, .f32⟩
  | .hbm, ⟨67, _⟩ => ⟨S_, .f32⟩
  | .hbm, ⟨68, _⟩ => ⟨S65536, .f32⟩
  | .hbm, ⟨69, _⟩ => ⟨S_, .f32⟩
  | .hbm, ⟨70, _⟩ => ⟨S65536, .f32⟩
  | .hbm, ⟨71, _⟩ => ⟨S65536, .f32⟩
  | .hbm, ⟨72, _⟩ => ⟨S65536x1, .f32⟩
  | .hbm, ⟨73, _⟩ => ⟨S65536x2, .f32⟩
  | .hbm, ⟨74, _⟩ => ⟨S65536x2, .f32⟩
  | .hbm, ⟨75, _⟩ => ⟨S65536x2, .f32⟩
  | .hbm, ⟨76, _⟩ => ⟨S_, .f32⟩
  | .hbm, ⟨77, _⟩ => ⟨S65536, .f32⟩
  | .hbm, ⟨78, _⟩ => ⟨S65536x1, .f32⟩
  | .hbm, ⟨79, _⟩ => ⟨S65536x1, .f32⟩
  | .hbm, ⟨80, _⟩ => ⟨S65536x2, .f32⟩
  | .hbm, ⟨81, _⟩ => ⟨S65536x2, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_cst : Ref sig .tc := ⟨.hbm, 21, rfl⟩
abbrev main_call0_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_cst : Ref sig .tc := ⟨.hbm, 30, rfl⟩
abbrev main_call1_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call2_cst : Ref sig .tc := ⟨.hbm, 39, rfl⟩
abbrev main_call2_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call3_cst : Ref sig .tc := ⟨.hbm, 48, rfl⟩
abbrev main_call3_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call5_cst : Ref sig .tc := ⟨.hbm, 67, rfl⟩
abbrev main_call5_v0 : Ref sig .tc := ⟨.hbm, 68, rfl⟩
abbrev main_call5_cst_0 : Ref sig .tc := ⟨.hbm, 69, rfl⟩
abbrev main_call5_v1 : Ref sig .tc := ⟨.hbm, 70, rfl⟩
abbrev main_call5_v2 : Ref sig .tc := ⟨.hbm, 71, rfl⟩
abbrev main_call5_v3 : Ref sig .tc := ⟨.hbm, 72, rfl⟩
abbrev main_call5_v4 : Ref sig .tc := ⟨.hbm, 73, rfl⟩
abbrev main_call5_v5 : Ref sig .tc := ⟨.hbm, 74, rfl⟩
abbrev main_call5_v6 : Ref sig .tc := ⟨.hbm, 75, rfl⟩
abbrev main_call5_cst_1 : Ref sig .tc := ⟨.hbm, 76, rfl⟩
abbrev main_call5_v7 : Ref sig .tc := ⟨.hbm, 77, rfl⟩
abbrev main_call5_v8 : Ref sig .tc := ⟨.hbm, 78, rfl⟩
abbrev main_call5_v9 : Ref sig .tc := ⟨.hbm, 79, rfl⟩
abbrev main_call5_v10 : Ref sig .tc := ⟨.hbm, 80, rfl⟩
abbrev main_v43 : Ref sig .tc := ⟨.hbm, 81, rfl⟩

abbrev nD : Nat := 1
abbrev τ : Topo := Topo.v7x

variable {F : FTy → Type} [FloatOps F]

class Facts₀ : Prop where
  concatenates_S64x1024x256_S64x1024x256_S64x1024x512_d2 : Shape.Concatenates [S64x1024x256, S64x1024x256] S64x1024x512 2
  bcast_S512_S1x1x512_2 : S512.BroadcastsInDim S1x1x512 (![2] : Fin 1 → Fin S1x1x512.rank)
  bcast_S1x1x512_S64x1024x512_0_1_2 : S1x1x512.BroadcastsInDim S64x1024x512 (![0, 1, 2] : Fin 3 → Fin S64x1024x512.rank)
  bcast_S_S64x1024x512 : S_.BroadcastsInDim S64x1024x512 (![] : Fin 0 → Fin S64x1024x512.rank)
  concatenates_S64x1024x512_S64x1024x512_S64x1024x1024_d2 : Shape.Concatenates [S64x1024x512, S64x1024x512] S64x1024x1024 2
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  bcast_S_S64x1024x256 : S_.BroadcastsInDim S64x1024x256 (![] : Fin 0 → Fin S64x1024x256.rank)
  shapeCasts_S64x1024x256_S65536x256 : S64x1024x256.ShapeCasts S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  reducesTo_S65536x2_S65536_d1 : S65536x2.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x2_0_1 : S65536x1.BroadcastsInDim S65536x2 (![0, 1] : Fin 2 → Fin S65536x2.rank)
  dot_S64x1024x1024_S64x1024x256_S64x1024x256_2_1_1_2_0_0_wf : DotDims.WF S64x1024x1024 S64x1024x256 S64x1024x256 [2] [1] [1] [2] [0] [0]
  dot_S64x1024x512_S512x512_S64x1024x512_2_0_01_1_n_n_wf : DotDims.WF S64x1024x512 S512x512 S64x1024x512 [2] [0] [0, 1] [1] [] []
  dot_S64x1024x1024_S64x1024x512_S64x1024x512_2_1_1_2_0_0_wf : DotDims.WF S64x1024x1024 S64x1024x512 S64x1024x512 [2] [1] [1] [2] [0] [0]
  dot_S64x1024x1024_S1024x512_S64x1024x512_2_0_01_1_n_n_wf : DotDims.WF S64x1024x1024 S1024x512 S64x1024x512 [2] [0] [0, 1] [1] [] []
  dot_S64x1024x1024_S1024x256_S64x1024x256_2_0_01_1_n_n_wf : DotDims.WF S64x1024x1024 S1024x256 S64x1024x256 [2] [0] [0, 1] [1] [] []
  dot_S64x1024x512_S512x256_S64x1024x256_2_0_01_1_n_n_wf : DotDims.WF S64x1024x512 S512x256 S64x1024x256 [2] [0] [0, 1] [1] [] []
  dot_S65536x256_S256x256_S65536x256_1_0_0_1_n_n_wf : DotDims.WF S65536x256 S256x256 S65536x256 [1] [0] [0] [1] [] []
  dot_S65536x256_S256x2_S65536x2_1_0_0_1_n_n_wf : DotDims.WF S65536x256 S256x2 S65536x2 [1] [0] [0] [1] [] []

variable [Facts₀]

def dot_S64x1024x1024_S64x1024x256_S64x1024x256_2_1_1_2_0_0 : DotDims S64x1024x1024 S64x1024x256 S64x1024x256 where
  lhsContracting := [2]
  rhsContracting := [1]
  lhsNonContracting := [1]
  rhsNonContracting := [2]
  lhsBatch := [0]
  rhsBatch := [0]
  wf := dot_S64x1024x1024_S64x1024x256_S64x1024x256_2_1_1_2_0_0_wf
def dot_S64x1024x512_S512x512_S64x1024x512_2_0_01_1_n_n : DotDims S64x1024x512 S512x512 S64x1024x512 where
  lhsContracting := [2]
  rhsContracting := [0]
  lhsNonContracting := [0, 1]
  rhsNonContracting := [1]
  lhsBatch := []
  rhsBatch := []
  wf := dot_S64x1024x512_S512x512_S64x1024x512_2_0_01_1_n_n_wf
def dot_S64x1024x1024_S64x1024x512_S64x1024x512_2_1_1_2_0_0 : DotDims S64x1024x1024 S64x1024x512 S64x1024x512 where
  lhsContracting := [2]
  rhsContracting := [1]
  lhsNonContracting := [1]
  rhsNonContracting := [2]
  lhsBatch := [0]
  rhsBatch := [0]
  wf := dot_S64x1024x1024_S64x1024x512_S64x1024x512_2_1_1_2_0_0_wf
def dot_S64x1024x1024_S1024x512_S64x1024x512_2_0_01_1_n_n : DotDims S64x1024x1024 S1024x512 S64x1024x512 where
  lhsContracting := [2]
  rhsContracting := [0]
  lhsNonContracting := [0, 1]
  rhsNonContracting := [1]
  lhsBatch := []
  rhsBatch := []
  wf := dot_S64x1024x1024_S1024x512_S64x1024x512_2_0_01_1_n_n_wf
def dot_S64x1024x1024_S1024x256_S64x1024x256_2_0_01_1_n_n : DotDims S64x1024x1024 S1024x256 S64x1024x256 where
  lhsContracting := [2]
  rhsContracting := [0]
  lhsNonContracting := [0, 1]
  rhsNonContracting := [1]
  lhsBatch := []
  rhsBatch := []
  wf := dot_S64x1024x1024_S1024x256_S64x1024x256_2_0_01_1_n_n_wf
def dot_S64x1024x512_S512x256_S64x1024x256_2_0_01_1_n_n : DotDims S64x1024x512 S512x256 S64x1024x256 where
  lhsContracting := [2]
  rhsContracting := [0]
  lhsNonContracting := [0, 1]
  rhsNonContracting := [1]
  lhsBatch := []
  rhsBatch := []
  wf := dot_S64x1024x512_S512x256_S64x1024x256_2_0_01_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x2_S65536x2_1_0_0_1_n_n : DotDims S65536x256 S256x2 S65536x2 where
  lhsContracting := [1]
  rhsContracting := [0]
  lhsNonContracting := [0]
  rhsNonContracting := [1]
  lhsBatch := []
  rhsBatch := []
  wf := dot_S65536x256_S256x2_S65536x2_1_0_0_1_n_n_wf

class Facts : Prop extends Facts₀ where

variable [Facts]
-- ==== Proof.RefWalk.lean ====
/-
  The reference's run, one host operation at a time.

  The reference's @main is a list of 67 host operations, each writing one fresh buffer from buffers written before it or
  from the arguments. The contents after the whole list are the fold of the operations over the starting contents. Read
  at the result buffer all at once, that fold unfolds every stage into every place it is used and the term grows
  beyond use; read one operation at a time it stays small: after the first `k` operations every buffer that a later
  operation still reads holds its stage — the named function `val_…` of the arguments (RefRead.lean) — and an argument
  still to be read holds what it held. One more operation writes its own stage from stages already named, and leaves
  every other buffer alone because it writes no buffer but its own.

  `drop_k` splits the list at position `k` into operation `k` and the rest. `tail_k` says: from any contents `W` in which
  the buffers still to be read hold their stages, the rest of the list from position `k` ends with the result buffer at
  the last stage. `tail_67` is the hypothesis itself, `tail_k` is `tail_(k+1)` after operation `k`, and `tail_0` needs
  only the arguments, so it holds of the contents the run starts from. Nothing here depends on what a float is.
-/
import proofs.«119564_j46969762349346_1_alg».proof.Proof.RefRead
import Idealize.ShloMosaic.Lib.StableHlo.Run

noncomputable section

namespace Cert.RefWalk

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

/-! ## The list of operations, split at every position -/

theorem drop_0 : List.drop 0 (ops (F := F)) = (binary main_arg1 main_arg0 main_v0 ((fun l r => Host.dotGeneral dot_S64x1024x1024_S64x1024x256_S64x1024x256_2_1_1_2_0_0 none l r) : (⟨S64x1024x1024, .f32⟩ : BufTy).Contents (Elt F) → (⟨S64x1024x256, .f32⟩ : BufTy).Contents (Elt F) → (⟨S64x1024x256, .f32⟩ : BufTy).Contents (Elt F)) : HloOp τ sig (Elt F)) :: List.drop 1 (ops (F := F)) := rfl
theorem drop_1 : List.drop 1 (ops (F := F)) = (binary main_arg0 main_v0 main_v1 ((fun a b => concatenate S64x1024x512 2 [⟨S64x1024x256, a⟩, ⟨S64x1024x256, b⟩] concatenates_S64x1024x256_S64x1024x256_S64x1024x512_d2) : (⟨S64x1024x256, .f32⟩ : BufTy).Contents (Elt F) → (⟨S64x1024x256, .f32⟩ : BufTy).Contents (Elt F) → (⟨S64x1024x512, .f32⟩ : BufTy).Contents (Elt F)) : HloOp τ sig (Elt F)) :: List.drop 2 (ops (F := F)) := rfl
theorem drop_2 : List.drop 2 (ops (F := F)) = (binary main_v1 main_arg2 main_v2 ((fun l r => Host.dotGeneral dot_S64x1024x512_S512x512_S64x1024x512_2_0_01_1_n_n none l r) : (⟨S64x1024x512, .f32⟩ : BufTy).Contents (Elt F) → (⟨S512x512, .f32⟩ : BufTy).Contents (Elt F) → (⟨S64x1024x512, .f32⟩ : BufTy).Contents (Elt F)) : HloOp τ sig (Elt F)) :: List.drop 3 (ops (F := F)) := rfl
theorem drop_3 : List.drop 3 (ops (F := F)) = (unary main_arg3 main_v3 (broadcastInDim S1x1x512 ![2] bcast_S512_S1x1x512_2 : (⟨S512, .f32⟩ : BufTy).Contents (Elt F) → (⟨S1x1x512, .f32⟩ : BufTy).Contents (Elt F)) : HloOp τ sig (Elt F)) :: List.drop 4 (ops (F := F)) := rfl
theorem drop_4 : List.drop 4 (ops (F := F)) = (unary main_v3 main_v4 (broadcastInDim S64x1024x512 ![0, 1, 2] bcast_S1x1x512_S64x1024x512_0_1_2 : (⟨S1x1x512, .f32⟩ : BufTy).Contents (Elt F) → (⟨S64x1024x512, .f32⟩ : BufTy).Contents (Elt F)) : HloOp τ sig (Elt F)) :: List.drop 5 (ops (F := F)) := rfl
theorem drop_5 : List.drop 5 (ops (F := F)) = (binary main_v2 main_v4 main_v5 (addf : (⟨S64x1024x512, .f32⟩ : BufTy).Contents (Elt F) → (⟨S64x1024x512, .f32⟩ : BufTy).Contents (Elt F) → (⟨S64x1024x512, .f32⟩ : BufTy).Contents (Elt F)) : HloOp τ sig (Elt F)) :: List.drop 6 (ops (F := F)) := rfl
theorem drop_6 : List.drop 6 (ops (F := F)) = (TRef.nullary (TRef.of (T := ⟨S_, .f32⟩) main_call0_cst) (constant S_ .f32 0x00000000#32) : HloOp τ sig (Elt F)) :: List.drop 7 (ops (F := F)) := rfl
theorem drop_7 : List.drop 7 (ops (F := F)) = (TRef.unary (TRef.of (T := ⟨S_, .f32⟩) main_call0_cst) (TRef.of (T := ⟨S64x1024x512, .f32⟩) main_call0_v0) (broadcastInDim S64x1024x512 ![] bcast_S_S64x1024x512) : HloOp τ sig (Elt F)) :: List.drop 8 (ops (F := F)) := rfl
theorem drop_8 : List.drop 8 (ops (F := F)) = (TRef.binary (TRef.of (T := ⟨S64x1024x512, .f32⟩) main_v5) (TRef.of (T := ⟨S64x1024x512, .f32⟩) main_call0_v0) (TRef.of (T := ⟨S64x1024x512, .f32⟩) main_v6) maximumf : HloOp τ sig (Elt F)) :: List.drop 9 (ops (F := F)) := rfl
theorem drop_9 : List.drop 9 (ops (F := F)) = (binary main_arg1 main_v6 main_v7 ((fun l r => Host.dotGeneral dot_S64x1024x1024_S64x1024x512_S64x1024x512_2_1_1_2_0_0 none l r) : (⟨S64x1024x1024, .f32⟩ : BufTy).Contents (Elt F) → (⟨S64x1024x512, .f32⟩ : BufTy).Contents (Elt F) → (⟨S64x1024x512, .f32⟩ : BufTy).Contents (Elt F)) : HloOp τ sig (Elt F)) :: List.drop 10 (ops (F := F)) := rfl
theorem drop_10 : List.drop 10 (ops (F := F)) = (binary main_v6 main_v7 main_v8 ((fun a b => concatenate S64x1024x1024 2 [⟨S64x1024x512, a⟩, ⟨S64x1024x512, b⟩] concatenates_S64x1024x512_S64x1024x512_S64x1024x1024_d2) : (⟨S64x1024x512, .f32⟩ : BufTy).Contents (Elt F) → (⟨S64x1024x512, .f32⟩ : BufTy).Contents (Elt F) → (⟨S64x1024x1024, .f32⟩ : BufTy).Contents (Elt F)) : HloOp τ sig (Elt F)) :: List.drop 11 (ops (F := F)) := rfl
theorem drop_11 : List.drop 11 (ops (F := F)) = (binary main_v8 main_arg4 main_v9 ((fun l r => Host.dotGeneral dot_S64x1024x1024_S1024x512_S64x1024x512_2_0_01_1_n_n none l r) : (⟨S64x1024x1024, .f32⟩ : BufTy).Contents (Elt F) → (⟨S1024x512, .f32⟩ : BufTy).Contents (Elt F) → (⟨S64x1024x512, .f32⟩ : BufTy).Contents (Elt F)) : HloOp τ sig (Elt F)) :: List.drop 12 (ops (F := F)) := rfl
theorem drop_12 : List.drop 12 (ops (F := F)) = (unary main_arg5 main_v10 (broadcastInDim S1x1x512 ![2] bcast_S512_S1x1x512_2 : (⟨S512, .f32⟩ : BufTy).Contents (Elt F) → (⟨S1x1x512, .f32⟩ : BufTy).Contents (Elt F)) : HloOp τ sig (Elt F)) :: List.drop 13 (ops (F := F)) := rfl
theorem drop_13 : List.drop 13 (ops (F := F)) = (unary main_v10 main_v11 (broadcastInDim S64x1024x512 ![0, 1, 2] bcast_S1x1x512_S64x1024x512_0_1_2 : (⟨S1x1x512, .f32⟩ : BufTy).Contents (Elt F) → (⟨S64x1024x512, .f32⟩ : BufTy).Contents (Elt F)) : HloOp τ sig (Elt F)) :: List.drop 14 (ops (F := F)) := rfl
theorem drop_14 : List.drop 14 (ops (F := F)) = (binary main_v9 main_v11 main_v12 (addf : (⟨S64x1024x512, .f32⟩ : BufTy).Contents (Elt F) → (⟨S64x1024x512, .f32⟩ : BufTy).Contents (Elt F) → (⟨S64x1024x512, .f32⟩ : BufTy).Contents (Elt F)) : HloOp τ sig (Elt F)) :: List.drop 15 (ops (F := F)) := rfl
theorem drop_15 : List.drop 15 (ops (F := F)) = (TRef.nullary (TRef.of (T := ⟨S_, .f32⟩) main_call1_cst) (constant S_ .f32 0x00000000#32) : HloOp τ sig (Elt F)) :: List.drop 16 (ops (F := F)) := rfl
theorem drop_16 : List.drop 16 (ops (F := F)) = (TRef.unary (TRef.of (T := ⟨S_, .f32⟩) main_call1_cst) (TRef.of (T := ⟨S64x1024x512, .f32⟩) main_call1_v0) (broadcastInDim S64x1024x512 ![] bcast_S_S64x1024x512) : HloOp τ sig (Elt F)) :: List.drop 17 (ops (F := F)) := rfl
theorem drop_17 : List.drop 17 (ops (F := F)) = (TRef.binary (TRef.of (T := ⟨S64x1024x512, .f32⟩) main_v12) (TRef.of (T := ⟨S64x1024x512, .f32⟩) main_call1_v0) (TRef.of (T := ⟨S64x1024x512, .f32⟩) main_v13) maximumf : HloOp τ sig (Elt F)) :: List.drop 18 (ops (F := F)) := rfl
theorem drop_18 : List.drop 18 (ops (F := F)) = (binary main_arg1 main_v13 main_v14 ((fun l r => Host.dotGeneral dot_S64x1024x1024_S64x1024x512_S64x1024x512_2_1_1_2_0_0 none l r) : (⟨S64x1024x1024, .f32⟩ : BufTy).Contents (Elt F) → (⟨S64x1024x512, .f32⟩ : BufTy).Contents (Elt F) → (⟨S64x1024x512, .f32⟩ : BufTy).Contents (Elt F)) : HloOp τ sig (Elt F)) :: List.drop 19 (ops (F := F)) := rfl
theorem drop_19 : List.drop 19 (ops (F := F)) = (binary main_v13 main_v14 main_v15 ((fun a b => concatenate S64x1024x1024 2 [⟨S64x1024x512, a⟩, ⟨S64x1024x512, b⟩] concatenates_S64x1024x512_S64x1024x512_S64x1024x1024_d2) : (⟨S64x1024x512, .f32⟩ : BufTy).Contents (Elt F) → (⟨S64x1024x512, .f32⟩ : BufTy).Contents (Elt F) → (⟨S64x1024x1024, .f32⟩ : BufTy).Contents (Elt F)) : HloOp τ sig (Elt F)) :: List.drop 20 (ops (F := F)) := rfl
theorem drop_20 : List.drop 20 (ops (F := F)) = (binary main_v15 main_arg6 main_v16 ((fun l r => Host.dotGeneral dot_S64x1024x1024_S1024x256_S64x1024x256_2_0_01_1_n_n none l r) : (⟨S64x1024x1024, .f32⟩ : BufTy).Contents (Elt F) → (⟨S1024x256, .f32⟩ : BufTy).Contents (Elt F) → (⟨S64x1024x256, .f32⟩ : BufTy).Contents (Elt F)) : HloOp τ sig (Elt F)) :: List.drop 21 (ops (F := F)) := rfl
theorem drop_21 : List.drop 21 (ops (F := F)) = (unary main_arg7 main_v17 (broadcastInDim S1x1x256 ![2] bcast_S256_S1x1x256_2 : (⟨S256, .f32⟩ : BufTy).Contents (Elt F) → (⟨S1x1x256, .f32⟩ : BufTy).Contents (Elt F)) : HloOp τ sig (Elt F)) :: List.drop 22 (ops (F := F)) := rfl
theorem drop_22 : List.drop 22 (ops (F := F)) = (unary main_v17 main_v18 (broadcastInDim S64x1024x256 ![0, 1, 2] bcast_S1x1x256_S64x1024x256_0_1_2 : (⟨S1x1x256, .f32⟩ : BufTy).Contents (Elt F) → (⟨S64x1024x256, .f32⟩ : BufTy).Contents (Elt F)) : HloOp τ sig (Elt F)) :: List.drop 23 (ops (F := F)) := rfl
theorem drop_23 : List.drop 23 (ops (F := F)) = (binary main_v16 main_v18 main_v19 (addf : (⟨S64x1024x256, .f32⟩ : BufTy).Contents (Elt F) → (⟨S64x1024x256, .f32⟩ : BufTy).Contents (Elt F) → (⟨S64x1024x256, .f32⟩ : BufTy).Contents (Elt F)) : HloOp τ sig (Elt F)) :: List.drop 24 (ops (F := F)) := rfl
theorem drop_24 : List.drop 24 (ops (F := F)) = (TRef.nullary (TRef.of (T := ⟨S_, .f32⟩) main_call2_cst) (constant S_ .f32 0x00000000#32) : HloOp τ sig (Elt F)) :: List.drop 25 (ops (F := F)) := rfl
theorem drop_25 : List.drop 25 (ops (F := F)) = (TRef.unary (TRef.of (T := ⟨S_, .f32⟩) main_call2_cst) (TRef.of (T := ⟨S64x1024x256, .f32⟩) main_call2_v0) (broadcastInDim S64x1024x256 ![] bcast_S_S64x1024x256) : HloOp τ sig (Elt F)) :: List.drop 26 (ops (F := F)) := rfl
theorem drop_26 : List.drop 26 (ops (F := F)) = (TRef.binary (TRef.of (T := ⟨S64x1024x256, .f32⟩) main_v19) (TRef.of (T := ⟨S64x1024x256, .f32⟩) main_call2_v0) (TRef.of (T := ⟨S64x1024x256, .f32⟩) main_v20) maximumf : HloOp τ sig (Elt F)) :: List.drop 27 (ops (F := F)) := rfl
theorem drop_27 : List.drop 27 (ops (F := F)) = (binary main_arg1 main_v20 main_v21 ((fun l r => Host.dotGeneral dot_S64x1024x1024_S64x1024x256_S64x1024x256_2_1_1_2_0_0 none l r) : (⟨S64x1024x1024, .f32⟩ : BufTy).Contents (Elt F) → (⟨S64x1024x256, .f32⟩ : BufTy).Contents (Elt F) → (⟨S64x1024x256, .f32⟩ : BufTy).Contents (Elt F)) : HloOp τ sig (Elt F)) :: List.drop 28 (ops (F := F)) := rfl
theorem drop_28 : List.drop 28 (ops (F := F)) = (binary main_v20 main_v21 main_v22 ((fun a b => concatenate S64x1024x512 2 [⟨S64x1024x256, a⟩, ⟨S64x1024x256, b⟩] concatenates_S64x1024x256_S64x1024x256_S64x1024x512_d2) : (⟨S64x1024x256, .f32⟩ : BufTy).Contents (Elt F) → (⟨S64x1024x256, .f32⟩ : BufTy).Contents (Elt F) → (⟨S64x1024x512, .f32⟩ : BufTy).Contents (Elt F)) : HloOp τ sig (Elt F)) :: List.drop 29 (ops (F := F)) := rfl
theorem drop_29 : List.drop 29 (ops (F := F)) = (binary main_v22 main_arg8 main_v23 ((fun l r => Host.dotGeneral dot_S64x1024x512_S512x256_S64x1024x256_2_0_01_1_n_n none l r) : (⟨S64x1024x512, .f32⟩ : BufTy).Contents (Elt F) → (⟨S512x256, .f32⟩ : BufTy).Contents (Elt F) → (⟨S64x1024x256, .f32⟩ : BufTy).Contents (Elt F)) : HloOp τ sig (Elt F)) :: List.drop 30 (ops (F := F)) := rfl
theorem drop_30 : List.drop 30 (ops (F := F)) = (unary main_arg9 main_v24 (broadcastInDim S1x1x256 ![2] bcast_S256_S1x1x256_2 : (⟨S256, .f32⟩ : BufTy).Contents (Elt F) → (⟨S1x1x256, .f32⟩ : BufTy).Contents (Elt F)) : HloOp τ sig (Elt F)) :: List.drop 31 (ops (F := F)) := rfl
theorem drop_31 : List.drop 31 (ops (F := F)) = (unary main_v24 main_v25 (broadcastInDim S64x1024x256 ![0, 1, 2] bcast_S1x1x256_S64x1024x256_0_1_2 : (⟨S1x1x256, .f32⟩ : BufTy).Contents (Elt F) → (⟨S64x1024x256, .f32⟩ : BufTy).Contents (Elt F)) : HloOp τ sig (Elt F)) :: List.drop 32 (ops (F := F)) := rfl
theorem drop_32 : List.drop 32 (ops (F := F)) = (binary main_v23 main_v25 main_v26 (addf : (⟨S64x1024x256, .f32⟩ : BufTy).Contents (Elt F) → (⟨S64x1024x256, .f32⟩ : BufTy).Contents (Elt F) → (⟨S64x1024x256, .f32⟩ : BufTy).Contents (Elt F)) : HloOp τ sig (Elt F)) :: List.drop 33 (ops (F := F)) := rfl
theorem drop_33 : List.drop 33 (ops (F := F)) = (TRef.nullary (TRef.of (T := ⟨S_, .f32⟩) main_call3_cst) (constant S_ .f32 0x00000000#32) : HloOp τ sig (Elt F)) :: List.drop 34 (ops (F := F)) := rfl
theorem drop_34 : List.drop 34 (ops (F := F)) = (TRef.unary (TRef.of (T := ⟨S_, .f32⟩) main_call3_cst) (TRef.of (T := ⟨S64x1024x256, .f32⟩) main_call3_v0) (broadcastInDim S64x1024x256 ![] bcast_S_S64x1024x256) : HloOp τ sig (Elt F)) :: List.drop 35 (ops (F := F)) := rfl
theorem drop_35 : List.drop 35 (ops (F := F)) = (TRef.binary (TRef.of (T := ⟨S64x1024x256, .f32⟩) main_v26) (TRef.of (T := ⟨S64x1024x256, .f32⟩) main_call3_v0) (TRef.of (T := ⟨S64x1024x256, .f32⟩) main_v27) maximumf : HloOp τ sig (Elt F)) :: List.drop 36 (ops (F := F)) := rfl
theorem drop_36 : List.drop 36 (ops (F := F)) = (reshape main_v27 main_v28 rfl shapeCasts_S64x1024x256_S65536x256 : HloOp τ sig (Elt F)) :: List.drop 37 (ops (F := F)) := rfl
theorem drop_37 : List.drop 37 (ops (F := F)) = (binary main_v28 main_arg10 main_v29 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)) : HloOp τ sig (Elt F)) :: List.drop 38 (ops (F := F)) := rfl
theorem drop_38 : List.drop 38 (ops (F := F)) = (unary main_arg11 main_v30 (broadcastInDim S1x256 ![1] bcast_S256_S1x256_1 : (⟨S256, .f32⟩ : BufTy).Contents (Elt F) → (⟨S1x256, .f32⟩ : BufTy).Contents (Elt F)) : HloOp τ sig (Elt F)) :: List.drop 39 (ops (F := F)) := rfl
theorem drop_39 : List.drop 39 (ops (F := F)) = (unary main_v30 main_v31 (broadcastInDim S65536x256 ![0, 1] bcast_S1x256_S65536x256_0_1 : (⟨S1x256, .f32⟩ : BufTy).Contents (Elt F) → (⟨S65536x256, .f32⟩ : BufTy).Contents (Elt F)) : HloOp τ sig (Elt F)) :: List.drop 40 (ops (F := F)) := rfl
theorem drop_40 : List.drop 40 (ops (F := F)) = (binary main_v29 main_v31 main_v32 (addf : (⟨S65536x256, .f32⟩ : BufTy).Contents (Elt F) → (⟨S65536x256, .f32⟩ : BufTy).Contents (Elt F) → (⟨S65536x256, .f32⟩ : BufTy).Contents (Elt F)) : HloOp τ sig (Elt F)) :: List.drop 41 (ops (F := F)) := rfl
theorem drop_41 : List.drop 41 (ops (F := F)) = (nullary main_cst (constant S_ .f32 0x00000000#32) : HloOp τ sig (Elt F)) :: List.drop 42 (ops (F := F)) := rfl
theorem drop_42 : List.drop 42 (ops (F := F)) = (unary main_cst main_v33 (broadcastInDim S65536x256 ![] bcast_S_S65536x256 : (⟨S_, .f32⟩ : BufTy).Contents (Elt F) → (⟨S65536x256, .f32⟩ : BufTy).Contents (Elt F)) : HloOp τ sig (Elt F)) :: List.drop 43 (ops (F := F)) := rfl
theorem drop_43 : List.drop 43 (ops (F := F)) = (binary main_v32 main_v33 main_v34 (cmpf .ogt : (⟨S65536x256, .f32⟩ : BufTy).Contents (Elt F) → (⟨S65536x256, .f32⟩ : BufTy).Contents (Elt F) → (⟨S65536x256, .i1⟩ : BufTy).Contents (Elt F)) : HloOp τ sig (Elt F)) :: List.drop 44 (ops (F := F)) := rfl
theorem drop_44 : List.drop 44 (ops (F := F)) = (unary main_arg12 main_v35 (broadcastInDim S1x256 ![1] bcast_S256_S1x256_1 : (⟨S256, .f32⟩ : BufTy).Contents (Elt F) → (⟨S1x256, .f32⟩ : BufTy).Contents (Elt F)) : HloOp τ sig (Elt F)) :: List.drop 45 (ops (F := F)) := rfl
theorem drop_45 : List.drop 45 (ops (F := F)) = (unary main_v35 main_v36 (broadcastInDim S65536x256 ![0, 1] bcast_S1x256_S65536x256_0_1 : (⟨S1x256, .f32⟩ : BufTy).Contents (Elt F) → (⟨S65536x256, .f32⟩ : BufTy).Contents (Elt F)) : HloOp τ sig (Elt F)) :: List.drop 46 (ops (F := F)) := rfl
theorem drop_46 : List.drop 46 (ops (F := F)) = (binary main_v36 main_v32 main_v37 (mulf : (⟨S65536x256, .f32⟩ : BufTy).Contents (Elt F) → (⟨S65536x256, .f32⟩ : BufTy).Contents (Elt F) → (⟨S65536x256, .f32⟩ : BufTy).Contents (Elt F)) : HloOp τ sig (Elt F)) :: List.drop 47 (ops (F := F)) := rfl
theorem drop_47 : List.drop 47 (ops (F := F)) = (TRef.ternary (TRef.of (T := ⟨S65536x256, .i1⟩) main_v34) (TRef.of (T := ⟨S65536x256, .f32⟩) main_v32) (TRef.of (T := ⟨S65536x256, .f32⟩) main_v37) (TRef.of (T := ⟨S65536x256, .f32⟩) main_v38) select : HloOp τ sig (Elt F)) :: List.drop 48 (ops (F := F)) := rfl
theorem drop_48 : List.drop 48 (ops (F := F)) = (binary main_v38 main_arg13 main_v39 ((fun l r => Host.dotGeneral dot_S65536x256_S256x2_S65536x2_1_0_0_1_n_n none l r) : (⟨S65536x256, .f32⟩ : BufTy).Contents (Elt F) → (⟨S256x2, .f32⟩ : BufTy).Contents (Elt F) → (⟨S65536x2, .f32⟩ : BufTy).Contents (Elt F)) : HloOp τ sig (Elt F)) :: List.drop 49 (ops (F := F)) := rfl
theorem drop_49 : List.drop 49 (ops (F := F)) = (unary main_arg14 main_v40 (broadcastInDim S1x2 ![1] bcast_S2_S1x2_1 : (⟨S2, .f32⟩ : BufTy).Contents (Elt F) → (⟨S1x2, .f32⟩ : BufTy).Contents (Elt F)) : HloOp τ sig (Elt F)) :: List.drop 50 (ops (F := F)) := rfl
theorem drop_50 : List.drop 50 (ops (F := F)) = (unary main_v40 main_v41 (broadcastInDim S65536x2 ![0, 1] bcast_S1x2_S65536x2_0_1 : (⟨S1x2, .f32⟩ : BufTy).Contents (Elt F) → (⟨S65536x2, .f32⟩ : BufTy).Contents (Elt F)) : HloOp τ sig (Elt F)) :: List.drop 51 (ops (F := F)) := rfl
theorem drop_51 : List.drop 51 (ops (F := F)) = (binary main_v39 main_v41 main_v42 (addf : (⟨S65536x2, .f32⟩ : BufTy).Contents (Elt F) → (⟨S65536x2, .f32⟩ : BufTy).Contents (Elt F) → (⟨S65536x2, .f32⟩ : BufTy).Contents (Elt F)) : HloOp τ sig (Elt F)) :: List.drop 52 (ops (F := F)) := rfl
theorem drop_52 : List.drop 52 (ops (F := F)) = (TRef.nullary (TRef.of (T := ⟨S_, .f32⟩) main_call5_cst) (constant S_ .f32 0xFF800000#32) : HloOp τ sig (Elt F)) :: List.drop 53 (ops (F := F)) := rfl
theorem drop_53 : List.drop 53 (ops (F := F)) = (TRef.binary (TRef.of (T := ⟨S65536x2, .f32⟩) main_v42) (TRef.of (T := ⟨S_, .f32⟩) main_call5_cst) (TRef.of (T := ⟨S65536, .f32⟩) main_call5_v0) (fun x v => Host.reduce FloatOps.maximumf x v reducesTo_S65536x2_S65536_d1 h_S_) : HloOp τ sig (Elt F)) :: List.drop 54 (ops (F := F)) := rfl
theorem drop_54 : List.drop 54 (ops (F := F)) = (TRef.nullary (TRef.of (T := ⟨S_, .f32⟩) main_call5_cst_0) (constant S_ .f32 0xFF800000#32) : HloOp τ sig (Elt F)) :: List.drop 55 (ops (F := F)) := rfl
theorem drop_55 : List.drop 55 (ops (F := F)) = (TRef.unary (TRef.of (T := ⟨S_, .f32⟩) main_call5_cst_0) (TRef.of (T := ⟨S65536, .f32⟩) main_call5_v1) (broadcastInDim S65536 ![] bcast_S_S65536) : HloOp τ sig (Elt F)) :: List.drop 56 (ops (F := F)) := rfl
theorem drop_56 : List.drop 56 (ops (F := F)) = (TRef.binary (TRef.of (T := ⟨S65536, .f32⟩) main_call5_v1) (TRef.of (T := ⟨S65536, .f32⟩) main_call5_v0) (TRef.of (T := ⟨S65536, .f32⟩) main_call5_v2) maximumf : HloOp τ sig (Elt F)) :: List.drop 57 (ops (F := F)) := rfl
theorem drop_57 : List.drop 57 (ops (F := F)) = (TRef.unary (TRef.of (T := ⟨S65536, .f32⟩) main_call5_v2) (TRef.of (T := ⟨S65536x1, .f32⟩) main_call5_v3) (broadcastInDim S65536x1 ![0] bcast_S65536_S65536x1_0) : HloOp τ sig (Elt F)) :: List.drop 58 (ops (F := F)) := rfl
theorem drop_58 : List.drop 58 (ops (F := F)) = (TRef.unary (TRef.of (T := ⟨S65536x1, .f32⟩) main_call5_v3) (TRef.of (T := ⟨S65536x2, .f32⟩) main_call5_v4) (broadcastInDim S65536x2 ![0, 1] bcast_S65536x1_S65536x2_0_1) : HloOp τ sig (Elt F)) :: List.drop 59 (ops (F := F)) := rfl
theorem drop_59 : List.drop 59 (ops (F := F)) = (TRef.binary (TRef.of (T := ⟨S65536x2, .f32⟩) main_v42) (TRef.of (T := ⟨S65536x2, .f32⟩) main_call5_v4) (TRef.of (T := ⟨S65536x2, .f32⟩) main_call5_v5) subf : HloOp τ sig (Elt F)) :: List.drop 60 (ops (F := F)) := rfl
theorem drop_60 : List.drop 60 (ops (F := F)) = (TRef.unary (TRef.of (T := ⟨S65536x2, .f32⟩) main_call5_v5) (TRef.of (T := ⟨S65536x2, .f32⟩) main_call5_v6) Host.exp : HloOp τ sig (Elt F)) :: List.drop 61 (ops (F := F)) := rfl
theorem drop_61 : List.drop 61 (ops (F := F)) = (TRef.nullary (TRef.of (T := ⟨S_, .f32⟩) main_call5_cst_1) (constant S_ .f32 0x00000000#32) : HloOp τ sig (Elt F)) :: List.drop 62 (ops (F := F)) := rfl
theorem drop_62 : List.drop 62 (ops (F := F)) = (TRef.binary (TRef.of (T := ⟨S65536x2, .f32⟩) main_call5_v6) (TRef.of (T := ⟨S_, .f32⟩) main_call5_cst_1) (TRef.of (T := ⟨S65536, .f32⟩) main_call5_v7) (fun x v => Host.reduceAdd x v reducesTo_S65536x2_S65536_d1 h_S_) : HloOp τ sig (Elt F)) :: List.drop 63 (ops (F := F)) := rfl
theorem drop_63 : List.drop 63 (ops (F := F)) = (TRef.unary (TRef.of (T := ⟨S65536, .f32⟩) main_call5_v7) (TRef.of (T := ⟨S65536x1, .f32⟩) main_call5_v8) (broadcastInDim S65536x1 ![0] bcast_S65536_S65536x1_0) : HloOp τ sig (Elt F)) :: List.drop 64 (ops (F := F)) := rfl
theorem drop_64 : List.drop 64 (ops (F := F)) = (TRef.unary (TRef.of (T := ⟨S65536x1, .f32⟩) main_call5_v8) (TRef.of (T := ⟨S65536x1, .f32⟩) main_call5_v9) Host.log : HloOp τ sig (Elt F)) :: List.drop 65 (ops (F := F)) := rfl
theorem drop_65 : List.drop 65 (ops (F := F)) = (TRef.unary (TRef.of (T := ⟨S65536x1, .f32⟩) main_call5_v9) (TRef.of (T := ⟨S65536x2, .f32⟩) main_call5_v10) (broadcastInDim S65536x2 ![0, 1] bcast_S65536x1_S65536x2_0_1) : HloOp τ sig (Elt F)) :: List.drop 66 (ops (F := F)) := rfl
theorem drop_66 : List.drop 66 (ops (F := F)) = (TRef.binary (TRef.of (T := ⟨S65536x2, .f32⟩) main_call5_v5) (TRef.of (T := ⟨S65536x2, .f32⟩) main_call5_v10) (TRef.of (T := ⟨S65536x2, .f32⟩) main_v43) subf : HloOp τ sig (Elt F)) :: List.drop 67 (ops (F := F)) := rfl

/-! ## The walk -/

section Walk

variable
  (x0 : (⟨S64x1024x256, .f32⟩ : BufTy).Contents (Elt F))
  (x1 : (⟨S64x1024x1024, .f32⟩ : BufTy).Contents (Elt F))
  (x2 : (⟨S512x512, .f32⟩ : BufTy).Contents (Elt F))
  (x3 : (⟨S512, .f32⟩ : BufTy).Contents (Elt F))
  (x4 : (⟨S1024x512, .f32⟩ : BufTy).Contents (Elt F))
  (x5 : (⟨S512, .f32⟩ : BufTy).Contents (Elt F))
  (x6 : (⟨S1024x256, .f32⟩ : BufTy).Contents (Elt F))
  (x7 : (⟨S256, .f32⟩ : BufTy).Contents (Elt F))
  (x8 : (⟨S512x256, .f32⟩ : BufTy).Contents (Elt F))
  (x9 : (⟨S256, .f32⟩ : BufTy).Contents (Elt F))
  (x10 : (⟨S256x256, .f32⟩ : BufTy).Contents (Elt F))
  (x11 : (⟨S256, .f32⟩ : BufTy).Contents (Elt F))
  (x12 : (⟨S256, .f32⟩ : BufTy).Contents (Elt F))
  (x13 : (⟨S256x2, .f32⟩ : BufTy).Contents (Elt F))
  (x14 : (⟨S2, .f32⟩ : BufTy).Contents (Elt F))

theorem tail_67 (W : Valuation τ sig (Elt F)) (h_main_v43 : W (Proc.devRef .tc main_v43) = val_main_v43 (F := F) x0 x1 x2 x3 x4 x5 x6 x7 x8 x9 x10 x11 x12 x13 x14) :
    after (List.drop 67 (ops (F := F))) W (Proc.devRef .tc main_v43) = val_main_v43 (F := F) x0 x1 x2 x3 x4 x5 x6 x7 x8 x9 x10 x11 x12 x13 x14 := by
  rw [show List.drop 67 (ops (F := F)) = [] from rfl, after_nil]
  exact h_main_v43
theorem tail_66 (W : Valuation τ sig (Elt F)) (h_main_call5_v5 : W (Proc.devRef .tc main_call5_v5) = val_main_call5_v5 (F := F) x0 x1 x2 x3 x4 x5 x6 x7 x8 x9 x10 x11 x12 x13 x14) (h_main_call5_v10 : W (Proc.devRef .tc main_call5_v10) = val_main_call5_v10 (F := F) x0 x1 x2 x3 x4 x5 x6 x7 x8 x9 x10 x11 x12 x13 x14) :
    after (List.drop 66 (ops (F := F))) W (Proc.devRef .tc main_v43) = val_main_v43 (F := F) x0 x1 x2 x3 x4 x5 x6 x7 x8 x9 x10 x11 x12 x13 x14 := by
  rw [drop_66 (F := F), after_cons]
  exact tail_67 x0 x1 x2 x3 x4 x5 x6 x7 x8 x9 x10 x11 x12 x13 x14 _
    (by rw [binary_result, h_main_call5_v5, h_main_call5_v10] <;> (try simp only [TRef.toBuf, TRef.ofBuf, cast_eq]) <;> rfl)
theorem tail_65 (W : Valuation τ sig (Elt F)) (h_main_call5_v9 : W (Proc.devRef .tc main_call5_v9) = val_main_call5_v9 (F := F) x0 x1 x2 x3 x4 x5 x6 x7 x8 x9 x10 x11 x12 x13 x14) (h_main_call5_v5 : W (Proc.devRef .tc main_call5_v5) = val_main_call5_v5 (F := F) x0 x1 x2 x3 x4 x5 x6 x7 x8 x9 x10 x11 x12 x13 x14) :
    after (List.drop 65 (ops (F := F))) W (Proc.devRef .tc main_v43) = val_main_v43 (F := F) x0 x1 x2 x3 x4 x5 x6 x7 x8 x9 x10 x11 x12 x13 x14 := by
  rw [drop_65 (F := F), after_cons]
  exact tail_66 x0 x1 x2 x3 x4 x5 x6 x7 x8 x9 x10 x11 x12 x13 x14 _
    (by rw [unary_result_ne] <;> first | exact h_main_call5_v5 | decide)
    (by rw [unary_result, h_main_call5_v9] <;> (try simp only [TRef.toBuf, TRef.ofBuf, cast_eq]) <;> rfl)
theorem tail_64 (W : Valuation τ sig (Elt F)) (h_main_call5_v8 : W (Proc.devRef .tc main_call5_v8) = val_main_call5_v8 (F := F) x0 x1 x2 x3 x4 x5 x6 x7 x8 x9 x10 x11 x12 x13 x14) (h_main_call5_v5 : W (Proc.devRef .tc main_call5_v5) = val_main_call5_v5 (F := F) x0 x1 x2 x3 x4 x5 x6 x7 x8 x9 x10 x11 x12 x13 x14) :
    after (List.drop 64 (ops (F := F))) W (Proc.devRef .tc main_v43) = val_main_v43 (F := F) x0 x1 x2 x3 x4 x5 x6 x7 x8 x9 x10 x11 x12 x13 x14 := by
  rw [drop_64 (F := F), after_cons]
  exact tail_65 x0 x1 x2 x3 x4 x5 x6 x7 x8 x9 x10 x11 x12 x13 x14 _
    (by rw [unary_result, h_main_call5_v8] <;> (try simp only [TRef.toBuf, TRef.ofBuf, cast_eq]) <;> rfl)
    (by rw [unary_result_ne] <;> first | exact h_main_call5_v5 | decide)
theorem tail_63 (W : Valuation τ sig (Elt F)) (h_main_call5_v7 : W (Proc.devRef .tc main_call5_v7) = val_main_call5_v7 (F := F) x0 x1 x2 x3 x4 x5 x6 x7 x8 x9 x10 x11 x12 x13 x14) (h_main_call5_v5 : W (Proc.devRef .tc main_call5_v5) = val_main_call5_v5 (F := F) x0 x1 x2 x3 x4 x5 x6 x7 x8 x9 x10 x11 x12 x13 x14) :
    after (List.drop 63 (ops (F := F))) W (Proc.devRef .tc main_v43) = val_main_v43 (F := F) x0 x1 x2 x3 x4 x5 x6 x7 x8 x9 x10 x11 x12 x13 x14 := by
  rw [drop_63 (F := F), after_cons]
  exact tail_64 x0 x1 x2 x3 x4 x5 x6 x7 x8 x9 x10 x11 x12 x13 x14 _
    (by rw [unary_result, h_main_call5_v7] <;> (try simp only [TRef.toBuf, TRef.ofBuf, cast_eq]) <;> rfl)
    (by rw [unary_result_ne] <;> first | exact h_main_call5_v5 | decide)
theorem tail_62 (W : Valuation τ sig (Elt F)) (h_main_call5_v6 : W (Proc.devRef .tc main_call5_v6) = val_main_call5_v6 (F := F) x0 x1 x2 x3 x4 x5 x6 x7 x8 x9 x10 x11 x12 x13 x14) (h_main_call5_cst_1 : W (Proc.devRef .tc main_call5_cst_1) = val_main_call5_cst_1 (F := F)) (h_main_call5_v5 : W (Proc.devRef .tc main_call5_v5) = val_main_call5_v5 (F := F) x0 x1 x2 x3 x4 x5 x6 x7 x8 x9 x10 x11 x12 x13 x14) :
    after (List.drop 62 (ops (F := F))) W (Proc.devRef .tc main_v43) = val_main_v43 (F := F) x0 x1 x2 x3 x4 x5 x6 x7 x8 x9 x10 x11 x12 x13 x14 := by
  rw [drop_62 (F := F), after_cons]
  exact tail_63 x0 x1 x2 x3 x4 x5 x6 x7 x8 x9 x10 x11 x12 x13 x14 _
    (by rw [binary_result, h_main_call5_v6, h_main_call5_cst_1] <;> (try simp only [TRef.toBuf, TRef.ofBuf, cast_eq]) <;> rfl)
    (by rw [binary_result_ne] <;> first | exact h_main_call5_v5 | decide)
theorem tail_61 (W : Valuation τ sig (Elt F)) (h_main_call5_v6 : W (Proc.devRef .tc main_call5_v6) = val_main_call5_v6 (F := F) x0 x1 x2 x3 x4 x5 x6 x7 x8 x9 x10 x11 x12 x13 x14) (h_main_call5_v5 : W (Proc.devRef .tc main_call5_v5) = val_main_call5_v5 (F := F) x0 x1 x2 x3 x4 x5 x6 x7 x8 x9 x10 x11 x12 x13 x14) :
    after (List.drop 61 (ops (F := F))) W (Proc.devRef .tc main_v43) = val_main_v43 (F := F) x0 x1 x2 x3 x4 x5 x6 x7 x8 x9 x10 x11 x12 x13 x14 := by
  rw [drop_61 (F := F), after_cons]
  exact tail_62 x0 x1 x2 x3 x4 x5 x6 x7 x8 x9 x10 x11 x12 x13 x14 _
    (by rw [nullary_result_ne] <;> first | exact h_main_call5_v6 | decide)
    (by rw [nullary_result] <;> (try simp only [TRef.toBuf, TRef.ofBuf, cast_eq]) <;> rfl)
    (by rw [nullary_result_ne] <;> first | exact h_main_call5_v5 | decide)
theorem tail_60 (W : Valuation τ sig (Elt F)) (h_main_call5_v5 : W (Proc.devRef .tc main_call5_v5) = val_main_call5_v5 (F := F) x0 x1 x2 x3 x4 x5 x6 x7 x8 x9 x10 x11 x12 x13 x14) :
    after (List.drop 60 (ops (F := F))) W (Proc.devRef .tc main_v43) = val_main_v43 (F := F) x0 x1 x2 x3 x4 x5 x6 x7 x8 x9 x10 x11 x12 x13 x14 := by
  rw [drop_60 (F := F), after_cons]
  exact tail_61 x0 x1 x2 x3 x4 x5 x6 x7 x8 x9 x10 x11 x12 x13 x14 _
    (by rw [unary_result, h_main_call5_v5] <;> (try simp only [TRef.toBuf, TRef.ofBuf, cast_eq]) <;> rfl)
    (by rw [unary_result_ne] <;> first | exact h_main_call5_v5 | decide)
theorem tail_59 (W : Valuation τ sig (Elt F)) (h_main_v42 : W (Proc.devRef .tc main_v42) = val_main_v42 (F := F) x0 x1 x2 x3 x4 x5 x6 x7 x8 x9 x10 x11 x12 x13 x14) (h_main_call5_v4 : W (Proc.devRef .tc main_call5_v4) = val_main_call5_v4 (F := F) x0 x1 x2 x3 x4 x5 x6 x7 x8 x9 x10 x11 x12 x13 x14) :
    after (List.drop 59 (ops (F := F))) W (Proc.devRef .tc main_v43) = val_main_v43 (F := F) x0 x1 x2 x3 x4 x5 x6 x7 x8 x9 x10 x11 x12 x13 x14 := by
  rw [drop_59 (F := F), after_cons]
  exact tail_60 x0 x1 x2 x3 x4 x5 x6 x7 x8 x9 x10 x11 x12 x13 x14 _
    (by rw [binary_result, h_main_v42, h_main_call5_v4] <;> (try simp only [TRef.toBuf, TRef.ofBuf, cast_eq]) <;> rfl)
theorem tail_58 (W : Valuation τ sig (Elt F)) (h_main_call5_v3 : W (Proc.devRef .tc main_call5_v3) = val_main_call5_v3 (F := F) x0 x1 x2 x3 x4 x5 x6 x7 x8 x9 x10 x11 x12 x13 x14) (h_main_v42 : W (Proc.devRef .tc main_v42) = val_main_v42 (F := F) x0 x1 x2 x3 x4 x5 x6 x7 x8 x9 x10 x11 x12 x13 x14) :
    after (List.drop 58 (ops (F := F))) W (Proc.devRef .tc main_v43) = val_main_v43 (F := F) x0 x1 x2 x3 x4 x5 x6 x7 x8 x9 x10 x11 x12 x13 x14 := by
  rw [drop_58 (F := F), after_cons]
  exact tail_59 x0 x1 x2 x3 x4 x5 x6 x7 x8 x9 x10 x11 x12 x13 x14 _
    (by rw [unary_result_ne] <;> first | exact h_main_v42 | decide)
    (by rw [unary_result, h_main_call5_v3] <;> (try simp only [TRef.toBuf, TRef.ofBuf, cast_eq]) <;> rfl)
theorem tail_57 (W : Valuation τ sig (Elt F)) (h_main_call5_v2 : W (Proc.devRef .tc main_call5_v2) = val_main_call5_v2 (F := F) x0 x1 x2 x3 x4 x5 x6 x7 x8 x9 x10 x11 x12 x13 x14) (h_main_v42 : W (Proc.devRef .tc main_v42) = val_main_v42 (F := F) x0 x1 x2 x3 x4 x5 x6 x7 x8 x9 x10 x11 x12 x13 x14) :
    after (List.drop 57 (ops (F := F))) W (Proc.devRef .tc main_v43) = val_main_v43 (F := F) x0 x1 x2 x3 x4 x5 x6 x7 x8 x9 x10 x11 x12 x13 x14 := by
  rw [drop_57 (F := F), after_cons]
  exact tail_58 x0 x1 x2 x3 x4 x5 x6 x7 x8 x9 x10 x11 x12 x13 x14 _
    (by rw [unary_result, h_main_call5_v2] <;> (try simp only [TRef.toBuf, TRef.ofBuf, cast_eq]) <;> rfl)
    (by rw [unary_result_ne] <;> first | exact h_main_v42 | decide)
theorem tail_56 (W : Valuation τ sig (Elt F)) (h_main_call5_v1 : W (Proc.devRef .tc main_call5_v1) = val_main_call5_v1 (F := F)) (h_main_call5_v0 : W (Proc.devRef .tc main_call5_v0) = val_main_call5_v0 (F := F) x0 x1 x2 x3 x4 x5 x6 x7 x8 x9 x10 x11 x12 x13 x14) (h_main_v42 : W (Proc.devRef .tc main_v42) = val_main_v42 (F := F) x0 x1 x2 x3 x4 x5 x6 x7 x8 x9 x10 x11 x12 x13 x14) :
    after (List.drop 56 (ops (F := F))) W (Proc.devRef .tc main_v43) = val_main_v43 (F := F) x0 x1 x2 x3 x4 x5 x6 x7 x8 x9 x10 x11 x12 x13 x14 := by
  rw [drop_56 (F := F), after_cons]
  exact tail_57 x0 x1 x2 x3 x4 x5 x6 x7 x8 x9 x10 x11 x12 x13 x14 _
    (by rw [binary_result, h_main_call5_v1, h_main_call5_v0] <;> (try simp only [TRef.toBuf, TRef.ofBuf, cast_eq]) <;> rfl)
    (by rw [binary_result_ne] <;> first | exact h_main_v42 | decide)
theorem tail_55 (W : Valuation τ sig (Elt F)) (h_main_call5_cst_0 : W (Proc.devRef .tc main_call5_cst_0) = val_main_call5_cst_0 (F := F)) (h_main_call5_v0 : W (Proc.devRef .tc main_call5_v0) = val_main_call5_v0 (F := F) x0 x1 x2 x3 x4 x5 x6 x7 x8 x9 x10 x11 x12 x13 x14) (h_main_v42 : W (Proc.devRef .tc main_v42) = val_main_v42 (F := F) x0 x1 x2 x3 x4 x5 x6 x7 x8 x9 x10 x11 x12 x13 x14) :
    after (List.drop 55 (ops (F := F))) W (Proc.devRef .tc main_v43) = val_main_v43 (F := F) x0 x1 x2 x3 x4 x5 x6 x7 x8 x9 x10 x11 x12 x13 x14 := by
  rw [drop_55 (F := F), after_cons]
  exact tail_56 x0 x1 x2 x3 x4 x5 x6 x7 x8 x9 x10 x11 x12 x13 x14 _
    (by rw [unary_result, h_main_call5_cst_0] <;> (try simp only [TRef.toBuf, TRef.ofBuf, cast_eq]) <;> rfl)
    (by rw [unary_result_ne] <;> first | exact h_main_call5_v0 | decide)
    (by rw [unary_result_ne] <;> first | exact h_main_v42 | decide)
theorem tail_54 (W : Valuation τ sig (Elt F)) (h_main_call5_v0 : W (Proc.devRef .tc main_call5_v0) = val_main_call5_v0 (F := F) x0 x1 x2 x3 x4 x5 x6 x7 x8 x9 x10 x11 x12 x13 x14) (h_main_v42 : W (Proc.devRef .tc main_v42) = val_main_v42 (F := F) x0 x1 x2 x3 x4 x5 x6 x7 x8 x9 x10 x11 x12 x13 x14) :
    after (List.drop 54 (ops (F := F))) W (Proc.devRef .tc main_v43) = val_main_v43 (F := F) x0 x1 x2 x3 x4 x5 x6 x7 x8 x9 x10 x11 x12 x13 x14 := by
  rw [drop_54 (F := F), after_cons]
  exact tail_55 x0 x1 x2 x3 x4 x5 x6 x7 x8 x9 x10 x11 x12 x13 x14 _
    (by rw [nullary_result] <;> (try simp only [TRef.toBuf, TRef.ofBuf, cast_eq]) <;> rfl)
    (by rw [nullary_result_ne] <;> first | exact h_main_call5_v0 | decide)
    (by rw [nullary_result_ne] <;> first | exact h_main_v42 | decide)
theorem tail_53 (W : Valuation τ sig (Elt F)) (h_main_v42 : W (Proc.devRef .tc main_v42) = val_main_v42 (F := F) x0 x1 x2 x3 x4 x5 x6 x7 x8 x9 x10 x11 x12 x13 x14) (h_main_call5_cst : W (Proc.devRef .tc main_call5_cst) = val_main_call5_cst (F := F)) :
    after (List.drop 53 (ops (F := F))) W (Proc.devRef .tc main_v43) = val_main_v43 (F := F) x0 x1 x2 x3 x4 x5 x6 x7 x8 x9 x10 x11 x12 x13 x14 := by
  rw [drop_53 (F := F), after_cons]
  exact tail_54 x0 x1 x2 x3 x4 x5 x6 x7 x8 x9 x10 x11 x12 x13 x14 _
    (by rw [binary_result, h_main_v42, h_main_call5_cst] <;> (try simp only [TRef.toBuf, TRef.ofBuf, cast_eq]) <;> rfl)
    (by rw [binary_result_ne] <;> first | exact h_main_v42 | decide)
theorem tail_52 (W : Valuation τ sig (Elt F)) (h_main_v42 : W (Proc.devRef .tc main_v42) = val_main_v42 (F := F) x0 x1 x2 x3 x4 x5 x6 x7 x8 x9 x10 x11 x12 x13 x14) :
    after (List.drop 52 (ops (F := F))) W (Proc.devRef .tc main_v43) = val_main_v43 (F := F) x0 x1 x2 x3 x4 x5 x6 x7 x8 x9 x10 x11 x12 x13 x14 := by
  rw [drop_52 (F := F), after_cons]
  exact tail_53 x0 x1 x2 x3 x4 x5 x6 x7 x8 x9 x10 x11 x12 x13 x14 _
    (by rw [nullary_result_ne] <;> first | exact h_main_v42 | decide)
    (by rw [nullary_result] <;> (try simp only [TRef.toBuf, TRef.ofBuf, cast_eq]) <;> rfl)
theorem tail_51 (W : Valuation τ sig (Elt F)) (h_main_v39 : W (Proc.devRef .tc main_v39) = val_main_v39 (F := F) x0 x1 x2 x3 x4 x5 x6 x7 x8 x9 x10 x11 x12 x13) (h_main_v41 : W (Proc.devRef .tc main_v41) = val_main_v41 (F := F) x14) :
    after (List.drop 51 (ops (F := F))) W (Proc.devRef .tc main_v43) = val_main_v43 (F := F) x0 x1 x2 x3 x4 x5 x6 x7 x8 x9 x10 x11 x12 x13 x14 := by
  rw [drop_51 (F := F), after_cons]
  exact tail_52 x0 x1 x2 x3 x4 x5 x6 x7 x8 x9 x10 x11 x12 x13 x14 _
    (by rw [binary_result, h_main_v39, h_main_v41] <;> rfl)
theorem tail_50 (W : Valuation τ sig (Elt F)) (h_main_v40 : W (Proc.devRef .tc main_v40) = val_main_v40 (F := F) x14) (h_main_v39 : W (Proc.devRef .tc main_v39) = val_main_v39 (F := F) x0 x1 x2 x3 x4 x5 x6 x7 x8 x9 x10 x11 x12 x13) :
    after (List.drop 50 (ops (F := F))) W (Proc.devRef .tc main_v43) = val_main_v43 (F := F) x0 x1 x2 x3 x4 x5 x6 x7 x8 x9 x10 x11 x12 x13 x14 := by
  rw [drop_50 (F := F), after_cons]
  exact tail_51 x0 x1 x2 x3 x4 x5 x6 x7 x8 x9 x10 x11 x12 x13 x14 _
    (by rw [unary_result_ne] <;> first | exact h_main_v39 | decide)
    (by rw [unary_result, h_main_v40] <;> rfl)
theorem tail_49 (W : Valuation τ sig (Elt F)) (h_main_arg14 : W (Proc.devRef .tc main_arg14) = x14) (h_main_v39 : W (Proc.devRef .tc main_v39) = val_main_v39 (F := F) x0 x1 x2 x3 x4 x5 x6 x7 x8 x9 x10 x11 x12 x13) :
    after (List.drop 49 (ops (F := F))) W (Proc.devRef .tc main_v43) = val_main_v43 (F := F) x0 x1 x2 x3 x4 x5 x6 x7 x8 x9 x10 x11 x12 x13 x14 := by
  rw [drop_49 (F := F), after_cons]
  exact tail_50 x0 x1 x2 x3 x4 x5 x6 x7 x8 x9 x10 x11 x12 x13 x14 _
    (by rw [unary_result, h_main_arg14] <;> rfl)
    (by rw [unary_result_ne] <;> first | exact h_main_v39 | decide)
theorem tail_48 (W : Valuation τ sig (Elt F)) (h_main_v38 : W (Proc.devRef .tc main_v38) = val_main_v38 (F := F) x0 x1 x2 x3 x4 x5 x6 x7 x8 x9 x10 x11 x12) (h_main_arg13 : W (Proc.devRef .tc main_arg13) = x13) (h_main_arg14 : W (Proc.devRef .tc main_arg14) = x14) :
    after (List.drop 48 (ops (F := F))) W (Proc.devRef .tc main_v43) = val_main_v43 (F := F) x0 x1 x2 x3 x4 x5 x6 x7 x8 x9 x10 x11 x12 x13 x14 := by
  rw [drop_48 (F := F), after_cons]
  exact tail_49 x0 x1 x2 x3 x4 x5 x6 x7 x8 x9 x10 x11 x12 x13 x14 _
    (by rw [binary_result_ne] <;> first | exact h_main_arg14 | decide)
    (by rw [binary_result, h_main_v38, h_main_arg13] <;> rfl)
theorem tail_47 (W : Valuation τ sig (Elt F)) (h_main_v34 : W (Proc.devRef .tc main_v34) = val_main_v34 (F := F) x0 x1 x2 x3 x4 x5 x6 x7 x8 x9 x10 x11) (h_main_v32 : W (Proc.devRef .tc main_v32) = val_main_v32 (F := F) x0 x1 x2 x3 x4 x5 x6 x7 x8 x9 x10 x11) (h_main_v37 : W (Proc.devRef .tc main_v37) = val_main_v37 (F := F) x0 x1 x2 x3 x4 x5 x6 x7 x8 x9 x10 x11 x12) (h_main_arg13 : W (Proc.devRef .tc main_arg13) = x13) (h_main_arg14 : W (Proc.devRef .tc main_arg14) = x14) :
    after (List.drop 47 (ops (F := F))) W (Proc.devRef .tc main_v43) = val_main_v43 (F := F) x0 x1 x2 x3 x4 x5 x6 x7 x8 x9 x10 x11 x12 x13 x14 := by
  rw [drop_47 (F := F), after_cons]
  exact tail_48 x0 x1 x2 x3 x4 x5 x6 x7 x8 x9 x10 x11 x12 x13 x14 _
    (by rw [ternary_result, h_main_v34, h_main_v32, h_main_v37] <;> (try simp only [TRef.toBuf, TRef.ofBuf, cast_eq]) <;> rfl)
    (by rw [ternary_result_ne] <;> first | exact h_main_arg13 | decide)
    (by rw [ternary_result_ne] <;> first | exact h_main_arg14 | decide)
theorem tail_46 (W : Valuation τ sig (Elt F)) (h_main_v36 : W (Proc.devRef .tc main_v36) = val_main_v36 (F := F) x12) (h_main_v32 : W (Proc.devRef .tc main_v32) = val_main_v32 (F := F) x0 x1 x2 x3 x4 x5 x6 x7 x8 x9 x10 x11) (h_main_v34 : W (Proc.devRef .tc main_v34) = val_main_v34 (F := F) x0 x1 x2 x3 x4 x5 x6 x7 x8 x9 x10 x11) (h_main_arg13 : W (Proc.devRef .tc main_arg13) = x13) (h_main_arg14 : W (Proc.devRef .tc main_arg14) = x14) :
    after (List.drop 46 (ops (F := F))) W (Proc.devRef .tc main_v43) = val_main_v43 (F := F) x0 x1 x2 x3 x4 x5 x6 x7 x8 x9 x10 x11 x12 x13 x14 := by
  rw [drop_46 (F := F), after_cons]
  exact tail_47 x0 x1 x2 x3 x4 x5 x6 x7 x8 x9 x10 x11 x12 x13 x14 _
    (by rw [binary_result_ne] <;> first | exact h_main_v34 | decide)
    (by rw [binary_result_ne] <;> first | exact h_main_v32 | decide)
    (by rw [binary_result, h_main_v36, h_main_v32] <;> rfl)
    (by rw [binary_result_ne] <;> first | exact h_main_arg13 | decide)
    (by rw [binary_result_ne] <;> first | exact h_main_arg14 | decide)
theorem tail_45 (W : Valuation τ sig (Elt F)) (h_main_v35 : W (Proc.devRef .tc main_v35) = val_main_v35 (F := F) x12) (h_main_v32 : W (Proc.devRef .tc main_v32) = val_main_v32 (F := F) x0 x1 x2 x3 x4 x5 x6 x7 x8 x9 x10 x11) (h_main_v34 : W (Proc.devRef .tc main_v34) = val_main_v34 (F := F) x0 x1 x2 x3 x4 x5 x6 x7 x8 x9 x10 x11) (h_main_arg13 : W (Proc.devRef .tc main_arg13) = x13) (h_main_arg14 : W (Proc.devRef .tc main_arg14) = x14) :
    after (List.drop 45 (ops (F := F))) W (Proc.devRef .tc main_v43) = val_main_v43 (F := F) x0 x1 x2 x3 x4 x5 x6 x7 x8 x9 x10 x11 x12 x13 x14 := by
  rw [drop_45 (F := F), after_cons]
  exact tail_46 x0 x1 x2 x3 x4 x5 x6 x7 x8 x9 x10 x11 x12 x13 x14 _
    (by rw [unary_result, h_main_v35] <;> rfl)
    (by rw [unary_result_ne] <;> first | exact h_main_v32 | decide)
    (by rw [unary_result_ne] <;> first | exact h_main_v34 | decide)
    (by rw [unary_result_ne] <;> first | exact h_main_arg13 | decide)
    (by rw [unary_result_ne] <;> first | exact h_main_arg14 | decide)
theorem tail_44 (W : Valuation τ sig (Elt F)) (h_main_arg12 : W (Proc.devRef .tc main_arg12) = x12) (h_main_v32 : W (Proc.devRef .tc main_v32) = val_main_v32 (F := F) x0 x1 x2 x3 x4 x5 x6 x7 x8 x9 x10 x11) (h_main_v34 : W (Proc.devRef .tc main_v34) = val_main_v34 (F := F) x0 x1 x2 x3 x4 x5 x6 x7 x8 x9 x10 x11) (h_main_arg13 : W (Proc.devRef .tc main_arg13) = x13) (h_main_arg14 : W (Proc.devRef .tc main_arg14) = x14) :
    after (List.drop 44 (ops (F := F))) W (Proc.devRef .tc main_v43) = val_main_v43 (F := F) x0 x1 x2 x3 x4 x5 x6 x7 x8 x9 x10 x11 x12 x13 x14 := by
  rw [drop_44 (F := F), after_cons]
  exact tail_45 x0 x1 x2 x3 x4 x5 x6 x7 x8 x9 x10 x11 x12 x13 x14 _
    (by rw [unary_result, h_main_arg12] <;> rfl)
    (by rw [unary_result_ne] <;> first | exact h_main_v32 | decide)
    (by rw [unary_result_ne] <;> first | exact h_main_v34 | decide)
    (by rw [unary_result_ne] <;> first | exact h_main_arg13 | decide)
    (by rw [unary_result_ne] <;> first | exact h_main_arg14 | decide)
theorem tail_43 (W : Valuation τ sig (Elt F)) (h_main_v32 : W (Proc.devRef .tc main_v32) = val_main_v32 (F := F) x0 x1 x2 x3 x4 x5 x6 x7 x8 x9 x10 x11) (h_main_v33 : W (Proc.devRef .tc main_v33) = val_main_v33 (F := F)) (h_main_arg12 : W (Proc.devRef .tc main_arg12) = x12) (h_main_arg13 : W (Proc.devRef .tc main_arg13) = x13) (h_main_arg14 : W (Proc.devRef .tc main_arg14) = x14) :
    after (List.drop 43 (ops (F := F))) W (Proc.devRef .tc main_v43) = val_main_v43 (F := F) x0 x1 x2 x3 x4 x5 x6 x7 x8 x9 x10 x11 x12 x13 x14 := by
  rw [drop_43 (F := F), after_cons]
  exact tail_44 x0 x1 x2 x3 x4 x5 x6 x7 x8 x9 x10 x11 x12 x13 x14 _
    (by rw [binary_result_ne] <;> first | exact h_main_arg12 | decide)
    (by rw [binary_result_ne] <;> first | exact h_main_v32 | decide)
    (by rw [binary_result, h_main_v32, h_main_v33] <;> rfl)
    (by rw [binary_result_ne] <;> first | exact h_main_arg13 | decide)
    (by rw [binary_result_ne] <;> first | exact h_main_arg14 | decide)
theorem tail_42 (W : Valuation τ sig (Elt F)) (h_main_cst : W (Proc.devRef .tc main_cst) = val_main_cst (F := F)) (h_main_v32 : W (Proc.devRef .tc main_v32) = val_main_v32 (F := F) x0 x1 x2 x3 x4 x5 x6 x7 x8 x9 x10 x11) (h_main_arg12 : W (Proc.devRef .tc main_arg12) = x12) (h_main_arg13 : W (Proc.devRef .tc main_arg13) = x13) (h_main_arg14 : W (Proc.devRef .tc main_arg14) = x14) :
    after (List.drop 42 (ops (F := F))) W (Proc.devRef .tc main_v43) = val_main_v43 (F := F) x0 x1 x2 x3 x4 x5 x6 x7 x8 x9 x10 x11 x12 x13 x14 := by
  rw [drop_42 (F := F), after_cons]
  exact tail_43 x0 x1 x2 x3 x4 x5 x6 x7 x8 x9 x10 x11 x12 x13 x14 _
    (by rw [unary_result_ne] <;> first | exact h_main_v32 | decide)
    (by rw [unary_result, h_main_cst] <;> rfl)
    (by rw [unary_result_ne] <;> first | exact h_main_arg12 | decide)
    (by rw [unary_result_ne] <;> first | exact h_main_arg13 | decide)
    (by rw [unary_result_ne] <;> first | exact h_main_arg14 | decide)
theorem tail_41 (W : Valuation τ sig (Elt F)) (h_main_v32 : W (Proc.devRef .tc main_v32) = val_main_v32 (F := F) x0 x1 x2 x3 x4 x5 x6 x7 x8 x9 x10 x11) (h_main_arg12 : W (Proc.devRef .tc main_arg12) = x12) (h_main_arg13 : W (Proc.devRef .tc main_arg13) = x13) (h_main_arg14 : W (Proc.devRef .tc main_arg14) = x14) :
    after (List.drop 41 (ops (F := F))) W (Proc.devRef .tc main_v43) = val_main_v43 (F := F) x0 x1 x2 x3 x4 x5 x6 x7 x8 x9 x10 x11 x12 x13 x14 := by
  rw [drop_41 (F := F), after_cons]
  exact tail_42 x0 x1 x2 x3 x4 x5 x6 x7 x8 x9 x10 x11 x12 x13 x14 _
    (by rw [nullary_result] <;> rfl)
    (by rw [nullary_result_ne] <;> first | exact h_main_v32 | decide)
    (by rw [nullary_result_ne] <;> first | exact h_main_arg12 | decide)
    (by rw [nullary_result_ne] <;> first | exact h_main_arg13 | decide)
    (by rw [nullary_result_ne] <;> first | exact h_main_arg14 | decide)
theorem tail_40 (W : Valuation τ sig (Elt F)) (h_main_v29 : W (Proc.devRef .tc main_v29) = val_main_v29 (F := F) x0 x1 x2 x3 x4 x5 x6 x7 x8 x9 x10) (h_main_v31 : W (Proc.devRef .tc main_v31) = val_main_v31 (F := F) x11) (h_main_arg12 : W (Proc.devRef .tc main_arg12) = x12) (h_main_arg13 : W (Proc.devRef .tc main_arg13) = x13) (h_main_arg14 : W (Proc.devRef .tc main_arg14) = x14) :
    after (List.drop 40 (ops (F := F))) W (Proc.devRef .tc main_v43) = val_main_v43 (F := F) x0 x1 x2 x3 x4 x5 x6 x7 x8 x9 x10 x11 x12 x13 x14 := by
  rw [drop_40 (F := F), after_cons]
  exact tail_41 x0 x1 x2 x3 x4 x5 x6 x7 x8 x9 x10 x11 x12 x13 x14 _
    (by rw [binary_result, h_main_v29, h_main_v31] <;> rfl)
    (by rw [binary_result_ne] <;> first | exact h_main_arg12 | decide)
    (by rw [binary_result_ne] <;> first | exact h_main_arg13 | decide)
    (by rw [binary_result_ne] <;> first | exact h_main_arg14 | decide)
theorem tail_39 (W : Valuation τ sig (Elt F)) (h_main_v30 : W (Proc.devRef .tc main_v30) = val_main_v30 (F := F) x11) (h_main_v29 : W (Proc.devRef .tc main_v29) = val_main_v29 (F := F) x0 x1 x2 x3 x4 x5 x6 x7 x8 x9 x10) (h_main_arg12 : W (Proc.devRef .tc main_arg12) = x12) (h_main_arg13 : W (Proc.devRef .tc main_arg13) = x13) (h_main_arg14 : W (Proc.devRef .tc main_arg14) = x14) :
    after (List.drop 39 (ops (F := F))) W (Proc.devRef .tc main_v43) = val_main_v43 (F := F) x0 x1 x2 x3 x4 x5 x6 x7 x8 x9 x10 x11 x12 x13 x14 := by
  rw [drop_39 (F := F), after_cons]
  exact tail_40 x0 x1 x2 x3 x4 x5 x6 x7 x8 x9 x10 x11 x12 x13 x14 _
    (by rw [unary_result_ne] <;> first | exact h_main_v29 | decide)
    (by rw [unary_result, h_main_v30] <;> rfl)
    (by rw [unary_result_ne] <;> first | exact h_main_arg12 | decide)
    (by rw [unary_result_ne] <;> first | exact h_main_arg13 | decide)
    (by rw [unary_result_ne] <;> first | exact h_main_arg14 | decide)
theorem tail_38 (W : Valuation τ sig (Elt F)) (h_main_arg11 : W (Proc.devRef .tc main_arg11) = x11) (h_main_v29 : W (Proc.devRef .tc main_v29) = val_main_v29 (F := F) x0 x1 x2 x3 x4 x5 x6 x7 x8 x9 x10) (h_main_arg12 : W (Proc.devRef .tc main_arg12) = x12) (h_main_arg13 : W (Proc.devRef .tc main_arg13) = x13) (h_main_arg14 : W (Proc.devRef .tc main_arg14) = x14) :
    after (List.drop 38 (ops (F := F))) W (Proc.devRef .tc main_v43) = val_main_v43 (F := F) x0 x1 x2 x3 x4 x5 x6 x7 x8 x9 x10 x11 x12 x13 x14 := by
  rw [drop_38 (F := F), after_cons]
  exact tail_39 x0 x1 x2 x3 x4 x5 x6 x7 x8 x9 x10 x11 x12 x13 x14 _
    (by rw [unary_result, h_main_arg11] <;> rfl)
    (by rw [unary_result_ne] <;> first | exact h_main_v29 | decide)
    (by rw [unary_result_ne] <;> first | exact h_main_arg12 | decide)
    (by rw [unary_result_ne] <;> first | exact h_main_arg13 | decide)
    (by rw [unary_result_ne] <;> first | exact h_main_arg14 | decide)
theorem tail_37 (W : Valuation τ sig (Elt F)) (h_main_v28 : W (Proc.devRef .tc main_v28) = val_main_v28 (F := F) x0 x1 x2 x3 x4 x5 x6 x7 x8 x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 37 (ops (F := F))) W (Proc.devRef .tc main_v43) = val_main_v43 (F := F) x0 x1 x2 x3 x4 x5 x6 x7 x8 x9 x10 x11 x12 x13 x14 := by
  rw [drop_37 (F := F), after_cons]
  exact tail_38 x0 x1 x2 x3 x4 x5 x6 x7 x8 x9 x10 x11 x12 x13 x14 _
    (by rw [binary_result_ne] <;> first | exact h_main_arg11 | decide)
    (by rw [binary_result, h_main_v28, h_main_arg10] <;> rfl)
    (by rw [binary_result_ne] <;> first | exact h_main_arg12 | decide)
    (by rw [binary_result_ne] <;> first | exact h_main_arg13 | decide)
    (by rw [binary_result_ne] <;> first | exact h_main_arg14 | decide)
theorem tail_36 (W : Valuation τ sig (Elt F)) (h_main_v27 : W (Proc.devRef .tc main_v27) = val_main_v27 (F := F) x0 x1 x2 x3 x4 x5 x6 x7 x8 x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 36 (ops (F := F))) W (Proc.devRef .tc main_v43) = val_main_v43 (F := F) x0 x1 x2 x3 x4 x5 x6 x7 x8 x9 x10 x11 x12 x13 x14 := by
  rw [drop_36 (F := F), after_cons]
  exact tail_37 x0 x1 x2 x3 x4 x5 x6 x7 x8 x9 x10 x11 x12 x13 x14 _
    (by rw [reshape_result, h_main_v27] <;> rfl)
    (by rw [reshape_result_ne] <;> first | exact h_main_arg10 | decide)
    (by rw [reshape_result_ne] <;> first | exact h_main_arg11 | decide)
    (by rw [reshape_result_ne] <;> first | exact h_main_arg12 | decide)
    (by rw [reshape_result_ne] <;> first | exact h_main_arg13 | decide)
    (by rw [reshape_result_ne] <;> first | exact h_main_arg14 | decide)
theorem tail_35 (W : Valuation τ sig (Elt F)) (h_main_v26 : W (Proc.devRef .tc main_v26) = val_main_v26 (F := F) x0 x1 x2 x3 x4 x5 x6 x7 x8 x9) (h_main_call3_v0 : W (Proc.devRef .tc main_call3_v0) = val_main_call3_v0 (F := F)) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 35 (ops (F := F))) W (Proc.devRef .tc main_v43) = val_main_v43 (F := F) x0 x1 x2 x3 x4 x5 x6 x7 x8 x9 x10 x11 x12 x13 x14 := by
  rw [drop_35 (F := F), after_cons]
  exact tail_36 x0 x1 x2 x3 x4 x5 x6 x7 x8 x9 x10 x11 x12 x13 x14 _
    (by rw [binary_result, h_main_v26, h_main_call3_v0] <;> (try simp only [TRef.toBuf, TRef.ofBuf, cast_eq]) <;> rfl)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_34 (W : Valuation τ sig (Elt F)) (h_main_call3_cst : W (Proc.devRef .tc main_call3_cst) = val_main_call3_cst (F := F)) (h_main_v26 : W (Proc.devRef .tc main_v26) = val_main_v26 (F := F) x0 x1 x2 x3 x4 x5 x6 x7 x8 x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 34 (ops (F := F))) W (Proc.devRef .tc main_v43) = val_main_v43 (F := F) x0 x1 x2 x3 x4 x5 x6 x7 x8 x9 x10 x11 x12 x13 x14 := by
  rw [drop_34 (F := F), after_cons]
  exact tail_35 x0 x1 x2 x3 x4 x5 x6 x7 x8 x9 x10 x11 x12 x13 x14 _
    (by rw [unary_result_ne] <;> first | exact h_main_v26 | decide)
    (by rw [unary_result, h_main_call3_cst] <;> (try simp only [TRef.toBuf, TRef.ofBuf, cast_eq]) <;> rfl)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_33 (W : Valuation τ sig (Elt F)) (h_main_v26 : W (Proc.devRef .tc main_v26) = val_main_v26 (F := F) x0 x1 x2 x3 x4 x5 x6 x7 x8 x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 33 (ops (F := F))) W (Proc.devRef .tc main_v43) = val_main_v43 (F := F) x0 x1 x2 x3 x4 x5 x6 x7 x8 x9 x10 x11 x12 x13 x14 := by
  rw [drop_33 (F := F), after_cons]
  exact tail_34 x0 x1 x2 x3 x4 x5 x6 x7 x8 x9 x10 x11 x12 x13 x14 _
    (by rw [nullary_result] <;> (try simp only [TRef.toBuf, TRef.ofBuf, cast_eq]) <;> rfl)
    (by rw [nullary_result_ne] <;> first | exact h_main_v26 | decide)
    (by rw [nullary_result_ne] <;> first | exact h_main_arg10 | decide)
    (by rw [nullary_result_ne] <;> first | exact h_main_arg11 | decide)
    (by rw [nullary_result_ne] <;> first | exact h_main_arg12 | decide)
    (by rw [nullary_result_ne] <;> first | exact h_main_arg13 | decide)
    (by rw [nullary_result_ne] <;> first | exact h_main_arg14 | decide)
theorem tail_32 (W : Valuation τ sig (Elt F)) (h_main_v23 : W (Proc.devRef .tc main_v23) = val_main_v23 (F := F) x0 x1 x2 x3 x4 x5 x6 x7 x8) (h_main_v25 : W (Proc.devRef .tc main_v25) = val_main_v25 (F := F) x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 32 (ops (F := F))) W (Proc.devRef .tc main_v43) = val_main_v43 (F := F) x0 x1 x2 x3 x4 x5 x6 x7 x8 x9 x10 x11 x12 x13 x14 := by
  rw [drop_32 (F := F), after_cons]
  exact tail_33 x0 x1 x2 x3 x4 x5 x6 x7 x8 x9 x10 x11 x12 x13 x14 _
    (by rw [binary_result, h_main_v23, h_main_v25] <;> rfl)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_31 (W : Valuation τ sig (Elt F)) (h_main_v24 : W (Proc.devRef .tc main_v24) = val_main_v24 (F := F) x9) (h_main_v23 : W (Proc.devRef .tc main_v23) = val_main_v23 (F := F) x0 x1 x2 x3 x4 x5 x6 x7 x8) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 31 (ops (F := F))) W (Proc.devRef .tc main_v43) = val_main_v43 (F := F) x0 x1 x2 x3 x4 x5 x6 x7 x8 x9 x10 x11 x12 x13 x14 := by
  rw [drop_31 (F := F), after_cons]
  exact tail_32 x0 x1 x2 x3 x4 x5 x6 x7 x8 x9 x10 x11 x12 x13 x14 _
    (by rw [unary_result_ne] <;> first | exact h_main_v23 | decide)
    (by rw [unary_result, h_main_v24] <;> rfl)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_30 (W : Valuation τ sig (Elt F)) (h_main_arg9 : W (Proc.devRef .tc main_arg9) = x9) (h_main_v23 : W (Proc.devRef .tc main_v23) = val_main_v23 (F := F) x0 x1 x2 x3 x4 x5 x6 x7 x8) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 30 (ops (F := F))) W (Proc.devRef .tc main_v43) = val_main_v43 (F := F) x0 x1 x2 x3 x4 x5 x6 x7 x8 x9 x10 x11 x12 x13 x14 := by
  rw [drop_30 (F := F), after_cons]
  exact tail_31 x0 x1 x2 x3 x4 x5 x6 x7 x8 x9 x10 x11 x12 x13 x14 _
    (by rw [unary_result, h_main_arg9] <;> rfl)
    (by rw [unary_result_ne] <;> first | exact h_main_v23 | decide)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_29 (W : Valuation τ sig (Elt F)) (h_main_v22 : W (Proc.devRef .tc main_v22) = val_main_v22 (F := F) x0 x1 x2 x3 x4 x5 x6 x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 29 (ops (F := F))) W (Proc.devRef .tc main_v43) = val_main_v43 (F := F) x0 x1 x2 x3 x4 x5 x6 x7 x8 x9 x10 x11 x12 x13 x14 := by
  rw [drop_29 (F := F), after_cons]
  exact tail_30 x0 x1 x2 x3 x4 x5 x6 x7 x8 x9 x10 x11 x12 x13 x14 _
    (by rw [binary_result_ne] <;> first | exact h_main_arg9 | decide)
    (by rw [binary_result, h_main_v22, h_main_arg8] <;> rfl)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_28 (W : Valuation τ sig (Elt F)) (h_main_v20 : W (Proc.devRef .tc main_v20) = val_main_v20 (F := F) x0 x1 x2 x3 x4 x5 x6 x7) (h_main_v21 : W (Proc.devRef .tc main_v21) = val_main_v21 (F := F) x0 x1 x2 x3 x4 x5 x6 x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 28 (ops (F := F))) W (Proc.devRef .tc main_v43) = val_main_v43 (F := F) x0 x1 x2 x3 x4 x5 x6 x7 x8 x9 x10 x11 x12 x13 x14 := by
  rw [drop_28 (F := F), after_cons]
  exact tail_29 x0 x1 x2 x3 x4 x5 x6 x7 x8 x9 x10 x11 x12 x13 x14 _
    (by rw [binary_result, h_main_v20, h_main_v21] <;> rfl)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_27 (W : Valuation τ sig (Elt F)) (h_main_arg1 : W (Proc.devRef .tc main_arg1) = x1) (h_main_v20 : W (Proc.devRef .tc main_v20) = val_main_v20 (F := F) x0 x1 x2 x3 x4 x5 x6 x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 27 (ops (F := F))) W (Proc.devRef .tc main_v43) = val_main_v43 (F := F) x0 x1 x2 x3 x4 x5 x6 x7 x8 x9 x10 x11 x12 x13 x14 := by
  rw [drop_27 (F := F), after_cons]
  exact tail_28 x0 x1 x2 x3 x4 x5 x6 x7 x8 x9 x10 x11 x12 x13 x14 _
    (by rw [binary_result_ne] <;> first | exact h_main_v20 | decide)
    (by rw [binary_result, h_main_arg1, h_main_v20] <;> rfl)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_26 (W : Valuation τ sig (Elt F)) (h_main_v19 : W (Proc.devRef .tc main_v19) = val_main_v19 (F := F) x0 x1 x2 x3 x4 x5 x6 x7) (h_main_call2_v0 : W (Proc.devRef .tc main_call2_v0) = val_main_call2_v0 (F := F)) (h_main_arg1 : W (Proc.devRef .tc main_arg1) = x1) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 26 (ops (F := F))) W (Proc.devRef .tc main_v43) = val_main_v43 (F := F) x0 x1 x2 x3 x4 x5 x6 x7 x8 x9 x10 x11 x12 x13 x14 := by
  rw [drop_26 (F := F), after_cons]
  exact tail_27 x0 x1 x2 x3 x4 x5 x6 x7 x8 x9 x10 x11 x12 x13 x14 _
    (by rw [binary_result_ne] <;> first | exact h_main_arg1 | decide)
    (by rw [binary_result, h_main_v19, h_main_call2_v0] <;> (try simp only [TRef.toBuf, TRef.ofBuf, cast_eq]) <;> rfl)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_25 (W : Valuation τ sig (Elt F)) (h_main_call2_cst : W (Proc.devRef .tc main_call2_cst) = val_main_call2_cst (F := F)) (h_main_v19 : W (Proc.devRef .tc main_v19) = val_main_v19 (F := F) x0 x1 x2 x3 x4 x5 x6 x7) (h_main_arg1 : W (Proc.devRef .tc main_arg1) = x1) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 25 (ops (F := F))) W (Proc.devRef .tc main_v43) = val_main_v43 (F := F) x0 x1 x2 x3 x4 x5 x6 x7 x8 x9 x10 x11 x12 x13 x14 := by
  rw [drop_25 (F := F), after_cons]
  exact tail_26 x0 x1 x2 x3 x4 x5 x6 x7 x8 x9 x10 x11 x12 x13 x14 _
    (by rw [unary_result_ne] <;> first | exact h_main_v19 | decide)
    (by rw [unary_result, h_main_call2_cst] <;> (try simp only [TRef.toBuf, TRef.ofBuf, cast_eq]) <;> rfl)
    (by rw [unary_result_ne] <;> first | exact h_main_arg1 | decide)
    (by rw [unary_result_ne] <;> first | exact h_main_arg8 | decide)
    (by rw [unary_result_ne] <;> first | exact h_main_arg9 | decide)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_24 (W : Valuation τ sig (Elt F)) (h_main_v19 : W (Proc.devRef .tc main_v19) = val_main_v19 (F := F) x0 x1 x2 x3 x4 x5 x6 x7) (h_main_arg1 : W (Proc.devRef .tc main_arg1) = x1) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 24 (ops (F := F))) W (Proc.devRef .tc main_v43) = val_main_v43 (F := F) x0 x1 x2 x3 x4 x5 x6 x7 x8 x9 x10 x11 x12 x13 x14 := by
  rw [drop_24 (F := F), after_cons]
  exact tail_25 x0 x1 x2 x3 x4 x5 x6 x7 x8 x9 x10 x11 x12 x13 x14 _
    (by rw [nullary_result] <;> (try simp only [TRef.toBuf, TRef.ofBuf, cast_eq]) <;> rfl)
    (by rw [nullary_result_ne] <;> first | exact h_main_v19 | decide)
    (by rw [nullary_result_ne] <;> first | exact h_main_arg1 | decide)
    (by rw [nullary_result_ne] <;> first | exact h_main_arg8 | decide)
    (by rw [nullary_result_ne] <;> first | exact h_main_arg9 | decide)
    (by rw [nullary_result_ne] <;> first | exact h_main_arg10 | decide)
    (by rw [nullary_result_ne] <;> first | exact h_main_arg11 | decide)
    (by rw [nullary_result_ne] <;> first | exact h_main_arg12 | decide)
    (by rw [nullary_result_ne] <;> first | exact h_main_arg13 | decide)
    (by rw [nullary_result_ne] <;> first | exact h_main_arg14 | decide)
theorem tail_23 (W : Valuation τ sig (Elt F)) (h_main_v16 : W (Proc.devRef .tc main_v16) = val_main_v16 (F := F) x0 x1 x2 x3 x4 x5 x6) (h_main_v18 : W (Proc.devRef .tc main_v18) = val_main_v18 (F := F) x7) (h_main_arg1 : W (Proc.devRef .tc main_arg1) = x1) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 23 (ops (F := F))) W (Proc.devRef .tc main_v43) = val_main_v43 (F := F) x0 x1 x2 x3 x4 x5 x6 x7 x8 x9 x10 x11 x12 x13 x14 := by
  rw [drop_23 (F := F), after_cons]
  exact tail_24 x0 x1 x2 x3 x4 x5 x6 x7 x8 x9 x10 x11 x12 x13 x14 _
    (by rw [binary_result, h_main_v16, h_main_v18] <;> rfl)
    (by rw [binary_result_ne] <;> first | exact h_main_arg1 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_22 (W : Valuation τ sig (Elt F)) (h_main_v17 : W (Proc.devRef .tc main_v17) = val_main_v17 (F := F) x7) (h_main_v16 : W (Proc.devRef .tc main_v16) = val_main_v16 (F := F) x0 x1 x2 x3 x4 x5 x6) (h_main_arg1 : W (Proc.devRef .tc main_arg1) = x1) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 22 (ops (F := F))) W (Proc.devRef .tc main_v43) = val_main_v43 (F := F) x0 x1 x2 x3 x4 x5 x6 x7 x8 x9 x10 x11 x12 x13 x14 := by
  rw [drop_22 (F := F), after_cons]
  exact tail_23 x0 x1 x2 x3 x4 x5 x6 x7 x8 x9 x10 x11 x12 x13 x14 _
    (by rw [unary_result_ne] <;> first | exact h_main_v16 | decide)
    (by rw [unary_result, h_main_v17] <;> rfl)
    (by rw [unary_result_ne] <;> first | exact h_main_arg1 | decide)
    (by rw [unary_result_ne] <;> first | exact h_main_arg8 | decide)
    (by rw [unary_result_ne] <;> first | exact h_main_arg9 | decide)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_21 (W : Valuation τ sig (Elt F)) (h_main_arg7 : W (Proc.devRef .tc main_arg7) = x7) (h_main_v16 : W (Proc.devRef .tc main_v16) = val_main_v16 (F := F) x0 x1 x2 x3 x4 x5 x6) (h_main_arg1 : W (Proc.devRef .tc main_arg1) = x1) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 21 (ops (F := F))) W (Proc.devRef .tc main_v43) = val_main_v43 (F := F) x0 x1 x2 x3 x4 x5 x6 x7 x8 x9 x10 x11 x12 x13 x14 := by
  rw [drop_21 (F := F), after_cons]
  exact tail_22 x0 x1 x2 x3 x4 x5 x6 x7 x8 x9 x10 x11 x12 x13 x14 _
    (by rw [unary_result, h_main_arg7] <;> rfl)
    (by rw [unary_result_ne] <;> first | exact h_main_v16 | decide)
    (by rw [unary_result_ne] <;> first | exact h_main_arg1 | decide)
    (by rw [unary_result_ne] <;> first | exact h_main_arg8 | decide)
    (by rw [unary_result_ne] <;> first | exact h_main_arg9 | decide)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_20 (W : Valuation τ sig (Elt F)) (h_main_v15 : W (Proc.devRef .tc main_v15) = val_main_v15 (F := F) x0 x1 x2 x3 x4 x5) (h_main_arg6 : W (Proc.devRef .tc main_arg6) = x6) (h_main_arg7 : W (Proc.devRef .tc main_arg7) = x7) (h_main_arg1 : W (Proc.devRef .tc main_arg1) = x1) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 20 (ops (F := F))) W (Proc.devRef .tc main_v43) = val_main_v43 (F := F) x0 x1 x2 x3 x4 x5 x6 x7 x8 x9 x10 x11 x12 x13 x14 := by
  rw [drop_20 (F := F), after_cons]
  exact tail_21 x0 x1 x2 x3 x4 x5 x6 x7 x8 x9 x10 x11 x12 x13 x14 _
    (by rw [binary_result_ne] <;> first | exact h_main_arg7 | decide)
    (by rw [binary_result, h_main_v15, h_main_arg6] <;> rfl)
    (by rw [binary_result_ne] <;> first | exact h_main_arg1 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_19 (W : Valuation τ sig (Elt F)) (h_main_v13 : W (Proc.devRef .tc main_v13) = val_main_v13 (F := F) x0 x1 x2 x3 x4 x5) (h_main_v14 : W (Proc.devRef .tc main_v14) = val_main_v14 (F := F) x0 x1 x2 x3 x4 x5) (h_main_arg6 : W (Proc.devRef .tc main_arg6) = x6) (h_main_arg7 : W (Proc.devRef .tc main_arg7) = x7) (h_main_arg1 : W (Proc.devRef .tc main_arg1) = x1) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 19 (ops (F := F))) W (Proc.devRef .tc main_v43) = val_main_v43 (F := F) x0 x1 x2 x3 x4 x5 x6 x7 x8 x9 x10 x11 x12 x13 x14 := by
  rw [drop_19 (F := F), after_cons]
  exact tail_20 x0 x1 x2 x3 x4 x5 x6 x7 x8 x9 x10 x11 x12 x13 x14 _
    (by rw [binary_result, h_main_v13, h_main_v14] <;> rfl)
    (by rw [binary_result_ne] <;> first | exact h_main_arg6 | decide)
    (by rw [binary_result_ne] <;> first | exact h_main_arg7 | decide)
    (by rw [binary_result_ne] <;> first | exact h_main_arg1 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_18 (W : Valuation τ sig (Elt F)) (h_main_arg1 : W (Proc.devRef .tc main_arg1) = x1) (h_main_v13 : W (Proc.devRef .tc main_v13) = val_main_v13 (F := F) x0 x1 x2 x3 x4 x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 18 (ops (F := F))) W (Proc.devRef .tc main_v43) = val_main_v43 (F := F) x0 x1 x2 x3 x4 x5 x6 x7 x8 x9 x10 x11 x12 x13 x14 := by
  rw [drop_18 (F := F), after_cons]
  exact tail_19 x0 x1 x2 x3 x4 x5 x6 x7 x8 x9 x10 x11 x12 x13 x14 _
    (by rw [binary_result_ne] <;> first | exact h_main_v13 | decide)
    (by rw [binary_result, h_main_arg1, h_main_v13] <;> rfl)
    (by rw [binary_result_ne] <;> first | exact h_main_arg6 | decide)
    (by rw [binary_result_ne] <;> first | exact h_main_arg7 | decide)
    (by rw [binary_result_ne] <;> first | exact h_main_arg1 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_17 (W : Valuation τ sig (Elt F)) (h_main_v12 : W (Proc.devRef .tc main_v12) = val_main_v12 (F := F) x0 x1 x2 x3 x4 x5) (h_main_call1_v0 : W (Proc.devRef .tc main_call1_v0) = val_main_call1_v0 (F := F)) (h_main_arg1 : W (Proc.devRef .tc main_arg1) = x1) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 17 (ops (F := F))) W (Proc.devRef .tc main_v43) = val_main_v43 (F := F) x0 x1 x2 x3 x4 x5 x6 x7 x8 x9 x10 x11 x12 x13 x14 := by
  rw [drop_17 (F := F), after_cons]
  exact tail_18 x0 x1 x2 x3 x4 x5 x6 x7 x8 x9 x10 x11 x12 x13 x14 _
    (by rw [binary_result_ne] <;> first | exact h_main_arg1 | decide)
    (by rw [binary_result, h_main_v12, h_main_call1_v0] <;> (try simp only [TRef.toBuf, TRef.ofBuf, cast_eq]) <;> rfl)
    (by rw [binary_result_ne] <;> first | exact h_main_arg6 | decide)
    (by rw [binary_result_ne] <;> first | exact h_main_arg7 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_16 (W : Valuation τ sig (Elt F)) (h_main_call1_cst : W (Proc.devRef .tc main_call1_cst) = val_main_call1_cst (F := F)) (h_main_v12 : W (Proc.devRef .tc main_v12) = val_main_v12 (F := F) x0 x1 x2 x3 x4 x5) (h_main_arg1 : W (Proc.devRef .tc main_arg1) = x1) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 16 (ops (F := F))) W (Proc.devRef .tc main_v43) = val_main_v43 (F := F) x0 x1 x2 x3 x4 x5 x6 x7 x8 x9 x10 x11 x12 x13 x14 := by
  rw [drop_16 (F := F), after_cons]
  exact tail_17 x0 x1 x2 x3 x4 x5 x6 x7 x8 x9 x10 x11 x12 x13 x14 _
    (by rw [unary_result_ne] <;> first | exact h_main_v12 | decide)
    (by rw [unary_result, h_main_call1_cst] <;> (try simp only [TRef.toBuf, TRef.ofBuf, cast_eq]) <;> rfl)
    (by rw [unary_result_ne] <;> first | exact h_main_arg1 | decide)
    (by rw [unary_result_ne] <;> first | exact h_main_arg6 | decide)
    (by rw [unary_result_ne] <;> first | exact h_main_arg7 | decide)
    (by rw [unary_result_ne] <;> first | exact h_main_arg8 | decide)
    (by rw [unary_result_ne] <;> first | exact h_main_arg9 | decide)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_15 (W : Valuation τ sig (Elt F)) (h_main_v12 : W (Proc.devRef .tc main_v12) = val_main_v12 (F := F) x0 x1 x2 x3 x4 x5) (h_main_arg1 : W (Proc.devRef .tc main_arg1) = x1) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 15 (ops (F := F))) W (Proc.devRef .tc main_v43) = val_main_v43 (F := F) x0 x1 x2 x3 x4 x5 x6 x7 x8 x9 x10 x11 x12 x13 x14 := by
  rw [drop_15 (F := F), after_cons]
  exact tail_16 x0 x1 x2 x3 x4 x5 x6 x7 x8 x9 x10 x11 x12 x13 x14 _
    (by rw [nullary_result] <;> (try simp only [TRef.toBuf, TRef.ofBuf, cast_eq]) <;> rfl)
    (by rw [nullary_result_ne] <;> first | exact h_main_v12 | decide)
    (by rw [nullary_result_ne] <;> first | exact h_main_arg1 | decide)
    (by rw [nullary_result_ne] <;> first | exact h_main_arg6 | decide)
    (by rw [nullary_result_ne] <;> first | exact h_main_arg7 | decide)
    (by rw [nullary_result_ne] <;> first | exact h_main_arg8 | decide)
    (by rw [nullary_result_ne] <;> first | exact h_main_arg9 | decide)
    (by rw [nullary_result_ne] <;> first | exact h_main_arg10 | decide)
    (by rw [nullary_result_ne] <;> first | exact h_main_arg11 | decide)
    (by rw [nullary_result_ne] <;> first | exact h_main_arg12 | decide)
    (by rw [nullary_result_ne] <;> first | exact h_main_arg13 | decide)
    (by rw [nullary_result_ne] <;> first | exact h_main_arg14 | decide)
theorem tail_14 (W : Valuation τ sig (Elt F)) (h_main_v9 : W (Proc.devRef .tc main_v9) = val_main_v9 (F := F) x0 x1 x2 x3 x4) (h_main_v11 : W (Proc.devRef .tc main_v11) = val_main_v11 (F := F) x5) (h_main_arg1 : W (Proc.devRef .tc main_arg1) = x1) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 14 (ops (F := F))) W (Proc.devRef .tc main_v43) = val_main_v43 (F := F) x0 x1 x2 x3 x4 x5 x6 x7 x8 x9 x10 x11 x12 x13 x14 := by
  rw [drop_14 (F := F), after_cons]
  exact tail_15 x0 x1 x2 x3 x4 x5 x6 x7 x8 x9 x10 x11 x12 x13 x14 _
    (by rw [binary_result, h_main_v9, h_main_v11] <;> rfl)
    (by rw [binary_result_ne] <;> first | exact h_main_arg1 | decide)
    (by rw [binary_result_ne] <;> first | exact h_main_arg6 | decide)
    (by rw [binary_result_ne] <;> first | exact h_main_arg7 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_13 (W : Valuation τ sig (Elt F)) (h_main_v10 : W (Proc.devRef .tc main_v10) = val_main_v10 (F := F) x5) (h_main_v9 : W (Proc.devRef .tc main_v9) = val_main_v9 (F := F) x0 x1 x2 x3 x4) (h_main_arg1 : W (Proc.devRef .tc main_arg1) = x1) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 13 (ops (F := F))) W (Proc.devRef .tc main_v43) = val_main_v43 (F := F) x0 x1 x2 x3 x4 x5 x6 x7 x8 x9 x10 x11 x12 x13 x14 := by
  rw [drop_13 (F := F), after_cons]
  exact tail_14 x0 x1 x2 x3 x4 x5 x6 x7 x8 x9 x10 x11 x12 x13 x14 _
    (by rw [unary_result_ne] <;> first | exact h_main_v9 | decide)
    (by rw [unary_result, h_main_v10] <;> rfl)
    (by rw [unary_result_ne] <;> first | exact h_main_arg1 | decide)
    (by rw [unary_result_ne] <;> first | exact h_main_arg6 | decide)
    (by rw [unary_result_ne] <;> first | exact h_main_arg7 | decide)
    (by rw [unary_result_ne] <;> first | exact h_main_arg8 | decide)
    (by rw [unary_result_ne] <;> first | exact h_main_arg9 | decide)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_12 (W : Valuation τ sig (Elt F)) (h_main_arg5 : W (Proc.devRef .tc main_arg5) = x5) (h_main_v9 : W (Proc.devRef .tc main_v9) = val_main_v9 (F := F) x0 x1 x2 x3 x4) (h_main_arg1 : W (Proc.devRef .tc main_arg1) = x1) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 12 (ops (F := F))) W (Proc.devRef .tc main_v43) = val_main_v43 (F := F) x0 x1 x2 x3 x4 x5 x6 x7 x8 x9 x10 x11 x12 x13 x14 := by
  rw [drop_12 (F := F), after_cons]
  exact tail_13 x0 x1 x2 x3 x4 x5 x6 x7 x8 x9 x10 x11 x12 x13 x14 _
    (by rw [unary_result, h_main_arg5] <;> rfl)
    (by rw [unary_result_ne] <;> first | exact h_main_v9 | decide)
    (by rw [unary_result_ne] <;> first | exact h_main_arg1 | decide)
    (by rw [unary_result_ne] <;> first | exact h_main_arg6 | decide)
    (by rw [unary_result_ne] <;> first | exact h_main_arg7 | decide)
    (by rw [unary_result_ne] <;> first | exact h_main_arg8 | decide)
    (by rw [unary_result_ne] <;> first | exact h_main_arg9 | decide)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_11 (W : Valuation τ sig (Elt F)) (h_main_v8 : W (Proc.devRef .tc main_v8) = val_main_v8 (F := F) x0 x1 x2 x3) (h_main_arg4 : W (Proc.devRef .tc main_arg4) = x4) (h_main_arg5 : W (Proc.devRef .tc main_arg5) = x5) (h_main_arg1 : W (Proc.devRef .tc main_arg1) = x1) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 11 (ops (F := F))) W (Proc.devRef .tc main_v43) = val_main_v43 (F := F) x0 x1 x2 x3 x4 x5 x6 x7 x8 x9 x10 x11 x12 x13 x14 := by
  rw [drop_11 (F := F), after_cons]
  exact tail_12 x0 x1 x2 x3 x4 x5 x6 x7 x8 x9 x10 x11 x12 x13 x14 _
    (by rw [binary_result_ne] <;> first | exact h_main_arg5 | decide)
    (by rw [binary_result, h_main_v8, h_main_arg4] <;> rfl)
    (by rw [binary_result_ne] <;> first | exact h_main_arg1 | decide)
    (by rw [binary_result_ne] <;> first | exact h_main_arg6 | decide)
    (by rw [binary_result_ne] <;> first | exact h_main_arg7 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_10 (W : Valuation τ sig (Elt F)) (h_main_v6 : W (Proc.devRef .tc main_v6) = val_main_v6 (F := F) x0 x1 x2 x3) (h_main_v7 : W (Proc.devRef .tc main_v7) = val_main_v7 (F := F) x0 x1 x2 x3) (h_main_arg4 : W (Proc.devRef .tc main_arg4) = x4) (h_main_arg5 : W (Proc.devRef .tc main_arg5) = x5) (h_main_arg1 : W (Proc.devRef .tc main_arg1) = x1) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 10 (ops (F := F))) W (Proc.devRef .tc main_v43) = val_main_v43 (F := F) x0 x1 x2 x3 x4 x5 x6 x7 x8 x9 x10 x11 x12 x13 x14 := by
  rw [drop_10 (F := F), after_cons]
  exact tail_11 x0 x1 x2 x3 x4 x5 x6 x7 x8 x9 x10 x11 x12 x13 x14 _
    (by rw [binary_result, h_main_v6, h_main_v7] <;> rfl)
    (by rw [binary_result_ne] <;> first | exact h_main_arg4 | decide)
    (by rw [binary_result_ne] <;> first | exact h_main_arg5 | decide)
    (by rw [binary_result_ne] <;> first | exact h_main_arg1 | decide)
    (by rw [binary_result_ne] <;> first | exact h_main_arg6 | decide)
    (by rw [binary_result_ne] <;> first | exact h_main_arg7 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_9 (W : Valuation τ sig (Elt F)) (h_main_arg1 : W (Proc.devRef .tc main_arg1) = x1) (h_main_v6 : W (Proc.devRef .tc main_v6) = val_main_v6 (F := F) x0 x1 x2 x3) (h_main_arg4 : W (Proc.devRef .tc main_arg4) = x4) (h_main_arg5 : W (Proc.devRef .tc main_arg5) = x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 9 (ops (F := F))) W (Proc.devRef .tc main_v43) = val_main_v43 (F := F) x0 x1 x2 x3 x4 x5 x6 x7 x8 x9 x10 x11 x12 x13 x14 := by
  rw [drop_9 (F := F), after_cons]
  exact tail_10 x0 x1 x2 x3 x4 x5 x6 x7 x8 x9 x10 x11 x12 x13 x14 _
    (by rw [binary_result_ne] <;> first | exact h_main_v6 | decide)
    (by rw [binary_result, h_main_arg1, h_main_v6] <;> rfl)
    (by rw [binary_result_ne] <;> first | exact h_main_arg4 | decide)
    (by rw [binary_result_ne] <;> first | exact h_main_arg5 | decide)
    (by rw [binary_result_ne] <;> first | exact h_main_arg1 | decide)
    (by rw [binary_result_ne] <;> first | exact h_main_arg6 | decide)
    (by rw [binary_result_ne] <;> first | exact h_main_arg7 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_8 (W : Valuation τ sig (Elt F)) (h_main_v5 : W (Proc.devRef .tc main_v5) = val_main_v5 (F := F) x0 x1 x2 x3) (h_main_call0_v0 : W (Proc.devRef .tc main_call0_v0) = val_main_call0_v0 (F := F)) (h_main_arg1 : W (Proc.devRef .tc main_arg1) = x1) (h_main_arg4 : W (Proc.devRef .tc main_arg4) = x4) (h_main_arg5 : W (Proc.devRef .tc main_arg5) = x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 8 (ops (F := F))) W (Proc.devRef .tc main_v43) = val_main_v43 (F := F) x0 x1 x2 x3 x4 x5 x6 x7 x8 x9 x10 x11 x12 x13 x14 := by
  rw [drop_8 (F := F), after_cons]
  exact tail_9 x0 x1 x2 x3 x4 x5 x6 x7 x8 x9 x10 x11 x12 x13 x14 _
    (by rw [binary_result_ne] <;> first | exact h_main_arg1 | decide)
    (by rw [binary_result, h_main_v5, h_main_call0_v0] <;> (try simp only [TRef.toBuf, TRef.ofBuf, cast_eq]) <;> rfl)
    (by rw [binary_result_ne] <;> first | exact h_main_arg4 | decide)
    (by rw [binary_result_ne] <;> first | exact h_main_arg5 | decide)
    (by rw [binary_result_ne] <;> first | exact h_main_arg6 | decide)
    (by rw [binary_result_ne] <;> first | exact h_main_arg7 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_7 (W : Valuation τ sig (Elt F)) (h_main_call0_cst : W (Proc.devRef .tc main_call0_cst) = val_main_call0_cst (F := F)) (h_main_v5 : W (Proc.devRef .tc main_v5) = val_main_v5 (F := F) x0 x1 x2 x3) (h_main_arg1 : W (Proc.devRef .tc main_arg1) = x1) (h_main_arg4 : W (Proc.devRef .tc main_arg4) = x4) (h_main_arg5 : W (Proc.devRef .tc main_arg5) = x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 7 (ops (F := F))) W (Proc.devRef .tc main_v43) = val_main_v43 (F := F) x0 x1 x2 x3 x4 x5 x6 x7 x8 x9 x10 x11 x12 x13 x14 := by
  rw [drop_7 (F := F), after_cons]
  exact tail_8 x0 x1 x2 x3 x4 x5 x6 x7 x8 x9 x10 x11 x12 x13 x14 _
    (by rw [unary_result_ne] <;> first | exact h_main_v5 | decide)
    (by rw [unary_result, h_main_call0_cst] <;> (try simp only [TRef.toBuf, TRef.ofBuf, cast_eq]) <;> rfl)
    (by rw [unary_result_ne] <;> first | exact h_main_arg1 | decide)
    (by rw [unary_result_ne] <;> first | exact h_main_arg4 | decide)
    (by rw [unary_result_ne] <;> first | exact h_main_arg5 | decide)
    (by rw [unary_result_ne] <;> first | exact h_main_arg6 | decide)
    (by rw [unary_result_ne] <;> first | exact h_main_arg7 | decide)
    (by rw [unary_result_ne] <;> first | exact h_main_arg8 | decide)
    (by rw [unary_result_ne] <;> first | exact h_main_arg9 | decide)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_6 (W : Valuation τ sig (Elt F)) (h_main_v5 : W (Proc.devRef .tc main_v5) = val_main_v5 (F := F) x0 x1 x2 x3) (h_main_arg1 : W (Proc.devRef .tc main_arg1) = x1) (h_main_arg4 : W (Proc.devRef .tc main_arg4) = x4) (h_main_arg5 : W (Proc.devRef .tc main_arg5) = x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 6 (ops (F := F))) W (Proc.devRef .tc main_v43) = val_main_v43 (F := F) x0 x1 x2 x3 x4 x5 x6 x7 x8 x9 x10 x11 x12 x13 x14 := by
  rw [drop_6 (F := F), after_cons]
  exact tail_7 x0 x1 x2 x3 x4 x5 x6 x7 x8 x9 x10 x11 x12 x13 x14 _
    (by rw [nullary_result] <;> (try simp only [TRef.toBuf, TRef.ofBuf, cast_eq]) <;> rfl)
    (by rw [nullary_result_ne] <;> first | exact h_main_v5 | decide)
    (by rw [nullary_result_ne] <;> first | exact h_main_arg1 | decide)
    (by rw [nullary_result_ne] <;> first | exact h_main_arg4 | decide)
    (by rw [nullary_result_ne] <;> first | exact h_main_arg5 | decide)
    (by rw [nullary_result_ne] <;> first | exact h_main_arg6 | decide)
    (by rw [nullary_result_ne] <;> first | exact h_main_arg7 | decide)
    (by rw [nullary_result_ne] <;> first | exact h_main_arg8 | decide)
    (by rw [nullary_result_ne] <;> first | exact h_main_arg9 | decide)
    (by rw [nullary_result_ne] <;> first | exact h_main_arg10 | decide)
    (by rw [nullary_result_ne] <;> first | exact h_main_arg11 | decide)
    (by rw [nullary_result_ne] <;> first | exact h_main_arg12 | decide)
    (by rw [nullary_result_ne] <;> first | exact h_main_arg13 | decide)
    (by rw [nullary_result_ne] <;> first | exact h_main_arg14 | decide)
theorem tail_5 (W : Valuation τ sig (Elt F)) (h_main_v2 : W (Proc.devRef .tc main_v2) = val_main_v2 (F := F) x0 x1 x2) (h_main_v4 : W (Proc.devRef .tc main_v4) = val_main_v4 (F := F) x3) (h_main_arg1 : W (Proc.devRef .tc main_arg1) = x1) (h_main_arg4 : W (Proc.devRef .tc main_arg4) = x4) (h_main_arg5 : W (Proc.devRef .tc main_arg5) = x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 5 (ops (F := F))) W (Proc.devRef .tc main_v43) = val_main_v43 (F := F) x0 x1 x2 x3 x4 x5 x6 x7 x8 x9 x10 x11 x12 x13 x14 := by
  rw [drop_5 (F := F), after_cons]
  exact tail_6 x0 x1 x2 x3 x4 x5 x6 x7 x8 x9 x10 x11 x12 x13 x14 _
    (by rw [binary_result, h_main_v2, h_main_v4] <;> rfl)
    (by rw [binary_result_ne] <;> first | exact h_main_arg1 | decide)
    (by rw [binary_result_ne] <;> first | exact h_main_arg4 | decide)
    (by rw [binary_result_ne] <;> first | exact h_main_arg5 | decide)
    (by rw [binary_result_ne] <;> first | exact h_main_arg6 | decide)
    (by rw [binary_result_ne] <;> first | exact h_main_arg7 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_4 (W : Valuation τ sig (Elt F)) (h_main_v3 : W (Proc.devRef .tc main_v3) = val_main_v3 (F := F) x3) (h_main_v2 : W (Proc.devRef .tc main_v2) = val_main_v2 (F := F) x0 x1 x2) (h_main_arg1 : W (Proc.devRef .tc main_arg1) = x1) (h_main_arg4 : W (Proc.devRef .tc main_arg4) = x4) (h_main_arg5 : W (Proc.devRef .tc main_arg5) = x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 4 (ops (F := F))) W (Proc.devRef .tc main_v43) = val_main_v43 (F := F) x0 x1 x2 x3 x4 x5 x6 x7 x8 x9 x10 x11 x12 x13 x14 := by
  rw [drop_4 (F := F), after_cons]
  exact tail_5 x0 x1 x2 x3 x4 x5 x6 x7 x8 x9 x10 x11 x12 x13 x14 _
    (by rw [unary_result_ne] <;> first | exact h_main_v2 | decide)
    (by rw [unary_result, h_main_v3] <;> rfl)
    (by rw [unary_result_ne] <;> first | exact h_main_arg1 | decide)
    (by rw [unary_result_ne] <;> first | exact h_main_arg4 | decide)
    (by rw [unary_result_ne] <;> first | exact h_main_arg5 | decide)
    (by rw [unary_result_ne] <;> first | exact h_main_arg6 | decide)
    (by rw [unary_result_ne] <;> first | exact h_main_arg7 | decide)
    (by rw [unary_result_ne] <;> first | exact h_main_arg8 | decide)
    (by rw [unary_result_ne] <;> first | exact h_main_arg9 | decide)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_3 (W : Valuation τ sig (Elt F)) (h_main_arg3 : W (Proc.devRef .tc main_arg3) = x3) (h_main_v2 : W (Proc.devRef .tc main_v2) = val_main_v2 (F := F) x0 x1 x2) (h_main_arg1 : W (Proc.devRef .tc main_arg1) = x1) (h_main_arg4 : W (Proc.devRef .tc main_arg4) = x4) (h_main_arg5 : W (Proc.devRef .tc main_arg5) = x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 3 (ops (F := F))) W (Proc.devRef .tc main_v43) = val_main_v43 (F := F) x0 x1 x2 x3 x4 x5 x6 x7 x8 x9 x10 x11 x12 x13 x14 := by
  rw [drop_3 (F := F), after_cons]
  exact tail_4 x0 x1 x2 x3 x4 x5 x6 x7 x8 x9 x10 x11 x12 x13 x14 _
    (by rw [unary_result, h_main_arg3] <;> rfl)
    (by rw [unary_result_ne] <;> first | exact h_main_v2 | decide)
    (by rw [unary_result_ne] <;> first | exact h_main_arg1 | decide)
    (by rw [unary_result_ne] <;> first | exact h_main_arg4 | decide)
    (by rw [unary_result_ne] <;> first | exact h_main_arg5 | decide)
    (by rw [unary_result_ne] <;> first | exact h_main_arg6 | decide)
    (by rw [unary_result_ne] <;> first | exact h_main_arg7 | decide)
    (by rw [unary_result_ne] <;> first | exact h_main_arg8 | decide)
    (by rw [unary_result_ne] <;> first | exact h_main_arg9 | decide)
    (by rw [unary_result_ne] <;> first | exact h_main_arg10 | decide)
    (by rw [unary_result_ne] <;> first | exact h_main_arg11 | decide)
    (by rw [unary_result_ne] <;> first | exact h_main_arg12 | decide)
    (by rw [unary_result_ne] <;> first | exact h_main_arg13 | decide)
    (by rw [unary_result_ne] <;> first | exact h_main_arg14 | decide)
theorem tail_2 (W : Valuation τ sig (Elt F)) (h_main_v1 : W (Proc.devRef .tc main_v1) = val_main_v1 (F := F) x0 x1) (h_main_arg2 : W (Proc.devRef .tc main_arg2) = x2) (h_main_arg3 : W (Proc.devRef .tc main_arg3) = x3) (h_main_arg1 : W (Proc.devRef .tc main_arg1) = x1) (h_main_arg4 : W (Proc.devRef .tc main_arg4) = x4) (h_main_arg5 : W (Proc.devRef .tc main_arg5) = x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 2 (ops (F := F))) W (Proc.devRef .tc main_v43) = val_main_v43 (F := F) x0 x1 x2 x3 x4 x5 x6 x7 x8 x9 x10 x11 x12 x13 x14 := by
  rw [drop_2 (F := F), after_cons]
  exact tail_3 x0 x1 x2 x3 x4 x5 x6 x7 x8 x9 x10 x11 x12 x13 x14 _
    (by rw [binary_result_ne] <;> first | exact h_main_arg3 | decide)
    (by rw [binary_result, h_main_v1, h_main_arg2] <;> rfl)
    (by rw [binary_result_ne] <;> first | exact h_main_arg1 | decide)
    (by rw [binary_result_ne] <;> first | exact h_main_arg4 | decide)
    (by rw [binary_result_ne] <;> first | exact h_main_arg5 | decide)
    (by rw [binary_result_ne] <;> first | exact h_main_arg6 | decide)
    (by rw [binary_result_ne] <;> first | exact h_main_arg7 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_1 (W : Valuation τ sig (Elt F)) (h_main_arg0 : W (Proc.devRef .tc main_arg0) = x0) (h_main_v0 : W (Proc.devRef .tc main_v0) = val_main_v0 (F := F) x0 x1) (h_main_arg2 : W (Proc.devRef .tc main_arg2) = x2) (h_main_arg3 : W (Proc.devRef .tc main_arg3) = x3) (h_main_arg1 : W (Proc.devRef .tc main_arg1) = x1) (h_main_arg4 : W (Proc.devRef .tc main_arg4) = x4) (h_main_arg5 : W (Proc.devRef .tc main_arg5) = x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 1 (ops (F := F))) W (Proc.devRef .tc main_v43) = val_main_v43 (F := F) x0 x1 x2 x3 x4 x5 x6 x7 x8 x9 x10 x11 x12 x13 x14 := by
  rw [drop_1 (F := F), after_cons]
  exact tail_2 x0 x1 x2 x3 x4 x5 x6 x7 x8 x9 x10 x11 x12 x13 x14 _
    (by rw [binary_result, h_main_arg0, h_main_v0] <;> rfl)
    (by rw [binary_result_ne] <;> first | exact h_main_arg2 | decide)
    (by rw [binary_result_ne] <;> first | exact h_main_arg3 | decide)
    (by rw [binary_result_ne] <;> first | exact h_main_arg1 | decide)
    (by rw [binary_result_ne] <;> first | exact h_main_arg4 | decide)
    (by rw [binary_result_ne] <;> first | exact h_main_arg5 | decide)
    (by rw [binary_result_ne] <;> first | exact h_main_arg6 | decide)
    (by rw [binary_result_ne] <;> first | exact h_main_arg7 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)
theorem tail_0 (W : Valuation τ sig (Elt F)) (h_main_arg1 : W (Proc.devRef .tc main_arg1) = x1) (h_main_arg0 : W (Proc.devRef .tc main_arg0) = x0) (h_main_arg2 : W (Proc.devRef .tc main_arg2) = x2) (h_main_arg3 : W (Proc.devRef .tc main_arg3) = x3) (h_main_arg4 : W (Proc.devRef .tc main_arg4) = x4) (h_main_arg5 : W (Proc.devRef .tc main_arg5) = x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) (h_main_arg11 : W (Proc.devRef .tc main_arg11) = x11) (h_main_arg12 : W (Proc.devRef .tc main_arg12) = x12) (h_main_arg13 : W (Proc.devRef .tc main_arg13) = x13) (h_main_arg14 : W (Proc.devRef .tc main_arg14) = x14) :
    after (List.drop 0 (ops (F := F))) W (Proc.devRef .tc main_v43) = val_main_v43 (F := F) x0 x1 x2 x3 x4 x5 x6 x7 x8 x9 x10 x11 x12 x13 x14 := by
  rw [drop_0 (F := F), after_cons]
  exact tail_1 x0 x1 x2 x3 x4 x5 x6 x7 x8 x9 x10 x11 x12 x13 x14 _
    (by rw [binary_result_ne] <;> first | exact h_main_arg0 | decide)
    (by rw [binary_result, h_main_arg1, h_main_arg0] <;> rfl)
    (by rw [binary_result_ne] <;> first | exact h_main_arg2 | decide)
    (by rw [binary_result_ne] <;> first | exact h_main_arg3 | decide)
    (by rw [binary_result_ne] <;> first | exact h_main_arg1 | decide)
    (by rw [binary_result_ne] <;> first | exact h_main_arg4 | decide)
    (by rw [binary_result_ne] <;> first | exact h_main_arg5 | decide)
    (by rw [binary_result_ne] <;> first | exact h_main_arg6 | decide)
    (by rw [binary_result_ne] <;> first | exact h_main_arg7 | decide)
    (by rw [binary_result_ne] <;> first | exact h_main_arg8 | decide)
    (by rw [binary_result_ne] <;> first | exact h_main_arg9 | decide)
    (by rw [binary_result_ne] <;> first | exact h_main_arg10 | decide)
    (by rw [binary_result_ne] <;> first | exact h_main_arg11 | decide)
    (by rw [binary_result_ne] <;> first | exact h_main_arg12 | decide)
    (by rw [binary_result_ne] <;> first | exact h_main_arg13 | decide)
    (by rw [binary_result_ne] <;> first | exact h_main_arg14 | decide)

end Walk

/-- THE REFERENCE'S RESULT BUFFER after its 67 operations, from any contents `V`: the last stage of the arguments as
    `V` holds them. -/
theorem after_result (V : Valuation τ sig (Elt F)) :
    after (ops (F := F)) V (Proc.devRef .tc main_v43)
      = val_main_v43 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) :=
  tail_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) V
    rfl rfl rfl rfl rfl rfl rfl rfl rfl rfl rfl rfl rfl rfl rfl

set_option maxRecDepth 8192 in
set_option maxHeartbeats 26800000 in
/-- THE REFERENCE'S RUN: every weakly fair execution terminates with the result buffer at the last stage of the
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v43).trans (after_result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl)⟩)
    (run_seq scopedRefs_eq scopedSems_eq defs main (fun _ => ops) main_eq (fun _ => ops_sub) m ρ)

end Cert.RefWalk

end
-- ==== Proof.Net.lean ====
/-
  A four-layer graph network with a two-layer classifier head, for one graph, as plain functions of indices
  over the extended reals.

  One graph has `n` nodes, a row-normalised adjacency matrix `adj` and node features `h`. A graph layer gathers,
  for every node `p`, the adjacency-weighted sum of all nodes' features, `(adj · h) p e = Σ_m adj p m * h m e`, lays it to
  the right of the node's own features, `[h p | (adj · h) p]`, multiplies that row of `2 d` numbers by a weight matrix,
  adds a bias and rectifies: `max (Σ_k [h | adj · h] p k * W k q + b q) 0`. Four such layers are followed by a dense
  layer, a parametric rectifier (`v` where `v > 0`, `α q * v` elsewhere), another dense layer onto the classes, and the
  log-softmax of each node's row of class scores: `(r q - M) - log (Σ_k exp (r k - M))`, `M` the row's maximum.

  Nothing here asks the numbers to be finite: a finite sum of extended reals is defined whatever its terms are, and
  both programs this specification is read from form the same sums of the same products.
-/
import Idealize.ShloMosaic.PureOps.Ideal.Laws
import Idealize.ShloMosaic.Lib.ValueIdx

noncomputable section

open scoped BigOperators

namespace Cert.Net

open Idealize.ShloMosaic

/-- The extended reals, as the scalars of the format every stage of the network is kept in. -/
abbrev R : Type := Ideal .f32

/-- The number 0, as the word both programs write it with. -/
abbrev zero : R := Ideal.ofBits .f32 0x00000000#32

/-- Minus infinity, as the word both programs start a row maximum from. -/
abbrev negInf : R := Ideal.ofBits .f32 0xFF800000#32

variable {n d K f : ℕ}

/-- The adjacency-weighted sum of the nodes' features: entry `(p, e)` of `adj · h`. -/
def agg (adj : Fin n → Fin n → R) (h : Fin n → Fin d → R) (p : Fin n) (e : Fin d) : R :=
  ∑ m : Fin n, adj p m * h m e

/-- A node's own `d` features with `d` gathered ones laid to their right: column `k` of a row of width `K = 2 d`.
    (Past column `2 d` there is nothing; the value given there is never read.) -/
def catRow (own gathered : Fin d → R) (k : Fin K) : R :=
  if hk : k.val < d then own ⟨k.val, hk⟩
  else if hk' : k.val - d < d then gathered ⟨k.val - d, hk'⟩ else 0

/-- The joined matrix `[h | adj · h]`: node `p`'s own features with its gathered ones to their right. -/
def joined (adj : Fin n → Fin n → R) (h : Fin n → Fin d → R) (p : Fin n) (k : Fin K) : R :=
  catRow (h p) (agg adj h p) k

/-- A dense step followed by the rectifier: `max (Σ_k x p k * W k q + b q) 0`. -/
def reluDense (x : Fin n → Fin K → R) (W : Fin K → Fin f → R) (b : Fin f → R) (p : Fin n) (q : Fin f) : R :=
  max ((∑ k : Fin K, x p k * W k q) + b q) zero

/-- One graph layer: `max (Σ_k [h | adj · h] p k * W k q + b q) 0`. -/
def gconv (adj : Fin n → Fin n → R) (h : Fin n → Fin d → R) (W : Fin K → Fin f → R) (b : Fin f → R) :
    Fin n → Fin f → R :=
  reluDense (joined (K := K) adj h) W b

/-- A dense layer: `Σ_k x p k * W k q + b q`. -/
def dense (x : Fin n → Fin K → R) (W : Fin K → Fin f → R) (b : Fin f → R) (p : Fin n) (q : Fin f) : R :=
  (∑ k : Fin K, x p k * W k q) + b q

/-- The parametric rectifier: `v` where `v > 0`, the slope `α q` times `v` elsewhere. -/
def prelu (α : Fin f → R) (v : Fin n → Fin f → R) (p : Fin n) (q : Fin f) : R :=
  Scalar.select (FloatOps.cmpf (F := Ideal) .ogt (v p q) zero) (v p q) (α q * v p q)

/-- A row's maximum: the fold of `max` over its entries from minus infinity. -/
def rowMax (r : Fin f → R) : R :=
  (Finset.univ : Finset (Fin f)).fold max negInf r

/-- The log-softmax of a row at class `q`. -/
def logSoftmaxRow (r : Fin f → R) (q : Fin f) : R :=
  (r q - rowMax r) - Ideal.log (∑ k : Fin f, Ideal.exp (r k - rowMax r))

/-- The four graph layers and the first dense layer with its rectifier: a node's hidden row before the last layer. -/
def hidden {d0 K1 d1 K2 d2 K3 d3 K4 d4 d5 : ℕ} (x : Fin n → Fin d0 → R) (adj : Fin n → Fin n → R)
    (W1 : Fin K1 → Fin d1 → R) (b1 : Fin d1 → R) (W2 : Fin K2 → Fin d2 → R) (b2 : Fin d2 → R)
    (W3 : Fin K3 → Fin d3 → R) (b3 : Fin d3 → R) (W4 : Fin K4 → Fin d4 → R) (b4 : Fin d4 → R)
    (Wc1 : Fin d4 → Fin d5 → R) (bc1 : Fin d5 → R) (α : Fin d5 → R) : Fin n → Fin d5 → R :=
  prelu α (dense (gconv adj (gconv adj (gconv adj (gconv adj x W1 b1) W2 b2) W3 b3) W4 b4) Wc1 bc1)

/-- The whole network for one graph: the log-softmax, row by row, of the class scores of the hidden rows. -/
def net {d0 K1 d1 K2 d2 K3 d3 K4 d4 d5 c : ℕ} (x : Fin n → Fin d0 → R) (adj : Fin n → Fin n → R)
    (W1 : Fin K1 → Fin d1 → R) (b1 : Fin d1 → R) (W2 : Fin K2 → Fin d2 → R) (b2 : Fin d2 → R)
    (W3 : Fin K3 → Fin d3 → R) (b3 : Fin d3 → R) (W4 : Fin K4 → Fin d4 → R) (b4 : Fin d4 → R)
    (Wc1 : Fin d4 → Fin d5 → R) (bc1 : Fin d5 → R) (α : Fin d5 → R) (Wc2 : Fin d5 → Fin c → R) (bc2 : Fin c → R)
    (p : Fin n) (q : Fin c) : R :=
  logSoftmaxRow (dense (hidden x adj W1 b1 W2 b2 W3 b3 W4 b4 Wc1 bc1 α) Wc2 bc2 p) q

end Cert.Net

end
-- ==== Proof.LibDenseRows.lean ====
/-
  A dense layer over the extended reals, read at an index.

  For a row-major matrix product x · W with x : [M, K] and W : [K, N] (the plain dimension numbers: the
  left operand contracted on its last axis, the right on its first), accumulated into a zero matrix, the
  entry (p, j) is the finite sum over e of x(p, e) · W(e, j). Adding a bias given as a one-row matrix
  b : [1, N] broadcast down the M rows adds b(0, j). A rectifier written as the maximum with a zero splat,
  followed by a change of float format (the identity on the extended reals), is max(v, 0) entry by entry.
  Nothing here needs the entries to be finite: the extended reals' sum of finitely many terms is defined
  whatever the terms are.
-/
import Idealize.ShloMosaic.PureOps.Ideal.Laws
import Idealize.ShloMosaic.Lib.ValueIdx
import Idealize.ShloMosaic.Lib.ValueLayout

noncomputable section

namespace Cert.LibDenseRows

open Idealize.ShloMosaic Idealize.ShloMosaic.ValueIdx

variable {M K N : ℕ} {φ₁ φ₂ : FTy}

/-- The product x · W into the zero matrix, at (p, j): the sum over the shared axis of x(p, e) · W(e, j). -/
theorem matmul_plain_zero_apply (D : DotDims ⟨2, ![M, K]⟩ ⟨2, ![K, N]⟩ ⟨2, ![M, N]⟩) (hD : D = DotDims.plain M K N)
    (prec : Option ContractPrecision) (x : FVec Ideal ⟨2, ![M, K]⟩ φ₁) (W : FVec Ideal ⟨2, ![K, N]⟩ φ₂)
    (p : Fin M) (j : Fin N) :
    FloatOps.matmul D prec x W (constant (F := Ideal) ⟨2, ![M, N]⟩ .f32 0x00000000#32) (ix2 p j)
      = ∑ e : Fin K, x (ix2 p e) * W (ix2 e j) := by
  subst hD
  rw [Ideal.matmul_constant_zero_apply, ← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 p j) ((contrEquiv1 (DotDims.plain M K N) K rfl rfl).symm e) = ix2 p e :=
    funext fun a => Fin.ext (by
      match a with
      | ⟨0, _⟩ => rfl
      | ⟨1, _⟩ => exact ((DotDims.plain M K N).lhsIdx_val_of_single rfl _ _).trans he)
  have er : (DotDims.plain M K N).rhsIdx (ix2 p j) ((contrEquiv1 (DotDims.plain M K N) K rfl rfl).symm e) = ix2 e j :=
    funext fun a => Fin.ext (by
      match a with
      | ⟨0, _⟩ => exact ((DotDims.plain M K N).rhsIdx_val_of_single rfl _ _).trans he
      | ⟨1, _⟩ => rfl)
  rw [el, er]

/-- x · W + b with the bias a one-row matrix broadcast down the rows, at (p, j). -/
theorem dense_apply (D : DotDims ⟨2, ![M, K]⟩ ⟨2, ![K, N]⟩ ⟨2, ![M, N]⟩) (hD : D = DotDims.plain M K N)
    (prec : Option ContractPrecision) (x : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (p : Fin M) (j : Fin N) :
    addf (FloatOps.matmul D prec x W (constant (F := Ideal) ⟨2, ![M, N]⟩ .f32 0x00000000#32))
        (broadcastTo ⟨2, ![M, N]⟩ b hb) (ix2 p j)
      = (∑ e : Fin K, x (ix2 p e) * W (ix2 e j)) + b (ix2 (0 : Fin 1) j) := by
  rw [addf_apply, matmul_plain_zero_apply D hD, broadcastTo_1b_ab_apply]

/-- The rectifier max(v, 0) followed by a narrowing of the float format, entry by entry. -/
theorem relu_narrow_apply {s : Shape} {ψ : FTy} (v : FVec Ideal s .f32) (h : ψ.bits < (FTy.f32).bits) (i : s.Idx) :
    (truncf ψ (maximumf v (broadcast s (Scalar.ofBits (F := Ideal) .f32 0x00000000#32))) h : FVec Ideal s ψ) i
      = max (v i) (Ideal.ofBits .f32 0x00000000#32) := rfl

end Cert.LibDenseRows

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.LibHostRowReduce.lean ====
/-
  Host reductions along the rows of a matrix, and the two transcendental maps, read at an entry over the
  extended reals.

  A host maximum over axis 1 of an `[a, b]` matrix is, at row `i`, the fold of `max` over the row's entries from the
  starting value; a host sum over the same axis is the starting value plus the sum over the row. Taking one more
  maximum of a fold's starting value with the fold changes nothing, since the fold is at least its start (what
  a softmax written with an explicit initial value of −∞ does). The exponential and the logarithm, a kernel's and
  the host's, act entry by entry.
-/
import proofs.«119564_j46969762349346_1_alg».proof.Proof.LibRowReduce
import Idealize.ShloMosaic.Lib.ValueIdx
import Idealize.ShloMosaic.PureOps.Ideal.Laws

noncomputable section

namespace Cert.HostRowReduce

open Idealize.ShloMosaic Idealize.ShloMosaic.ValueIdx
open scoped BigOperators

/-- Taking the maximum of the fold's starting value with the fold changes nothing: the fold is at least its start. -/
theorem max_start_fold {n : ℕ} (B : EReal) (f : Fin n → EReal) :
    max B ((Finset.univ : Finset (Fin n)).fold max B f) = (Finset.univ : Finset (Fin n)).fold max B f :=
  max_eq_right ((Finset.le_fold_max B).mpr (Or.inl le_rfl))

section Pointwise
variable {s : Shape} {φ : FTy}

/-- A kernel's exponential at an entry. -/
theorem exp_apply (v : FVec Ideal s φ) (i : s.Idx) : exp v i = Ideal.exp (v i) := rfl
/-- A kernel's logarithm at an entry. -/
theorem log_apply (v : FVec Ideal s φ) (i : s.Idx) : log v i = Ideal.log (v i) := rfl
/-- The host's exponential at an entry. -/
theorem hostExp_apply (v : FVec Ideal s φ) (i : s.Idx) : Host.exp v i = Ideal.exp (v i) := rfl
/-- The host's logarithm at an entry. -/
theorem hostLog_apply (v : FVec Ideal s φ) (i : s.Idx) : Host.log v i = Ideal.log (v i) := rfl

end Pointwise

/-! ## The host's reductions along the rows of a matrix -/

/-- A host maximum over the rows of an [a, b] matrix: the fold of max over the row from the starting value. -/
theorem hostReduce_maximumf_row {φ : FTy} {a b : ℕ} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  have e : (x ∘ h.lift (ix1 i)) = fun k => x (ix2 i k) := funext fun k => congrArg x (Cert.RowReduce.lift_row h i k)
  rw [Host.reduce_eq_fold_single (FloatOps.maximumf (F := Ideal) (φ := φ)) x init h' h hu, e]
  rfl

/-- A host sum over the rows of an [a, b] matrix: the starting value plus the sum over the row. -/
theorem hostReduceAdd_row {a b : ℕ} (x : (⟨2, ![a, b]⟩ : Shape).Idx → EReal) (init : EReal)
    (h' : (⟨2, ![a, b]⟩ : Shape).ReducesTo [1] ⟨1, ![a]⟩) (h : (⟨2, ![a, b]⟩ : Shape).Reduces [1] ⟨1, ![a]⟩) (i : Fin a) :
    Ideal.hostReduceAdd h' x init (ix1 i) = init + ∑ k : Fin b, x (ix2 i k) := by
  rw [Ideal.hostReduceAdd_single h' h]
  exact congrArg (init + ·) (Finset.sum_congr rfl fun k _ => congrArg x (Cert.RowReduce.lift_row h i k))

end Cert.HostRowReduce

end
-- ==== Proof.KernelLayers.lean ====
/-
  The stages of the network as a kernel spells them on a block of rows, each read at an entry as the plain function
  of indices of `Net.lean`.

  On a block of `n` rows a graph layer is: the product `adj · h` on the matrix unit into a zero accumulator, the two
  matrices `h` and `adj · h` joined along the columns, the product of the joined matrix with the weights into a zero
  accumulator, a one-row bias spread down the rows, and the maximum with a zero splat. Changes of float format
  between these steps are the identity on the extended reals. Read at `(p, q)` this is `Net.gconv` of the block's
  entries. The dense stage with the parametric rectifier and the log-softmax of each row of scores are read the same
  way; the kernel takes one more maximum of minus infinity with the row maximum before using it, which changes
  nothing because a fold of `max` is at least the value it starts from.
-/
import proofs.«119564_j46969762349346_1_alg».proof.Proof.Net
import proofs.«119564_j46969762349346_1_alg».proof.Proof.LibDenseRows
import proofs.«119564_j46969762349346_1_alg».proof.Proof.LibRowReduce
import proofs.«119564_j46969762349346_1_alg».proof.Proof.LibHostRowReduce
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelLayers

open Idealize.ShloMosaic Idealize.ShloMosaic.ValueIdx

variable {n d K f : ℕ}

/-- Two `[n, d]` matrices joined along the columns into `[n, K]`, read at `(p, k)`: the left one's entry `(p, k)` for
    `k < d`, the right one's entry `(p, k - d)` from there on. -/
theorem cat_apply (own gathered : (⟨2, ![n, d]⟩ : Shape).Idx → Net.R)
    (hc : Shape.Concatenates [(⟨2, ![n, d]⟩ : Shape), (⟨2, ![n, d]⟩ : Shape)] ⟨2, ![n, K]⟩ 1) (p : Fin n) (k : Fin K) :
    concatenate ⟨2, ![n, K]⟩ 1 [⟨⟨2, ![n, d]⟩, own⟩, ⟨⟨2, ![n, d]⟩, gathered⟩] hc (ix2 p k)
      = Net.catRow (fun e => own (ix2 p e)) (fun e => gathered (ix2 p e)) k := by
  have hKd : d + d = K := by
    have e := hc.2.2
    simpa using e
  unfold Net.catRow
  by_cases hk : k.val < d
  · rw [dif_pos hk]
    exact concatenate_pair_apply_left 1 own gathered hc (ix2 p k) rfl (ix2 p ⟨k.val, hk⟩)
      (fun b => by match b with | ⟨0, _⟩ => rfl | ⟨1, _⟩ => rfl)
  · have hk' : k.val - d < d := by have := k.isLt; omega
    rw [dif_neg hk, dif_pos hk']
    exact concatenate_pair_apply_right 1 own gathered hc (ix2 p k) rfl rfl (ix2 p ⟨k.val - d, hk'⟩)
      (fun b hb => by
        match b with
        | ⟨0, _⟩ => rfl
        | ⟨1, _⟩ => exact absurd rfl hb)
      (by show k.val - d + d = k.val; omega)

/-- THE JOINED MATRIX `[h | adj · h]` on a block of `n` rows, read at `(p, k)`, given what `adj` and `h` read as. -/
theorem joined_apply (adj : FVec Ideal ⟨2, ![n, n]⟩ .bf16) (h : FVec Ideal ⟨2, ![n, d]⟩ .f32)
    (Da : DotDims ⟨2, ![n, n]⟩ ⟨2, ![n, d]⟩ ⟨2, ![n, d]⟩) (hDa : Da = DotDims.plain n n d)
    (hc : Shape.Concatenates [(⟨2, ![n, d]⟩ : Shape), (⟨2, ![n, d]⟩ : Shape)] ⟨2, ![n, K]⟩ 1)
    (hlt : (FTy.bf16).bits < (FTy.f32).bits)
    (A : Fin n → Fin n → Net.R) (H : Fin n → Fin d → Net.R)
    (hA : ∀ p m, adj (ix2 p m) = A p m) (hH : ∀ p e, h (ix2 p e) = H p e) (p : Fin n) (k : Fin K) :
    (truncf .bf16 (concatenate ⟨2, ![n, K]⟩ 1 [⟨⟨2, ![n, d]⟩, h⟩,
        ⟨⟨2, ![n, d]⟩, FloatOps.matmul Da none adj (truncf .bf16 h hlt) (constant (F := Ideal) ⟨2, ![n, d]⟩ .f32 0x00000000#32)⟩] hc) hlt
      : FVec Ideal ⟨2, ![n, K]⟩ .bf16) (ix2 p k)
      = Net.joined A H p k := by
  have hagg : ∀ e : Fin d,
      FloatOps.matmul Da none adj (truncf .bf16 h hlt) (constant (F := Ideal) ⟨2, ![n, d]⟩ .f32 0x00000000#32) (ix2 p e) = Net.agg A H p e :=
    fun e => (Cert.LibDenseRows.matmul_plain_zero_apply Da hDa none adj (truncf .bf16 h hlt) p e).trans
      (Finset.sum_congr rfl fun m _ => congrArg₂ (· * ·) (hA p m) (hH m e))
  rw [truncf_apply]
  unfold Net.joined
  refine (cat_apply h _ hc p k).trans ?_
  exact congrArg₂ (fun o g => Net.catRow o g k) (funext fun e => hH p e) (funext hagg)

/-- A DENSE STEP WITH THE RECTIFIER on a block of `n` rows, read at `(p, q)`, given what the left factor reads as:
    the product into a zero accumulator, the one-row bias spread down the rows, the maximum with a zero splat. -/
theorem reluDense_apply (x : FVec Ideal ⟨2, ![n, K]⟩ .bf16) (W : FVec Ideal ⟨2, ![K, f]⟩ .f32)
    (b : FVec Ideal ⟨2, ![1, f]⟩ .f32)
    (Dw : DotDims ⟨2, ![n, K]⟩ ⟨2, ![K, f]⟩ ⟨2, ![n, f]⟩) (hDw : Dw = DotDims.plain n K f)
    (hs : (⟨2, ![1, f]⟩ : Shape).ShapeCasts ⟨2, ![1, f]⟩) (hb : (⟨2, ![1, f]⟩ : Shape).Broadcasts ⟨2, ![n, f]⟩)
    (hlt : (FTy.bf16).bits < (FTy.f32).bits)
    (X : Fin n → Fin K → Net.R) (hX : ∀ p k, x (ix2 p k) = X p k) (p : Fin n) (q : Fin f) :
    maximumf
        (addf (FloatOps.matmul Dw none x (truncf .bf16 W hlt) (constant (F := Ideal) ⟨2, ![n, f]⟩ .f32 0x00000000#32))
          (broadcastTo ⟨2, ![n, f]⟩ (shapeCast ⟨2, ![1, f]⟩ b hs) hb))
        (broadcast ⟨2, ![n, f]⟩ (Scalar.ofBits (F := Ideal) .f32 0x00000000#32)) (ix2 p q)
      = Net.reluDense X (fun k q => W (ix2 k q)) (fun q => b (ix2 (0 : Fin 1) q)) p q := by
  rw [maximumf_apply, broadcast_apply, shapeCast_self]
  unfold Net.reluDense
  refine congrArg₂ max ?_ rfl
  refine (Cert.LibDenseRows.dense_apply Dw hDw none x (truncf .bf16 W hlt) b hb p q).trans ?_
  refine congrArg (· + b (ix2 (0 : Fin 1) q)) (Finset.sum_congr rfl fun k _ => ?_)
  exact congrArg (· * W (ix2 k q)) (hX p k)

/-- ONE GRAPH LAYER on a block of `n` rows, read at `(p, q)`, given what `adj` and `h` read as. -/
theorem gconv_apply (adj : FVec Ideal ⟨2, ![n, n]⟩ .bf16) (h : FVec Ideal ⟨2, ![n, d]⟩ .f32)
    (W : FVec Ideal ⟨2, ![K, f]⟩ .f32) (b : FVec Ideal ⟨2, ![1, f]⟩ .f32)
    (Da : DotDims ⟨2, ![n, n]⟩ ⟨2, ![n, d]⟩ ⟨2, ![n, d]⟩) (hDa : Da = DotDims.plain n n d)
    (Dw : DotDims ⟨2, ![n, K]⟩ ⟨2, ![K, f]⟩ ⟨2, ![n, f]⟩) (hDw : Dw = DotDims.plain n K f)
    (hc : Shape.Concatenates [(⟨2, ![n, d]⟩ : Shape), (⟨2, ![n, d]⟩ : Shape)] ⟨2, ![n, K]⟩ 1)
    (hs : (⟨2, ![1, f]⟩ : Shape).ShapeCasts ⟨2, ![1, f]⟩) (hb : (⟨2, ![1, f]⟩ : Shape).Broadcasts ⟨2, ![n, f]⟩)
    (hlt : (FTy.bf16).bits < (FTy.f32).bits)
    (A : Fin n → Fin n → Net.R) (H : Fin n → Fin d → Net.R)
    (hA : ∀ p m, adj (ix2 p m) = A p m) (hH : ∀ p e, h (ix2 p e) = H p e) (p : Fin n) (q : Fin f) :
    maximumf
        (addf
          (FloatOps.matmul Dw none
            (truncf .bf16 (concatenate ⟨2, ![n, K]⟩ 1 [⟨⟨2, ![n, d]⟩, h⟩,
              ⟨⟨2, ![n, d]⟩, FloatOps.matmul Da none adj (truncf .bf16 h hlt) (constant (F := Ideal) ⟨2, ![n, d]⟩ .f32 0x00000000#32)⟩] hc) hlt)
            (truncf .bf16 W hlt) (constant (F := Ideal) ⟨2, ![n, f]⟩ .f32 0x00000000#32))
          (broadcastTo ⟨2, ![n, f]⟩ (shapeCast ⟨2, ![1, f]⟩ b hs) hb))
        (broadcast ⟨2, ![n, f]⟩ (Scalar.ofBits (F := Ideal) .f32 0x00000000#32)) (ix2 p q)
      = Net.gconv A H (fun k q => W (ix2 k q)) (fun q => b (ix2 (0 : Fin 1) q)) p q :=
  reluDense_apply _ W b Dw hDw hs hb hlt (Net.joined A H)
    (fun p k => joined_apply adj h Da hDa hc hlt A H hA hH p k) p q

/-- A DENSE LAYER on a block of `n` rows, read at `(p, q)`, given what the left factor reads as. -/
theorem dense_apply (x : FVec Ideal ⟨2, ![n, K]⟩ .bf16) (W : FVec Ideal ⟨2, ![K, f]⟩ .f32)
    (b : FVec Ideal ⟨2, ![1, f]⟩ .f32)
    (Dw : DotDims ⟨2, ![n, K]⟩ ⟨2, ![K, f]⟩ ⟨2, ![n, f]⟩) (hDw : Dw = DotDims.plain n K f)
    (hs : (⟨2, ![1, f]⟩ : Shape).ShapeCasts ⟨2, ![1, f]⟩) (hb : (⟨2, ![1, f]⟩ : Shape).Broadcasts ⟨2, ![n, f]⟩)
    (hlt : (FTy.bf16).bits < (FTy.f32).bits)
    (X : Fin n → Fin K → Net.R) (hX : ∀ p k, x (ix2 p k) = X p k) (p : Fin n) (q : Fin f) :
    addf (FloatOps.matmul Dw none x (truncf .bf16 W hlt) (constant (F := Ideal) ⟨2, ![n, f]⟩ .f32 0x00000000#32))
        (broadcastTo ⟨2, ![n, f]⟩ (shapeCast ⟨2, ![1, f]⟩ b hs) hb) (ix2 p q)
      = Net.dense X (fun k q => W (ix2 k q)) (fun q => b (ix2 (0 : Fin 1) q)) p q := by
  rw [shapeCast_self]
  unfold Net.dense
  refine (Cert.LibDenseRows.dense_apply Dw hDw none x (truncf .bf16 W hlt) b hb p q).trans ?_
  refine congrArg (· + b (ix2 (0 : Fin 1) q)) (Finset.sum_congr rfl fun k _ => ?_)
  exact congrArg (· * W (ix2 k q)) (hX p k)

/-- THE DENSE STAGE WITH THE PARAMETRIC RECTIFIER on a block of `n` rows, read at `(p, q)`, given what the left factor
    reads as: the slopes are a one-row matrix spread down the rows, the comparison is against a zero splat. -/
theorem dense_prelu_apply (x : FVec Ideal ⟨2, ![n, K]⟩ .bf16) (W : FVec Ideal ⟨2, ![K, f]⟩ .f32)
    (b α : FVec Ideal ⟨2, ![1, f]⟩ .f32)
    (Dw : DotDims ⟨2, ![n, K]⟩ ⟨2, ![K, f]⟩ ⟨2, ![n, f]⟩) (hDw : Dw = DotDims.plain n K f)
    (hs : (⟨2, ![1, f]⟩ : Shape).ShapeCasts ⟨2, ![1, f]⟩) (hb : (⟨2, ![1, f]⟩ : Shape).Broadcasts ⟨2, ![n, f]⟩)
    (hlt : (FTy.bf16).bits < (FTy.f32).bits)
    (X : Fin n → Fin K → Net.R) (hX : ∀ p k, x (ix2 p k) = X p k) (p : Fin n) (q : Fin f) :
    select
        (cmpf .ogt
          (addf (FloatOps.matmul Dw none x (truncf .bf16 W hlt) (constant (F := Ideal) ⟨2, ![n, f]⟩ .f32 0x00000000#32))
            (broadcastTo ⟨2, ![n, f]⟩ (shapeCast ⟨2, ![1, f]⟩ b hs) hb))
          (broadcast ⟨2, ![n, f]⟩ (Scalar.ofBits (F := Ideal) .f32 0x00000000#32)))
        (addf (FloatOps.matmul Dw none x (truncf .bf16 W hlt) (constant (F := Ideal) ⟨2, ![n, f]⟩ .f32 0x00000000#32))
          (broadcastTo ⟨2, ![n, f]⟩ (shapeCast ⟨2, ![1, f]⟩ b hs) hb))
        (mulf (broadcastTo ⟨2, ![n, f]⟩ (shapeCast ⟨2, ![1, f]⟩ (shapeCast ⟨2, ![1, f]⟩ α hs) hs) hb)
          (addf (FloatOps.matmul Dw none x (truncf .bf16 W hlt) (constant (F := Ideal) ⟨2, ![n, f]⟩ .f32 0x00000000#32))
            (broadcastTo ⟨2, ![n, f]⟩ (shapeCast ⟨2, ![1, f]⟩ b hs) hb))) (ix2 p q)
      = Net.prelu (fun q => α (ix2 (0 : Fin 1) q))
          (Net.dense X (fun k q => W (ix2 k q)) (fun q => b (ix2 (0 : Fin 1) q))) p q := by
  have hd := dense_apply x W b Dw hDw hs hb hlt X hX p q
  have hα : broadcastTo ⟨2, ![n, f]⟩ (shapeCast ⟨2, ![1, f]⟩ (shapeCast ⟨2, ![1, f]⟩ α hs) hs) hb (ix2 p q)
      = α (ix2 (0 : Fin 1) q) := by
    rw [shapeCast_self, shapeCast_self]
    exact broadcastTo_1b_ab_apply α hb p q
  rw [select_apply, cmpf_apply, mulf_apply, broadcast_apply, hd, hα]
  rfl

/-- THE LOG-SOFTMAX OF EVERY ROW of an `[a, b]` block of scores, as the kernel spells it, read at `(p, q)`. -/
theorem logSoftmax_apply {a b : ℕ} (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmx : (0xFF800000#32 : BitVec (FTy.f32).bits) = FKind.maximumf.neutral .f32 hφ)
    (had : (0x00000000#32 : BitVec (FTy.f32).bits) = FKind.add.neutral .f32 hφ) (p : Fin a) (q : Fin b) :
    subf
        (subf x (broadcastTo ⟨2, ![a, b]⟩ (shapeCast ⟨2, ![a, 1]⟩
          (maximumf (broadcast ⟨1, ![a]⟩ (Scalar.ofBits (F := Ideal) .f32 0xFF800000#32))
            (multiReduction .maximumf [1] ⟨1, ![a]⟩ x 0xFF800000#32 hr hφ hmx)) hc) hb))
        (broadcastTo ⟨2, ![a, b]⟩ (log (shapeCast ⟨2, ![a, 1]⟩ (multiReduction .add [1] ⟨1, ![a]⟩
          (exp (subf x (broadcastTo ⟨2, ![a, b]⟩ (shapeCast ⟨2, ![a, 1]⟩
            (maximumf (broadcast ⟨1, ![a]⟩ (Scalar.ofBits (F := Ideal) .f32 0xFF800000#32))
              (multiReduction .maximumf [1] ⟨1, ![a]⟩ x 0xFF800000#32 hr hφ hmx)) hc) hb)))
          0x00000000#32 hr hφ had) hc)) hb) (ix2 p q)
      = Net.logSoftmaxRow (fun k => x (ix2 p k)) q := by
  have hmax : ∀ p' : Fin a,
      maximumf (broadcast ⟨1, ![a]⟩ (Scalar.ofBits (F := Ideal) .f32 0xFF800000#32))
          (multiReduction .maximumf [1] ⟨1, ![a]⟩ x 0xFF800000#32 hr hφ hmx) (ix1 p')
        = Net.rowMax (fun k => x (ix2 p' k)) := fun p' => by
    rw [maximumf_apply, broadcast_apply, Cert.RowReduce.multiReduction_maximumf_row x 0xFF800000#32 hr hφ hmx p']
    exact Cert.HostRowReduce.max_start_fold _ _
  have hsh : ∀ (p' : Fin a) (k : Fin b),
      subf x (broadcastTo ⟨2, ![a, b]⟩ (shapeCast ⟨2, ![a, 1]⟩
          (maximumf (broadcast ⟨1, ![a]⟩ (Scalar.ofBits (F := Ideal) .f32 0xFF800000#32))
            (multiReduction .maximumf [1] ⟨1, ![a]⟩ x 0xFF800000#32 hr hφ hmx)) hc) hb) (ix2 p' k)
        = x (ix2 p' k) - Net.rowMax (fun k => x (ix2 p' k)) := fun p' k =>
    congrArg (x (ix2 p' k) - ·) ((Cert.RowReduce.broadcastTo_column_apply _ hc hb p' k).trans (hmax p'))
  have hsum : multiReduction .add [1] ⟨1, ![a]⟩
        (exp (subf x (broadcastTo ⟨2, ![a, b]⟩ (shapeCast ⟨2, ![a, 1]⟩
          (maximumf (broadcast ⟨1, ![a]⟩ (Scalar.ofBits (F := Ideal) .f32 0xFF800000#32))
            (multiReduction .maximumf [1] ⟨1, ![a]⟩ x 0xFF800000#32 hr hφ hmx)) hc) hb)))
        0x00000000#32 hr hφ had (ix1 p)
      = ∑ k : Fin b, Ideal.exp (x (ix2 p k) - Net.rowMax (fun k => x (ix2 p k))) :=
    (Cert.RowReduce.multiReduction_add_row _ 0x00000000#32 hr hφ had p).trans
      (Finset.sum_congr rfl fun k _ => (Cert.HostRowReduce.exp_apply _ _).trans (congrArg Ideal.exp (hsh p k)))
  have hlog : broadcastTo ⟨2, ![a, b]⟩ (log (shapeCast ⟨2, ![a, 1]⟩ (multiReduction .add [1] ⟨1, ![a]⟩
          (exp (subf x (broadcastTo ⟨2, ![a, b]⟩ (shapeCast ⟨2, ![a, 1]⟩
            (maximumf (broadcast ⟨1, ![a]⟩ (Scalar.ofBits (F := Ideal) .f32 0xFF800000#32))
              (multiReduction .maximumf [1] ⟨1, ![a]⟩ x 0xFF800000#32 hr hφ hmx)) hc) hb)))
          0x00000000#32 hr hφ had) hc)) hb (ix2 p q)
      = Ideal.log (∑ k : Fin b, Ideal.exp (x (ix2 p k) - Net.rowMax (fun k => x (ix2 p k)))) :=
    (Cert.RowReduce.broadcastTo_a1_ab_apply _ hb p q).trans
      ((Cert.HostRowReduce.log_apply _ _).trans
        (congrArg Ideal.log ((Cert.RowReduce.shapeCast_a_a1_apply _ hc p 0).trans hsum)))
  show _ - _ = _
  unfold Net.logSoftmaxRow
  exact congrArg₂ (· - ·) (hsh p q) hlog

end Cert.KernelLayers

end
-- ==== Proof.LibMergeRows.lean ====
/-
  The leading two axes of a rank-3 array merged into one, and split again, read at an index.

  An `[n, a, b]` array and an `[n·a, b]` matrix hold the same elements in row-major order: row `p·a + i` of the
  matrix is the slab entry `(p, i, ·)`.  Both directions of the cast are stated with the merged row number `P` given
  as a variable together with the equation `P = p·a + i`, so that a caller can supply whatever spelling of the row
  number its own arithmetic produces.
-/
import Idealize.ShloMosaic.Lib.Pipeline.Value
import Idealize.ShloMosaic.Lib.ValueIdx

noncomputable section

namespace Cert.MergeRows

open Idealize.ShloMosaic Idealize.ShloMosaic.ValueIdx

variable {α : Type}

/-- `[n, a, b]` cast to `[N, b]`: entry `(P, j)` with `P = p·a + i` is the operand's entry `(p, i, j)`. -/
theorem shapeCast_merge_apply {n a b N : ℕ} (x : (⟨3, ![n, a, b]⟩ : Shape).Idx → α)
    (h : (⟨3, ![n, a, b]⟩ : Shape).ShapeCasts ⟨2, ![N, b]⟩) (p : Fin n) (i : Fin a) (j : Fin b) (P : Fin N)
    (hP : P.val = p.val * a + i.val) : shapeCast ⟨2, ![N, b]⟩ x h (ix2 P j) = x (ix3 p i j) :=
  shapeCast_apply x h _ _ (by
    rw [Shape.rowMajor_val_three, Shape.rowMajor_val_two]
    show (p.val * a + i.val) * b + j.val = P.val * b + j.val
    rw [hP])

/-- `[N, b]` cast to `[n, a, b]`: entry `(p, i, j)` is the operand's entry `(P, j)` with `P = p·a + i`. -/
theorem shapeCast_split_apply {n a b N : ℕ} (x : (⟨2, ![N, b]⟩ : Shape).Idx → α)
    (h : (⟨2, ![N, b]⟩ : Shape).ShapeCasts ⟨3, ![n, a, b]⟩) (p : Fin n) (i : Fin a) (j : Fin b) (P : Fin N)
    (hP : P.val = p.val * a + i.val) : shapeCast ⟨3, ![n, a, b]⟩ x h (ix3 p i j) = x (ix2 P j) :=
  shapeCast_apply x h _ _ (by
    rw [Shape.rowMajor_val_two, Shape.rowMajor_val_three]
    show P.val * b + j.val = (p.val * a + i.val) * b + j.val
    rw [hP])

end Cert.MergeRows

end
-- ==== Proof.KernelBlock.lean ====
/-
  What one grid point of the kernel leaves in its output block, read at an entry: the network of `Net.lean` applied
  to the point's input blocks.

  At a grid point the kernel holds one graph: a `[1, 1024, 256]` block of node features, a `[1, 1024, 1024]` block of
  the adjacency matrix, and the weights whole. Its body views the two blocks as matrices (entry `(p, e)` of the
  matrix is entry `(0, p, e)` of the block), runs the four graph layers, the dense stage with the parametric
  rectifier, the dense stage onto the two classes and the log-softmax of every row, and stores the `[1024, 2]` result
  viewed as `[1, 1024, 2]`. The body's arithmetic comes in four pieces — the adjacency matrix; the first two graph
  layers and the joined matrix of the third; the rest up to the rectifier; the class scores and their log-softmax —
  and each is read here over plain vectors before they are composed.
-/
import proofs.«119564_j46969762349346_1_alg».proof.Proof.Gen.KernelIdeal.Frame
import proofs.«119564_j46969762349346_1_alg».proof.Proof.KernelLayers
import proofs.«119564_j46969762349346_1_alg».proof.Proof.LibMergeRows

noncomputable section

open scoped BigOperators

namespace Cert.KernelBlock

open Idealize.ShloMosaic Idealize.ShloMosaic.ValueIdx Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The adjacency block viewed as a matrix: entry `(p, m)` is the block's entry `(0, p, m)`. -/
theorem pay2_apply (v2 : Vec Ideal S1x1024x1024 .f32) (p m : Fin 1024) :
    k0_pay2 (F := Ideal) v2 (ix2 p m) = v2 (ix3 (0 : Fin 1) p m) := by
  unfold k0_pay2
  rw [truncf_apply]
  exact Cert.MergeRows.shapeCast_merge_apply (n := 1) (a := 1024) (b := 1024) (N := 1024) v2 _ 0 p m p (by simp)

/-- The first two graph layers and the joined matrix of the third. -/
theorem pay3_apply (v0 : Vec Ideal S1x1024x256 .f32) (v2 : Vec Ideal S1x1024x1024 .f32) (v9 : Vec Ideal S512x512 .f32)
    (v12 : Vec Ideal S1x512 .f32) (v22 : Vec Ideal S1024x512 .f32) (v25 : Vec Ideal S1x512 .f32) (p k : Fin 1024) :
    k0_pay3 (F := Ideal) v0 v2 v9 v12 v22 v25 (ix2 p k)
      = Net.joined (fun p m => v2 (ix3 (0 : Fin 1) p m))
          (Net.gconv (fun p m => v2 (ix3 (0 : Fin 1) p m))
            (Net.gconv (fun p m => v2 (ix3 (0 : Fin 1) p m)) (fun p e => v0 (ix3 (0 : Fin 1) p e))
              (fun k q => v9 (ix2 k q)) (fun q => v12 (ix2 (0 : Fin 1) q)))
            (fun k q => v22 (ix2 k q)) (fun q => v25 (ix2 (0 : Fin 1) q))) p k := by
  unfold k0_pay3
  refine Cert.KernelLayers.joined_apply _ _ _ rfl _ _ _ _ (fun p m => pay2_apply v2 p m) (fun p e => ?_) p k
  refine Cert.KernelLayers.gconv_apply _ _ _ _ _ rfl _ rfl _ _ _ _ _ _ (fun p m => pay2_apply v2 p m) (fun p e => ?_) p e
  refine Cert.KernelLayers.gconv_apply _ _ _ _ _ rfl _ rfl _ _ _ _ _ _ (fun p m => pay2_apply v2 p m) (fun p e => ?_) p e
  exact Cert.MergeRows.shapeCast_merge_apply (n := 1) (a := 1024) (b := 256) (N := 1024) v0 _ 0 p e p (by simp)

/-- From the joined matrix of the third graph layer to the hidden rows after the parametric rectifier. -/
theorem pay4_apply (v4 v34 : FVec Ideal S1024x1024 .bf16) (v35 : Vec Ideal S1024x256 .f32) (v38 : Vec Ideal S1x256 .f32)
    (v48 : Vec Ideal S512x256 .f32) (v51 : Vec Ideal S1x256 .f32) (v58 : Vec Ideal S256x256 .f32)
    (v61 v65 : Vec Ideal S1x256 .f32) (p : Fin 1024) (q : Fin 256) :
    k0_pay4 (F := Ideal) v4 v34 v35 v38 v48 v51 v58 v61 v65 (ix2 p q)
      = Net.prelu (fun q => v65 (ix2 (0 : Fin 1) q))
          (Net.dense
            (Net.gconv (fun p m => v4 (ix2 p m))
              (Net.reluDense (fun p k => v34 (ix2 p k)) (fun k q => v35 (ix2 k q)) (fun q => v38 (ix2 (0 : Fin 1) q)))
              (fun k q => v48 (ix2 k q)) (fun q => v51 (ix2 (0 : Fin 1) q)))
            (fun k q => v58 (ix2 k q)) (fun q => v61 (ix2 (0 : Fin 1) q))) p q := by
  unfold k0_pay4
  rw [truncf_apply]
  refine Cert.KernelLayers.dense_prelu_apply _ _ _ _ _ rfl _ _ _ _ (fun p k => ?_) p q
  rw [truncf_apply]
  refine Cert.KernelLayers.gconv_apply _ _ _ _ _ rfl _ rfl _ _ _ _ _ _ (fun _ _ => rfl) (fun p e => ?_) p k
  exact Cert.KernelLayers.reluDense_apply _ _ _ _ rfl _ _ _ _ (fun _ _ => rfl) p e

/-- The class scores of the hidden rows and their log-softmax, stored as a `[1, 1024, 2]` block. -/
theorem pay1_apply (v73 : FVec Ideal S1024x256 .bf16) (v74 : Vec Ideal S256x2 .f32) (v77 : Vec Ideal S1x2 .f32)
    (p : Fin 1024) (q : Fin 2) :
    k0_pay1 (F := Ideal) v73 v74 v77 (ix3 (0 : Fin 1) p q)
      = Net.logSoftmaxRow (Net.dense (fun p k => v73 (ix2 p k)) (fun k q => v74 (ix2 k q))
          (fun q => v77 (ix2 (0 : Fin 1) q)) p) q := by
  unfold k0_pay1
  refine (Cert.MergeRows.shapeCast_split_apply (n := 1) (a := 1024) (b := 2) (N := 1024) _ _ 0 p q p (by simp)).trans ?_
  refine (Cert.KernelLayers.logSoftmax_apply _ _ _ _ _ _ _ p q).trans ?_
  refine congrArg (fun r => Net.logSoftmaxRow r q) (funext fun c => ?_)
  exact Cert.KernelLayers.dense_apply _ _ _ _ rfl _ _ _ _ (fun _ _ => rfl) p c

/-- WHAT THE BODY LEAVES IN THE OUTPUT BLOCK, at `(0, p, q)`: the network applied to the point's input blocks — the
    node features' block and the adjacency block each read as the matrix of their one slab, the weights as they are,
    each bias and the slopes as the one row they are kept in. -/
theorem out_apply (x0 : Vec Ideal S1x1024x256 .f32) (x1 : Vec Ideal S1x1024x1024 .f32) (x2 : Vec Ideal S512x512 .f32) (x3 : Vec Ideal S1x512 .f32) (x4 : Vec Ideal S1024x512 .f32) (x5 : Vec Ideal S1x512 .f32) (x6 : Vec Ideal S1024x256 .f32) (x7 : Vec Ideal S1x256 .f32) (x8 : Vec Ideal S512x256 .f32) (x9 : Vec Ideal S1x256 .f32) (x10 : Vec Ideal S256x256 .f32) (x11 : Vec Ideal S1x256 .f32) (x12 : Vec Ideal S1x256 .f32) (x13 : Vec Ideal S256x2 .f32) (x14 : Vec Ideal S1x2 .f32) (p : Fin 1024) (q : Fin 2) :
    out0_15 (F := Ideal) x0 x1 x2 x3 x4 x5 x6 x7 x8 x9 x10 x11 x12 x13 x14 (ix3 (0 : Fin 1) p q)
      = Net.net (fun p e => x0 (ix3 (0 : Fin 1) p e)) (fun p m => x1 (ix3 (0 : Fin 1) p m)) (fun k q => x2 (ix2 k q)) (fun q => x3 (ix2 (0 : Fin 1) q))
          (fun k q => x4 (ix2 k q)) (fun q => x5 (ix2 (0 : Fin 1) q)) (fun k q => x6 (ix2 k q)) (fun q => x7 (ix2 (0 : Fin 1) q))
          (fun k q => x8 (ix2 k q)) (fun q => x9 (ix2 (0 : Fin 1) q)) (fun k q => x10 (ix2 k q)) (fun q => x11 (ix2 (0 : Fin 1) q))
          (fun q => x12 (ix2 (0 : Fin 1) q)) (fun k q => x13 (ix2 k q)) (fun q => x14 (ix2 (0 : Fin 1) q)) p q := by
  unfold out0_15
  rw [View.canon_unit_zero hz3]
  simp only [View.ld_unit_zero (S := S1x1024x256) hz3,
    View.ld_unit_zero (S := S1x1024x1024) hz3,
    View.ld_unit_zero (S := S512x512) hz2,
    View.ld_unit_zero (S := S1x512) hz2,
    View.ld_unit_zero (S := S1024x512) hz2,
    View.ld_unit_zero (S := S1024x256) hz2,
    View.ld_unit_zero (S := S1x256) hz2,
    View.ld_unit_zero (S := S512x256) hz2,
    View.ld_unit_zero (S := S256x256) hz2,
    View.ld_unit_zero (S := S256x2) hz2,
    View.ld_unit_zero (S := S1x2) hz2]
  rw [pay1_apply]
  unfold Net.net Net.hidden
  refine congrArg (fun r => Net.logSoftmaxRow r q) ?_
  refine congrArg (fun v => Net.dense v (fun k q => x13 (ix2 k q)) (fun q => x14 (ix2 (0 : Fin 1) q)) p)
    (funext fun p' => funext fun k => ?_)
  rw [pay4_apply]
  have hA : (fun (p m : Fin 1024) => k0_pay2 (F := Ideal) x1 (ix2 p m)) = fun p m => x1 (ix3 (0 : Fin 1) p m) :=
    funext fun p => funext fun m => pay2_apply x1 p m
  have hJ : (fun (p k : Fin 1024) => k0_pay3 (F := Ideal) x0 x1 x2 x3 x4 x5 (ix2 p k))
      = Net.joined (fun p m => x1 (ix3 (0 : Fin 1) p m))
          (Net.gconv (fun p m => x1 (ix3 (0 : Fin 1) p m))
            (Net.gconv (fun p m => x1 (ix3 (0 : Fin 1) p m)) (fun p e => x0 (ix3 (0 : Fin 1) p e))
              (fun k q => x2 (ix2 k q)) (fun q => x3 (ix2 (0 : Fin 1) q)))
            (fun k q => x4 (ix2 k q)) (fun q => x5 (ix2 (0 : Fin 1) q))) :=
    funext fun p => funext fun k => pay3_apply x0 x1 x2 x3 x4 x5 p k
  rw [hA, hJ]
  rfl

end Cert.KernelBlock

end
-- ==== Proof.LibRunBoth.lean ====
/-
  Two observations of one program, loaded onto one starting memory, hold together.

  An observation says: every weakly fair execution from the loaded state is finite, never stuck, and ends in a
  final state whose memory satisfies a condition. Given two such observations of the same program from the same
  starting memory, every final state reached satisfies both conditions; being never stuck and having no fair
  infinite execution do not depend on the condition at all. So the two conditions may be asserted of one run.
-/
import Idealize.ShloMosaic.Machine.Run

namespace Cert.RunBoth

open Idealize.ShloMosaic Idealize.SL.Sem

variable {nD : Nat} {τ : Topo} {sig : RefSig} {Val : EltTy → Type} {Λ : Labels}

/-- Two observations of one running state hold together. -/
theorem meshRun_and {defs : Defs nD τ sig Val Λ} {Q Q' : MemSt nD τ sig Val → Prop} {s : RunSt nD τ sig Val Λ}
    (h : MeshRun defs Q s) (h' : MeshRun defs Q' s) : MeshRun defs (fun m => Q m ∧ Q' m) s :=
  ⟨fun t ht hf => ⟨h.post t ht hf, h'.post t ht hf⟩, h.progress, h.fair⟩

/-- Two observations of one program from one starting memory hold together. -/
theorem θ_run_and (defs : Defs nD τ sig Val Λ) (p : (c : Thread nD τ) → Prog (TpuEff nD τ sig Val Λ c.2) PUnit)
    (s : MemSt nD τ sig Val) (Q Q' : PUnit × MemSt nD τ sig Val → Prop)
    (h : θ_run defs p s Q) (h' : θ_run defs p s Q') : θ_run defs p s (fun r => Q r ∧ Q' r) :=
  meshRun_and (defs := defs) (Q := fun m' => Q (⟨⟩, m')) (Q' := fun m' => Q' (⟨⟩, m')) h h'

end Cert.RunBoth
-- ==== Proof.KernelValue.lean ====
/-
  The kernel's result array after its run, as one function of the arrays the region finds.

  The grid has 64 points, one per graph. At point `t` the windows of the node features and of the adjacency matrices
  hold slab `t` of their arrays, every other input window holds its whole array, and the body leaves in the output
  window the network of `Net.lean` applied to that graph (`KernelBlock.lean`). Point `t` flushes its block to slab `t`
  of the `[64, 1024, 2]` output array; the 64 slabs cover the array, so after the region entry `(bt, p, q)` holds the
  network applied to graph `bt`. The one host operation after the region views that array as `[65536, 2]`: row
  `bt * 1024 + p` is node `p` of graph `bt`. The arguments end unchanged, by the frame; that both hold of one run is
  `LibRunBoth.lean`.
-/
import proofs.«119564_j46969762349346_1_alg».proof.Proof.Gen.KernelIdeal.Frame
import proofs.«119564_j46969762349346_1_alg».proof.Proof.KernelBlock
import proofs.«119564_j46969762349346_1_alg».proof.Proof.LibMergeRows
import proofs.«119564_j46969762349346_1_alg».proof.Proof.LibRunBoth
import Idealize.ShloMosaic.Lib.Pipeline.Value
import Idealize.ShloMosaic.Lib.StableHlo.Run

set_option maxRecDepth 16384

noncomputable section

open scoped BigOperators

namespace Cert.KernelValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-! ## The network applied to one graph of the arrays -/

/-- The network applied to graph `bt`: slab `bt` of the node features and of the adjacency matrices, the weights whole,
    each bias and the slopes read from the one row they are kept in. -/
def gAt (a0 : S64x1024x256.Idx → Net.R) (a1 : S64x1024x1024.Idx → Net.R) (a2 : S512x512.Idx → Net.R) (a3 : S1x512.Idx → Net.R) (a4 : S1024x512.Idx → Net.R) (a5 : S1x512.Idx → Net.R) (a6 : S1024x256.Idx → Net.R) (a7 : S1x256.Idx → Net.R) (a8 : S512x256.Idx → Net.R) (a9 : S1x256.Idx → Net.R) (a10 : S256x256.Idx → Net.R) (a11 : S1x256.Idx → Net.R) (a12 : S1x256.Idx → Net.R) (a13 : S256x2.Idx → Net.R) (a14 : S1x2.Idx → Net.R)
    (bt : Fin 64) (p : Fin 1024) (q : Fin 2) : Net.R :=
  Net.net (fun p e => a0 (ix3 bt p e)) (fun p m => a1 (ix3 bt p m)) (fun k q => a2 (ix2 k q)) (fun q => a3 (ix2 (0 : Fin 1) q))
    (fun k q => a4 (ix2 k q)) (fun q => a5 (ix2 (0 : Fin 1) q)) (fun k q => a6 (ix2 k q)) (fun q => a7 (ix2 (0 : Fin 1) q))
    (fun k q => a8 (ix2 k q)) (fun q => a9 (ix2 (0 : Fin 1) q)) (fun k q => a10 (ix2 k q)) (fun q => a11 (ix2 (0 : Fin 1) q))
    (fun q => a12 (ix2 (0 : Fin 1) q)) (fun k q => a13 (ix2 k q)) (fun q => a14 (ix2 (0 : Fin 1) q)) p q

/-- The `[64, 1024, 2]` array whose entry `(bt, p, q)` is the network applied to graph `bt`, at node `p` and class `q`. -/
def G (a0 : S64x1024x256.Idx → Net.R) (a1 : S64x1024x1024.Idx → Net.R) (a2 : S512x512.Idx → Net.R) (a3 : S1x512.Idx → Net.R) (a4 : S1024x512.Idx → Net.R) (a5 : S1x512.Idx → Net.R) (a6 : S1024x256.Idx → Net.R) (a7 : S1x256.Idx → Net.R) (a8 : S512x256.Idx → Net.R) (a9 : S1x256.Idx → Net.R) (a10 : S256x256.Idx → Net.R) (a11 : S1x256.Idx → Net.R) (a12 : S1x256.Idx → Net.R) (a13 : S256x2.Idx → Net.R) (a14 : S1x2.Idx → Net.R) : S64x1024x2.Idx → Net.R :=
  fun i => gAt a0 a1 a2 a3 a4 a5 a6 a7 a8 a9 a10 a11 a12 a13 a14 ⟨(i 0).val, (i 0).isLt⟩ ⟨(i 1).val, (i 1).isLt⟩ ⟨(i 2).val, (i 2).isLt⟩

/-- That array, of the arrays as the region finds them on core `c`. -/
abbrev Garr (c : Dev nD) : S64x1024x2.Idx → Net.R :=
  G (V m c main_arg0) (V m c main_arg1) (V m c main_arg2) (V m c main_v0) (V m c main_arg4) (V m c main_v1) (V m c main_arg6) (V m c main_v2) (V m c main_arg8) (V m c main_v3) (V m c main_arg10) (V m c main_v4) (V m c main_v6) (V m c main_arg13) (V m c main_v5)

/-! ## The grid and the windows' index maps -/

/-- A grid point as a graph number. -/
def T (t : Fin cfg0.N) : Fin 64 := ⟨t.val, by have h := t.isLt; have e : cfg0.N = 64 := N_0; omega⟩

/-- The output window's block index at point `t` is `(t, 0, 0)`. -/
theorem idx_out : ∀ t : Fin cfg0.N,
    win0_15.index t (0 : Fin 3) = t.val ∧ win0_15.index t (1 : Fin 3) = 0 ∧ win0_15.index t (2 : Fin 3) = 0 :=
  (by decide +kernel : ∀ t : Fin grid0.N, _)

theorem idx_in0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_in1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_in2 : ∀ t : Fin cfg0.N, win0_2.index t (0 : Fin 2) = 0 ∧ win0_2.index t (1 : Fin 2) = 0 :=
  (by decide +kernel : ∀ t : Fin grid0.N, _)
theorem idx_in3 : ∀ t : Fin cfg0.N, win0_3.index t (0 : Fin 2) = 0 ∧ win0_3.index t (1 : Fin 2) = 0 :=
  (by decide +kernel : ∀ t : Fin grid0.N, _)
theorem idx_in4 : ∀ t : Fin cfg0.N, win0_4.index t (0 : Fin 2) = 0 ∧ win0_4.index t (1 : Fin 2) = 0 :=
  (by decide +kernel : ∀ t : Fin grid0.N, _)
theorem idx_in5 : ∀ t : Fin cfg0.N, win0_5.index t (0 : Fin 2) = 0 ∧ win0_5.index t (1 : Fin 2) = 0 :=
  (by decide +kernel : ∀ t : Fin grid0.N, _)
theorem idx_in6 : ∀ t : Fin cfg0.N, win0_6.index t (0 : Fin 2) = 0 ∧ win0_6.index t (1 : Fin 2) = 0 :=
  (by decide +kernel : ∀ t : Fin grid0.N, _)
theorem idx_in7 : ∀ t : Fin cfg0.N, win0_7.index t (0 : Fin 2) = 0 ∧ win0_7.index t (1 : Fin 2) = 0 :=
  (by decide +kernel : ∀ t : Fin grid0.N, _)
theorem idx_in8 : ∀ t : Fin cfg0.N, win0_8.index t (0 : Fin 2) = 0 ∧ win0_8.index t (1 : Fin 2) = 0 :=
  (by decide +kernel : ∀ t : Fin grid0.N, _)
theorem idx_in9 : ∀ t : Fin cfg0.N, win0_9.index t (0 : Fin 2) = 0 ∧ win0_9.index t (1 : Fin 2) = 0 :=
  (by decide +kernel : ∀ t : Fin grid0.N, _)
theorem idx_in10 : ∀ t : Fin cfg0.N, win0_10.index t (0 : Fin 2) = 0 ∧ win0_10.index t (1 : Fin 2) = 0 :=
  (by decide +kernel : ∀ t : Fin grid0.N, _)
theorem idx_in11 : ∀ t : Fin cfg0.N, win0_11.index t (0 : Fin 2) = 0 ∧ win0_11.index t (1 : Fin 2) = 0 :=
  (by decide +kernel : ∀ t : Fin grid0.N, _)
theorem idx_in12 : ∀ t : Fin cfg0.N, win0_12.index t (0 : Fin 2) = 0 ∧ win0_12.index t (1 : Fin 2) = 0 :=
  (by decide +kernel : ∀ t : Fin grid0.N, _)
theorem idx_in13 : ∀ t : Fin cfg0.N, win0_13.index t (0 : Fin 2) = 0 ∧ win0_13.index t (1 : Fin 2) = 0 :=
  (by decide +kernel : ∀ t : Fin grid0.N, _)
theorem idx_in14 : ∀ t : Fin cfg0.N, win0_14.index t (0 : Fin 2) = 0 ∧ win0_14.index t (1 : Fin 2) = 0 :=
  (by decide +kernel : ∀ t : Fin grid0.N, _)

/-! ## Each input window's block at a point, read off its array -/

/-- Window 0's block at point `t` is slab `t` of its array: entry `(0, p, e)` is the array's `(t, p, e)`. -/
theorem blk0 (c : Dev nD) (t : Fin cfg0.N) (p : Fin 1024) (e : Fin 256) :
    iblk m c 0 t (ix3 (0 : Fin 1) p e) = V m c main_arg0 (ix3 (T t) p e) := by
  obtain ⟨e0, e1, e2⟩ := idx_in0 t
  show V m c main_arg0 (((cfg0.win 0).blk t).view.emb (ix3 (0 : Fin 1) p e)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 256 + 1 * e.val = e.val; omega

/-- Window 1's block at point `t` is slab `t` of its array: entry `(0, p, e)` is the array's `(t, p, e)`. -/
theorem blk1 (c : Dev nD) (t : Fin cfg0.N) (p : Fin 1024) (e : Fin 1024) :
    iblk m c 1 t (ix3 (0 : Fin 1) p e) = V m c main_arg1 (ix3 (T t) p e) := by
  obtain ⟨e0, e1, e2⟩ := idx_in1 t
  show V m c main_arg1 (((cfg0.win 1).blk t).view.emb (ix3 (0 : Fin 1) p e)) = _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 1024 + 1 * p.val = p.val; omega
  | ⟨2, _⟩ => show win0_1.index t (2 : Fin 3) * 1024 + 1 * e.val = e.val; omega

/-- Window 2 holds its whole array at every point. -/
theorem blk2 (c : Dev nD) (t : Fin cfg0.N) (k : Fin 512) (q : Fin 512) :
    iblk m c 2 t (ix2 k q) = V m c main_arg2 (ix2 k q) := by
  obtain ⟨e0, e1⟩ := idx_in2 t
  show V m c main_arg2 (((cfg0.win 2).blk t).view.emb (ix2 k q)) = _
  refine congrArg (V m c main_arg2) (funext fun a => Fin.ext ?_)
  match a with
  | ⟨0, _⟩ => show win0_2.index t (0 : Fin 2) * 512 + 1 * k.val = k.val; omega
  | ⟨1, _⟩ => show win0_2.index t (1 : Fin 2) * 512 + 1 * q.val = q.val; omega

/-- Window 3 holds its whole array at every point. -/
theorem blk3 (c : Dev nD) (t : Fin cfg0.N) (q : Fin 512) :
    iblk m c 3 t (ix2 (0 : Fin 1) q) = V m c main_v0 (ix2 (0 : Fin 1) q) := by
  obtain ⟨e0, e1⟩ := idx_in3 t
  show V m c main_v0 (((cfg0.win 3).blk t).view.emb (ix2 (0 : Fin 1) q)) = _
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 512 + 1 * q.val = q.val; omega

/-- Window 4 holds its whole array at every point. -/
theorem blk4 (c : Dev nD) (t : Fin cfg0.N) (k : Fin 1024) (q : Fin 512) :
    iblk m c 4 t (ix2 k q) = V m c main_arg4 (ix2 k q) := by
  obtain ⟨e0, e1⟩ := idx_in4 t
  show V m c main_arg4 (((cfg0.win 4).blk t).view.emb (ix2 k q)) = _
  refine congrArg (V m c main_arg4) (funext fun a => Fin.ext ?_)
  match a with
  | ⟨0, _⟩ => show win0_4.index t (0 : Fin 2) * 1024 + 1 * k.val = k.val; omega
  | ⟨1, _⟩ => show win0_4.index t (1 : Fin 2) * 512 + 1 * q.val = q.val; omega

/-- Window 5 holds its whole array at every point. -/
theorem blk5 (c : Dev nD) (t : Fin cfg0.N) (q : Fin 512) :
    iblk m c 5 t (ix2 (0 : Fin 1) q) = V m c main_v1 (ix2 (0 : Fin 1) q) := by
  obtain ⟨e0, e1⟩ := idx_in5 t
  show V m c main_v1 (((cfg0.win 5).blk t).view.emb (ix2 (0 : Fin 1) q)) = _
  refine congrArg (V m c main_v1) (funext fun a => Fin.ext ?_)
  match a with
  | ⟨0, _⟩ => show win0_5.index t (0 : Fin 2) * 1 + 1 * 0 = 0; omega
  | ⟨1, _⟩ => show win0_5.index t (1 : Fin 2) * 512 + 1 * q.val = q.val; omega

/-- Window 6 holds its whole array at every point. -/
theorem blk6 (c : Dev nD) (t : Fin cfg0.N) (k : Fin 1024) (q : Fin 256) :
    iblk m c 6 t (ix2 k q) = V m c main_arg6 (ix2 k q) := by
  obtain ⟨e0, e1⟩ := idx_in6 t
  show V m c main_arg6 (((cfg0.win 6).blk t).view.emb (ix2 k q)) = _
  refine congrArg (V m c main_arg6) (funext fun a => Fin.ext ?_)
  match a with
  | ⟨0, _⟩ => show win0_6.index t (0 : Fin 2) * 1024 + 1 * k.val = k.val; omega
  | ⟨1, _⟩ => show win0_6.index t (1 : Fin 2) * 256 + 1 * q.val = q.val; omega

/-- Window 7 holds its whole array at every point. -/
theorem blk7 (c : Dev nD) (t : Fin cfg0.N) (q : Fin 256) :
    iblk m c 7 t (ix2 (0 : Fin 1) q) = V m c main_v2 (ix2 (0 : Fin 1) q) := by
  obtain ⟨e0, e1⟩ := idx_in7 t
  show V m c main_v2 (((cfg0.win 7).blk t).view.emb (ix2 (0 : Fin 1) q)) = _
  refine congrArg (V m c main_v2) (funext fun a => Fin.ext ?_)
  match a with
  | ⟨0, _⟩ => show win0_7.index t (0 : Fin 2) * 1 + 1 * 0 = 0; omega
  | ⟨1, _⟩ => show win0_7.index t (1 : Fin 2) * 256 + 1 * q.val = q.val; omega

/-- Window 8 holds its whole array at every point. -/
theorem blk8 (c : Dev nD) (t : Fin cfg0.N) (k : Fin 512) (q : Fin 256) :
    iblk m c 8 t (ix2 k q) = V m c main_arg8 (ix2 k q) := by
  obtain ⟨e0, e1⟩ := idx_in8 t
  show V m c main_arg8 (((cfg0.win 8).blk t).view.emb (ix2 k q)) = _
  refine congrArg (V m c main_arg8) (funext fun a => Fin.ext ?_)
  match a with
  | ⟨0, _⟩ => show win0_8.index t (0 : Fin 2) * 512 + 1 * k.val = k.val; omega
  | ⟨1, _⟩ => show win0_8.index t (1 : Fin 2) * 256 + 1 * q.val = q.val; omega

/-- Window 9 holds its whole array at every point. -/
theorem blk9 (c : Dev nD) (t : Fin cfg0.N) (q : Fin 256) :
    iblk m c 9 t (ix2 (0 : Fin 1) q) = V m c main_v3 (ix2 (0 : Fin 1) q) := by
  obtain ⟨e0, e1⟩ := idx_in9 t
  show V m c main_v3 (((cfg0.win 9).blk t).view.emb (ix2 (0 : Fin 1) q)) = _
  refine congrArg (V m c main_v3) (funext fun a => Fin.ext ?_)
  match a with
  | ⟨0, _⟩ => show win0_9.index t (0 : Fin 2) * 1 + 1 * 0 = 0; omega
  | ⟨1, _⟩ => show win0_9.index t (1 : Fin 2) * 256 + 1 * q.val = q.val; omega

/-- Window 10 holds its whole array at every point. -/
theorem blk10 (c : Dev nD) (t : Fin cfg0.N) (k : Fin 256) (q : Fin 256) :
    iblk m c 10 t (ix2 k q) = V m c main_arg10 (ix2 k q) := by
  obtain ⟨e0, e1⟩ := idx_in10 t
  show V m c main_arg10 (((cfg0.win 10).blk t).view.emb (ix2 k q)) = _
  refine congrArg (V m c main_arg10) (funext fun a => Fin.ext ?_)
  match a with
  | ⟨0, _⟩ => show win0_10.index t (0 : Fin 2) * 256 + 1 * k.val = k.val; omega
  | ⟨1, _⟩ => show win0_10.index t (1 : Fin 2) * 256 + 1 * q.val = q.val; omega

/-- Window 11 holds its whole array at every point. -/
theorem blk11 (c : Dev nD) (t : Fin cfg0.N) (q : Fin 256) :
    iblk m c 11 t (ix2 (0 : Fin 1) q) = V m c main_v4 (ix2 (0 : Fin 1) q) := by
  obtain ⟨e0, e1⟩ := idx_in11 t
  show V m c main_v4 (((cfg0.win 11).blk t).view.emb (ix2 (0 : Fin 1) q)) = _
  refine congrArg (V m c main_v4) (funext fun a => Fin.ext ?_)
  match a with
  | ⟨0, _⟩ => show win0_11.index t (0 : Fin 2) * 1 + 1 * 0 = 0; omega
  | ⟨1, _⟩ => show win0_11.index t (1 : Fin 2) * 256 + 1 * q.val = q.val; omega

/-- Window 12 holds its whole array at every point. -/
theorem blk12 (c : Dev nD) (t : Fin cfg0.N) (q : Fin 256) :
    iblk m c 12 t (ix2 (0 : Fin 1) q) = V m c main_v6 (ix2 (0 : Fin 1) q) := by
  obtain ⟨e0, e1⟩ := idx_in12 t
  show V m c main_v6 (((cfg0.win 12).blk t).view.emb (ix2 (0 : Fin 1) q)) = _
  refine congrArg (V m c main_v6) (funext fun a => Fin.ext ?_)
  match a with
  | ⟨0, _⟩ => show win0_12.index t (0 : Fin 2) * 1 + 1 * 0 = 0; omega
  | ⟨1, _⟩ => show win0_12.index t (1 : Fin 2) * 256 + 1 * q.val = q.val; omega

/-- Window 13 holds its whole array at every point. -/
theorem blk13 (c : Dev nD) (t : Fin cfg0.N) (k : Fin 256) (q : Fin 2) :
    iblk m c 13 t (ix2 k q) = V m c main_arg13 (ix2 k q) := by
  obtain ⟨e0, e1⟩ := idx_in13 t
  show V m c main_arg13 (((cfg0.win 13).blk t).view.emb (ix2 k q)) = _
  refine congrArg (V m c main_arg13) (funext fun a => Fin.ext ?_)
  match a with
  | ⟨0, _⟩ => show win0_13.index t (0 : Fin 2) * 256 + 1 * k.val = k.val; omega
  | ⟨1, _⟩ => show win0_13.index t (1 : Fin 2) * 2 + 1 * q.val = q.val; omega

/-- Window 14 holds its whole array at every point. -/
theorem blk14 (c : Dev nD) (t : Fin cfg0.N) (q : Fin 2) :
    iblk m c 14 t (ix2 (0 : Fin 1) q) = V m c main_v5 (ix2 (0 : Fin 1) q) := by
  obtain ⟨e0, e1⟩ := idx_in14 t
  show V m c main_v5 (((cfg0.win 14).blk t).view.emb (ix2 (0 : Fin 1) q)) = _
  refine congrArg (V m c main_v5) (funext fun a => Fin.ext ?_)
  match a with
  | ⟨0, _⟩ => show win0_14.index t (0 : Fin 2) * 1 + 1 * 0 = 0; omega
  | ⟨1, _⟩ => show win0_14.index t (1 : Fin 2) * 2 + 1 * q.val = q.val; omega

/-! ## What a point flushes, the cover, and the array after the region -/

/-- WHAT POINT `t` WRITES BACK is block `t` of `Garr`. -/
theorem flushed_eq (c : Dev nD) (t : Fin cfg0.N) :
    (dats m 0 c).flushed 15 t = ((cfg0.win 15).blk t).view.read (Elt Ideal) (Garr m c) := by
  show (cfg0.win 15).cut (grid0.coords t) ((dats m 0 c).after 15 t) = _
  rw [after0_15]
  refine funext fun (j : S1x1024x2.Idx) => ?_
  obtain ⟨u, p, q, rfl⟩ : ∃ (u : Fin 1) (p : Fin 1024) (q : Fin 2), j = ix3 u p q := ⟨j 0, j 1, j 2, eq_ix3 j⟩
  obtain rfl : u = 0 := Subsingleton.elim _ _
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 (0 : Fin 1) p q)
    = Garr m c (((cfg0.win 15).blk t).view.emb (ix3 (0 : Fin 1) p q))
  have hemb : ((cfg0.win 15).blk t).view.emb (ix3 (0 : Fin 1) p q) = ix3 (T t) p q := by
    obtain ⟨e0, e1, e2⟩ := idx_out t
    refine funext fun a => Fin.ext ?_
    match a with
    | ⟨0, _⟩ => show win0_15.index t (0 : Fin 3) * 1 + 1 * 0 = t.val; omega
    | ⟨1, _⟩ => show win0_15.index t (1 : Fin 3) * 1024 + 1 * p.val = p.val; omega
    | ⟨2, _⟩ => show win0_15.index t (2 : Fin 3) * 2 + 1 * q.val = q.val; omega
  rw [hemb]
  refine (Cert.KernelBlock.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  have h0 : (fun (p : Fin 1024) (e : Fin 256) => iblk m c 0 t (ix3 (0 : Fin 1) p e)) = fun p e => V m c main_arg0 (ix3 (T t) p e) :=
    funext fun p => funext fun e => blk0 m c t p e
  have h1 : (fun (p : Fin 1024) (e : Fin 1024) => iblk m c 1 t (ix3 (0 : Fin 1) p e)) = fun p e => V m c main_arg1 (ix3 (T t) p e) :=
    funext fun p => funext fun e => blk1 m c t p e
  have h2 : (fun (k : Fin 512) (q : Fin 512) => iblk m c 2 t (ix2 k q)) = fun k q => V m c main_arg2 (ix2 k q) :=
    funext fun k => funext fun q => blk2 m c t k q
  have h3 : (fun (q : Fin 512) => iblk m c 3 t (ix2 (0 : Fin 1) q)) = fun q => V m c main_v0 (ix2 (0 : Fin 1) q) :=
    funext fun q => blk3 m c t q
  have h4 : (fun (k : Fin 1024) (q : Fin 512) => iblk m c 4 t (ix2 k q)) = fun k q => V m c main_arg4 (ix2 k q) :=
    funext fun k => funext fun q => blk4 m c t k q
  have h5 : (fun (q : Fin 512) => iblk m c 5 t (ix2 (0 : Fin 1) q)) = fun q => V m c main_v1 (ix2 (0 : Fin 1) q) :=
    funext fun q => blk5 m c t q
  have h6 : (fun (k : Fin 1024) (q : Fin 256) => iblk m c 6 t (ix2 k q)) = fun k q => V m c main_arg6 (ix2 k q) :=
    funext fun k => funext fun q => blk6 m c t k q
  have h7 : (fun (q : Fin 256) => iblk m c 7 t (ix2 (0 : Fin 1) q)) = fun q => V m c main_v2 (ix2 (0 : Fin 1) q) :=
    funext fun q => blk7 m c t q
  have h8 : (fun (k : Fin 512) (q : Fin 256) => iblk m c 8 t (ix2 k q)) = fun k q => V m c main_arg8 (ix2 k q) :=
    funext fun k => funext fun q => blk8 m c t k q
  have h9 : (fun (q : Fin 256) => iblk m c 9 t (ix2 (0 : Fin 1) q)) = fun q => V m c main_v3 (ix2 (0 : Fin 1) q) :=
    funext fun q => blk9 m c t q
  have h10 : (fun (k : Fin 256) (q : Fin 256) => iblk m c 10 t (ix2 k q)) = fun k q => V m c main_arg10 (ix2 k q) :=
    funext fun k => funext fun q => blk10 m c t k q
  have h11 : (fun (q : Fin 256) => iblk m c 11 t (ix2 (0 : Fin 1) q)) = fun q => V m c main_v4 (ix2 (0 : Fin 1) q) :=
    funext fun q => blk11 m c t q
  have h12 : (fun (q : Fin 256) => iblk m c 12 t (ix2 (0 : Fin 1) q)) = fun q => V m c main_v6 (ix2 (0 : Fin 1) q) :=
    funext fun q => blk12 m c t q
  have h13 : (fun (k : Fin 256) (q : Fin 2) => iblk m c 13 t (ix2 k q)) = fun k q => V m c main_arg13 (ix2 k q) :=
    funext fun k => funext fun q => blk13 m c t k q
  have h14 : (fun (q : Fin 2) => iblk m c 14 t (ix2 (0 : Fin 1) q)) = fun q => V m c main_v5 (ix2 (0 : Fin 1) q) :=
    funext fun q => blk14 m c t q
  rw [h0, h1, h2, h3, h4, h5, h6, h7, h8, h9, h10, h11, h12, h13, h14]
  rfl

/-- An index of the output array is in point `t`'s block iff each coordinate is in the block's range on its axis. -/
theorem mem_blk (t : Fin cfg0.N) (i : S64x1024x2.Idx) :
    i ∈ ((cfg0.win 15).blk t).view.set ↔ ∀ a : Fin 3, win0_15.index t a * S1x1024x2.size a ≤ (i a).val
      ∧ (i a).val < win0_15.index t a * S1x1024x2.size a + S1x1024x2.size a := by
  show i ∈ ((View.whole main_v7).slice (win0_15.rect t)).set ↔ _
  rw [View.set_slice_whole, Rect.mem_set_unit]
  exact Iff.rfl

/-- THE COVER: entry `(bt, p, q)` lies in the block point `bt` flushes. -/
theorem cover (i : S64x1024x2.Idx) :
    ∃ t : Fin cfg0.N, (cfg0.win 15).flush t = true ∧ i ∈ ((cfg0.win 15).blk t).view.set := by
  have h0 : (i 0).val < 64 := (i 0).isLt
  have h1 : (i 1).val < 1024 := (i 1).isLt
  have h2 : (i 2).val < 2 := (i 2).isLt
  have eN : cfg0.N = 64 := N_0
  obtain ⟨t, ht⟩ : ∃ t : Fin cfg0.N, t.val = (i 0).val := ⟨⟨(i 0).val, by omega⟩, rfl⟩
  obtain ⟨e0, e1, e2⟩ := idx_out t
  refine ⟨t, flush0_15 t, ?_⟩
  rw [mem_blk]
  intro a
  match a with
  | ⟨0, _⟩ =>
    show win0_15.index t (0 : Fin 3) * 1 ≤ (i 0).val ∧ (i 0).val < win0_15.index t (0 : Fin 3) * 1 + 1
    omega
  | ⟨1, _⟩ =>
    show win0_15.index t (1 : Fin 3) * 1024 ≤ (i 1).val ∧ (i 1).val < win0_15.index t (1 : Fin 3) * 1024 + 1024
    omega
  | ⟨2, _⟩ =>
    show win0_15.index t (2 : Fin 3) * 2 ≤ (i 2).val ∧ (i 2).val < win0_15.index t (2 : Fin 3) * 2 + 2
    omega

/-- THE OUTPUT ARRAY after the region is `Garr`. -/
theorem final (c : Dev nD) : (dats m 0 c).arrAt 15 cfg0.N = Garr m c :=
  (dats m 0 c).arrAt_eq_of_cover 15 (Garr m c) (fun t _ => flushed_eq m c t) (cover)

/-! ## The host operation after the region, and the run -/

/-- The kernel's result: the output array viewed as `[65536, 2]`. -/
def result (c : Dev nD) : S65536x2.Idx → Net.R :=
  shapeCast S65536x2 (Garr m c) shapeCasts_S64x1024x2_S65536x2

/-- The tail's result buffer holds `result`. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  unfold result
  exact congrArg (fun v => shapeCast S65536x2 v shapeCasts_S64x1024x2_S65536x2)
    ((Pipeline.withArrays_arr spec0 launch0.win.arr_inj c _ _ 15).trans (final m c))

/-- Row `bt * 1024 + p` of the result is node `p` of graph `bt`. -/
theorem result_apply (c : Dev nD) (bt : Fin 64) (p : Fin 1024) (q : Fin 2) (P : Fin 65536)
    (hP : P.val = bt.val * 1024 + p.val) :
    result m c (ix2 P q) = gAt (V m c main_arg0) (V m c main_arg1) (V m c main_arg2) (V m c main_v0) (V m c main_arg4) (V m c main_v1) (V m c main_arg6) (V m c main_v2) (V m c main_arg8) (V m c main_v3) (V m c main_arg10) (V m c main_v4) (V m c main_v6) (V m c main_arg13) (V m c main_v5) bt p q := by
  unfold result
  exact Cert.MergeRows.shapeCast_merge_apply (n := 64) (a := 1024) (b := 2) (N := 65536) (Garr m c) _ bt p q P hP

set_option backward.isDefEq.respectTransparency.types false in
/-- Every weakly fair execution of the kernel's program ends with its result buffer at `result`. -/
theorem run_result : θ_run defs (onTc (τ := τ) (main (F := Ideal))) ⟨m, fun _ => 0, ρ⟩ (fun r => ∀ c : Dev nD,
      r.2.mem ((c.tc : Thread nD τ).loc main_v8) = result m c) :=
  (θ_run defs _ _).mono (fun r h c =>
      ((h c).2 main_v8 (Pipeline.mem_restRefs_of main_v8 (by decide) (by decide))).trans (tail_eq m c))
    (run_main m ρ)

set_option backward.isDefEq.respectTransparency.types false in
/-- THE KERNEL'S RUN: its result buffer at `result`, its arguments unchanged. -/
theorem run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h.1 c, h.2 c⟩)
    (Cert.RunBoth.θ_run_and _ _ _ _ _ (run_result m ρ) (frame m ρ))

end Cert.KernelValue

end
-- ==== Proof.RefGraph.lean ====
/-
  The reference's four graph layers, read at an index as the plain functions of `Net.lean`.

  The reference works on all 64 graphs at once: a batched product of the adjacency matrices with the node features,
  the two arrays joined along the feature axis, a product with the weights contracting that axis, the bias laid along
  the last axis, and the maximum with zero. Read at graph `bt`, node `p` and feature `q`, each layer is `Net.gconv` of
  graph `bt`'s adjacency matrix and of the previous layer's rows of graph `bt`: the batched sums run over the nodes,
  respectively the features, of that one graph only.
-/
import proofs.«119564_j46969762349346_1_alg».proof.Proof.RefRead
import proofs.«119564_j46969762349346_1_alg».proof.Proof.Net
import Idealize.ShloMosaic.Lib.Pipeline.Value
import Idealize.ShloMosaic.Lib.ValueIdx
import Idealize.ShloMosaic.PureOps.Ideal.Laws

noncomputable section

open scoped BigOperators

namespace Cert.RefGraph

open Idealize.ShloMosaic Idealize.ShloMosaic.ValueIdx Cert.ReferenceIdeal Cert.ReferenceIdeal.ReadP

/-- Two `[B, n, d]` arrays joined along the last axis into `[B, n, K]`, read at `(bt, p, k)`: the left one's entry
    `(bt, p, k)` for `k < d`, the right one's entry `(bt, p, k - d)` from there on. -/
theorem cat3_apply {B n d K : ℕ} (own gathered : (⟨3, ![B, n, d]⟩ : Shape).Idx → Net.R)
    (hc : Shape.Concatenates [(⟨3, ![B, n, d]⟩ : Shape), (⟨3, ![B, n, d]⟩ : Shape)] ⟨3, ![B, n, K]⟩ 2)
    (bt : Fin B) (p : Fin n) (k : Fin K) :
    concatenate ⟨3, ![B, n, K]⟩ 2 [⟨⟨3, ![B, n, d]⟩, own⟩, ⟨⟨3, ![B, n, d]⟩, gathered⟩] hc (ix3 bt p k)
      = Net.catRow (fun e => own (ix3 bt p e)) (fun e => gathered (ix3 bt p e)) k := by
  have hKd : d + d = K := by
    have e := hc.2.2
    simpa using e
  unfold Net.catRow
  by_cases hk : k.val < d
  · rw [dif_pos hk]
    exact concatenate_pair_apply_left 2 own gathered hc (ix3 bt p k) rfl (ix3 bt p ⟨k.val, hk⟩)
      (fun b => by match b with | ⟨0, _⟩ => rfl | ⟨1, _⟩ => rfl | ⟨2, _⟩ => rfl)
  · have hk' : k.val - d < d := by have := k.isLt; omega
    rw [dif_neg hk, dif_pos hk']
    exact concatenate_pair_apply_right 2 own gathered hc (ix3 bt p k) rfl rfl (ix3 bt p ⟨k.val - d, hk'⟩)
      (fun b hb => by
        match b with
        | ⟨0, _⟩ => rfl
        | ⟨1, _⟩ => rfl
        | ⟨2, _⟩ => exact absurd rfl hb)
      (by show k.val - d + d = k.val; omega)

variable
  (x0 : (⟨S64x1024x256, .f32⟩ : BufTy).Contents (Elt Ideal))
  (x1 : (⟨S64x1024x1024, .f32⟩ : BufTy).Contents (Elt Ideal))
  (x2 : (⟨S512x512, .f32⟩ : BufTy).Contents (Elt Ideal))
  (x3 : (⟨S512, .f32⟩ : BufTy).Contents (Elt Ideal))
  (x4 : (⟨S1024x512, .f32⟩ : BufTy).Contents (Elt Ideal))
  (x5 : (⟨S512, .f32⟩ : BufTy).Contents (Elt Ideal))
  (x6 : (⟨S1024x256, .f32⟩ : BufTy).Contents (Elt Ideal))
  (x7 : (⟨S256, .f32⟩ : BufTy).Contents (Elt Ideal))
  (x8 : (⟨S512x256, .f32⟩ : BufTy).Contents (Elt Ideal))
  (x9 : (⟨S256, .f32⟩ : BufTy).Contents (Elt Ideal))
  (x10 : (⟨S256x256, .f32⟩ : BufTy).Contents (Elt Ideal))
  (x11 : (⟨S256, .f32⟩ : BufTy).Contents (Elt Ideal))
  (x12 : (⟨S256, .f32⟩ : BufTy).Contents (Elt Ideal))
  (x13 : (⟨S256x2, .f32⟩ : BufTy).Contents (Elt Ideal))
  (x14 : (⟨S2, .f32⟩ : BufTy).Contents (Elt Ideal))

/-! ## Graph layer 1 -/

theorem lidx_v0 (bt : Fin 64) (p : Fin 1024) (e : Fin 256) (m : Fin 1024) :
    lidx_main_v0 (ix3 bt p e) m = ix3 bt p m := funext fun a => Fin.ext (by match a with | ⟨0, _⟩ => rfl | ⟨1, _⟩ => rfl | ⟨2, _⟩ => rfl)
theorem ridx_v0 (bt : Fin 64) (p : Fin 1024) (e : Fin 256) (m : Fin 1024) :
    ridx_main_v0 (ix3 bt p e) m = ix3 bt m e := funext fun a => Fin.ext (by match a with | ⟨0, _⟩ => rfl | ⟨1, _⟩ => rfl | ⟨2, _⟩ => rfl)
theorem lidx_v2 (bt : Fin 64) (p : Fin 1024) (q : Fin 512) (k : Fin 512) :
    lidx_main_v2 (ix3 bt p q) k = ix3 bt p k := funext fun a => Fin.ext (by match a with | ⟨0, _⟩ => rfl | ⟨1, _⟩ => rfl | ⟨2, _⟩ => rfl)
theorem ridx_v2 (bt : Fin 64) (p : Fin 1024) (q : Fin 512) (k : Fin 512) :
    ridx_main_v2 (ix3 bt p q) k = ix2 k q := funext fun a => Fin.ext (by match a with | ⟨0, _⟩ => rfl | ⟨1, _⟩ => rfl)
theorem idx_v4 (bt : Fin 64) (p : Fin 1024) (q : Fin 512) :
    idx_main_v3 (idx_main_v4 (ix3 bt p q)) = ix1 q := funext fun a => Fin.ext (by match a with | ⟨0, _⟩ => rfl)

/-- The gathered features of layer 1: for graph `bt`, the adjacency-weighted sum over the graph's nodes. -/
theorem agg1 (bt : Fin 64) (p : Fin 1024) (e : Fin 256) :
    val_main_v0 (F := Ideal) x0 x1 (ix3 bt p e)
      = Net.agg (fun p m => x1 (ix3 bt p m)) (fun p e => x0 (ix3 bt p e)) p e := by
  rw [val_main_v0_apply]
  unfold Net.agg
  refine Finset.sum_congr rfl fun m _ => ?_
  rw [lidx_v0, ridx_v0]

/-- The joined row of layer 1: own features, then the gathered ones. -/
theorem cat1 (bt : Fin 64) (p : Fin 1024) (k : Fin 512) :
    val_main_v1 (F := Ideal) x0 x1 (ix3 bt p k)
      = Net.catRow (fun e => x0 (ix3 bt p e))
          (Net.agg (fun p m => x1 (ix3 bt p m)) (fun p e => x0 (ix3 bt p e)) p) k := by
  unfold val_main_v1
  exact (cat3_apply (B := 64) (n := 1024) (d := 256) (K := 512) x0 (val_main_v0 (F := Ideal) x0 x1) _ bt p k).trans
    (congrArg (fun g => Net.catRow (fun e => x0 (ix3 bt p e)) g k) (funext fun e => agg1 x0 x1 bt p e))

/-- GRAPH LAYER 1 of the reference, for graph `bt`, read at node `p` and feature `q`. -/
theorem layer1 (bt : Fin 64) (p : Fin 1024) (q : Fin 512) :
    val_main_v6 (F := Ideal) x0 x1 x2 x3 (ix3 bt p q)
      = Net.gconv (fun p m => x1 (ix3 bt p m)) (fun p e => x0 (ix3 bt p e)) (fun k q => x2 (ix2 k q))
          (fun q => x3 (ix1 q)) p q := by
  rw [val_main_v6_apply, val_main_v5_apply, val_main_call0_v0_apply, val_main_call0_cst_apply,
    val_main_v4_apply, val_main_v3_apply, val_main_v2_apply]
  simp only [Ideal.maximumf_def, Ideal.addf_def, Ideal.ofBits_def]
  unfold Net.gconv Net.reluDense Net.joined
  refine congrArg₂ max (congrArg₂ (· + ·) (Finset.sum_congr rfl fun k _ => ?_) ?_) rfl
  · rw [lidx_v2, ridx_v2, cat1]
  · rw [idx_v4]

/-! ## Graph layer 2 -/

theorem lidx_v7 (bt : Fin 64) (p : Fin 1024) (e : Fin 512) (m : Fin 1024) :
    lidx_main_v7 (ix3 bt p e) m = ix3 bt p m := funext fun a => Fin.ext (by match a with | ⟨0, _⟩ => rfl | ⟨1, _⟩ => rfl | ⟨2, _⟩ => rfl)
theorem ridx_v7 (bt : Fin 64) (p : Fin 1024) (e : Fin 512) (m : Fin 1024) :
    ridx_main_v7 (ix3 bt p e) m = ix3 bt m e := funext fun a => Fin.ext (by match a with | ⟨0, _⟩ => rfl | ⟨1, _⟩ => rfl | ⟨2, _⟩ => rfl)
theorem lidx_v9 (bt : Fin 64) (p : Fin 1024) (q : Fin 512) (k : Fin 1024) :
    lidx_main_v9 (ix3 bt p q) k = ix3 bt p k := funext fun a => Fin.ext (by match a with | ⟨0, _⟩ => rfl | ⟨1, _⟩ => rfl | ⟨2, _⟩ => rfl)
theorem ridx_v9 (bt : Fin 64) (p : Fin 1024) (q : Fin 512) (k : Fin 1024) :
    ridx_main_v9 (ix3 bt p q) k = ix2 k q := funext fun a => Fin.ext (by match a with | ⟨0, _⟩ => rfl | ⟨1, _⟩ => rfl)
theorem idx_v11 (bt : Fin 64) (p : Fin 1024) (q : Fin 512) :
    idx_main_v10 (idx_main_v11 (ix3 bt p q)) = ix1 q := funext fun a => Fin.ext (by match a with | ⟨0, _⟩ => rfl)

/-- The gathered features of layer 2: for graph `bt`, the adjacency-weighted sum over the graph's nodes. -/
theorem agg2 (bt : Fin 64) (p : Fin 1024) (e : Fin 512) :
    val_main_v7 (F := Ideal) x0 x1 x2 x3 (ix3 bt p e)
      = Net.agg (fun p m => x1 (ix3 bt p m)) (fun p e => (val_main_v6 (F := Ideal) x0 x1 x2 x3) (ix3 bt p e)) p e := by
  rw [val_main_v7_apply]
  unfold Net.agg
  refine Finset.sum_congr rfl fun m _ => ?_
  rw [lidx_v7, ridx_v7]

/-- The joined row of layer 2: own features, then the gathered ones. -/
theorem cat2 (bt : Fin 64) (p : Fin 1024) (k : Fin 1024) :
    val_main_v8 (F := Ideal) x0 x1 x2 x3 (ix3 bt p k)
      = Net.catRow (fun e => (val_main_v6 (F := Ideal) x0 x1 x2 x3) (ix3 bt p e))
          (Net.agg (fun p m => x1 (ix3 bt p m)) (fun p e => (val_main_v6 (F := Ideal) x0 x1 x2 x3) (ix3 bt p e)) p) k := by
  unfold val_main_v8
  exact (cat3_apply (B := 64) (n := 1024) (d := 512) (K := 1024) (val_main_v6 (F := Ideal) x0 x1 x2 x3) (val_main_v7 (F := Ideal) x0 x1 x2 x3) _ bt p k).trans
    (congrArg (fun g => Net.catRow (fun e => (val_main_v6 (F := Ideal) x0 x1 x2 x3) (ix3 bt p e)) g k) (funext fun e => agg2 x0 x1 x2 x3 bt p e))

/-- GRAPH LAYER 2 of the reference, for graph `bt`, read at node `p` and feature `q`. -/
theorem layer2 (bt : Fin 64) (p : Fin 1024) (q : Fin 512) :
    val_main_v13 (F := Ideal) x0 x1 x2 x3 x4 x5 (ix3 bt p q)
      = Net.gconv (fun p m => x1 (ix3 bt p m)) (fun p e => (val_main_v6 (F := Ideal) x0 x1 x2 x3) (ix3 bt p e)) (fun k q => x4 (ix2 k q))
          (fun q => x5 (ix1 q)) p q := by
  rw [val_main_v13_apply, val_main_v12_apply, val_main_call1_v0_apply, val_main_call1_cst_apply,
    val_main_v11_apply, val_main_v10_apply, val_main_v9_apply]
  simp only [Ideal.maximumf_def, Ideal.addf_def, Ideal.ofBits_def]
  unfold Net.gconv Net.reluDense Net.joined
  refine congrArg₂ max (congrArg₂ (· + ·) (Finset.sum_congr rfl fun k _ => ?_) ?_) rfl
  · rw [lidx_v9, ridx_v9, cat2]
  · rw [idx_v11]

/-! ## Graph layer 3 -/

theorem lidx_v14 (bt : Fin 64) (p : Fin 1024) (e : Fin 512) (m : Fin 1024) :
    lidx_main_v14 (ix3 bt p e) m = ix3 bt p m := funext fun a => Fin.ext (by match a with | ⟨0, _⟩ => rfl | ⟨1, _⟩ => rfl | ⟨2, _⟩ => rfl)
theorem ridx_v14 (bt : Fin 64) (p : Fin 1024) (e : Fin 512) (m : Fin 1024) :
    ridx_main_v14 (ix3 bt p e) m = ix3 bt m e := funext fun a => Fin.ext (by match a with | ⟨0, _⟩ => rfl | ⟨1, _⟩ => rfl | ⟨2, _⟩ => rfl)
theorem lidx_v16 (bt : Fin 64) (p : Fin 1024) (q : Fin 256) (k : Fin 1024) :
    lidx_main_v16 (ix3 bt p q) k = ix3 bt p k := funext fun a => Fin.ext (by match a with | ⟨0, _⟩ => rfl | ⟨1, _⟩ => rfl | ⟨2, _⟩ => rfl)
theorem ridx_v16 (bt : Fin 64) (p : Fin 1024) (q : Fin 256) (k : Fin 1024) :
    ridx_main_v16 (ix3 bt p q) k = ix2 k q := funext fun a => Fin.ext (by match a with | ⟨0, _⟩ => rfl | ⟨1, _⟩ => rfl)
theorem idx_v18 (bt : Fin 64) (p : Fin 1024) (q : Fin 256) :
    idx_main_v17 (idx_main_v18 (ix3 bt p q)) = ix1 q := funext fun a => Fin.ext (by match a with | ⟨0, _⟩ => rfl)

/-- The gathered features of layer 3: for graph `bt`, the adjacency-weighted sum over the graph's nodes. -/
theorem agg3 (bt : Fin 64) (p : Fin 1024) (e : Fin 512) :
    val_main_v14 (F := Ideal) x0 x1 x2 x3 x4 x5 (ix3 bt p e)
      = Net.agg (fun p m => x1 (ix3 bt p m)) (fun p e => (val_main_v13 (F := Ideal) x0 x1 x2 x3 x4 x5) (ix3 bt p e)) p e := by
  rw [val_main_v14_apply]
  unfold Net.agg
  refine Finset.sum_congr rfl fun m _ => ?_
  rw [lidx_v14, ridx_v14]

/-- The joined row of layer 3: own features, then the gathered ones. -/
theorem cat3 (bt : Fin 64) (p : Fin 1024) (k : Fin 1024) :
    val_main_v15 (F := Ideal) x0 x1 x2 x3 x4 x5 (ix3 bt p k)
      = Net.catRow (fun e => (val_main_v13 (F := Ideal) x0 x1 x2 x3 x4 x5) (ix3 bt p e))
          (Net.agg (fun p m => x1 (ix3 bt p m)) (fun p e => (val_main_v13 (F := Ideal) x0 x1 x2 x3 x4 x5) (ix3 bt p e)) p) k := by
  unfold val_main_v15
  exact (cat3_apply (B := 64) (n := 1024) (d := 512) (K := 1024) (val_main_v13 (F := Ideal) x0 x1 x2 x3 x4 x5) (val_main_v14 (F := Ideal) x0 x1 x2 x3 x4 x5) _ bt p k).trans
    (congrArg (fun g => Net.catRow (fun e => (val_main_v13 (F := Ideal) x0 x1 x2 x3 x4 x5) (ix3 bt p e)) g k) (funext fun e => agg3 x0 x1 x2 x3 x4 x5 bt p e))

/-- GRAPH LAYER 3 of the reference, for graph `bt`, read at node `p` and feature `q`. -/
theorem layer3 (bt : Fin 64) (p : Fin 1024) (q : Fin 256) :
    val_main_v20 (F := Ideal) x0 x1 x2 x3 x4 x5 x6 x7 (ix3 bt p q)
      = Net.gconv (fun p m => x1 (ix3 bt p m)) (fun p e => (val_main_v13 (F := Ideal) x0 x1 x2 x3 x4 x5) (ix3 bt p e)) (fun k q => x6 (ix2 k q))
          (fun q => x7 (ix1 q)) p q := by
  rw [val_main_v20_apply, val_main_v19_apply, val_main_call2_v0_apply, val_main_call2_cst_apply,
    val_main_v18_apply, val_main_v17_apply, val_main_v16_apply]
  simp only [Ideal.maximumf_def, Ideal.addf_def, Ideal.ofBits_def]
  unfold Net.gconv Net.reluDense Net.joined
  refine congrArg₂ max (congrArg₂ (· + ·) (Finset.sum_congr rfl fun k _ => ?_) ?_) rfl
  · rw [lidx_v16, ridx_v16, cat3]
  · rw [idx_v18]

/-! ## Graph layer 4 -/

theorem lidx_v21 (bt : Fin 64) (p : Fin 1024) (e : Fin 256) (m : Fin 1024) :
    lidx_main_v21 (ix3 bt p e) m = ix3 bt p m := funext fun a => Fin.ext (by match a with | ⟨0, _⟩ => rfl | ⟨1, _⟩ => rfl | ⟨2, _⟩ => rfl)
theorem ridx_v21 (bt : Fin 64) (p : Fin 1024) (e : Fin 256) (m : Fin 1024) :
    ridx_main_v21 (ix3 bt p e) m = ix3 bt m e := funext fun a => Fin.ext (by match a with | ⟨0, _⟩ => rfl | ⟨1, _⟩ => rfl | ⟨2, _⟩ => rfl)
theorem lidx_v23 (bt : Fin 64) (p : Fin 1024) (q : Fin 256) (k : Fin 512) :
    lidx_main_v23 (ix3 bt p q) k = ix3 bt p k := funext fun a => Fin.ext (by match a with | ⟨0, _⟩ => rfl | ⟨1, _⟩ => rfl | ⟨2, _⟩ => rfl)
theorem ridx_v23 (bt : Fin 64) (p : Fin 1024) (q : Fin 256) (k : Fin 512) :
    ridx_main_v23 (ix3 bt p q) k = ix2 k q := funext fun a => Fin.ext (by match a with | ⟨0, _⟩ => rfl | ⟨1, _⟩ => rfl)
theorem idx_v25 (bt : Fin 64) (p : Fin 1024) (q : Fin 256) :
    idx_main_v24 (idx_main_v25 (ix3 bt p q)) = ix1 q := funext fun a => Fin.ext (by match a with | ⟨0, _⟩ => rfl)

/-- The gathered features of layer 4: for graph `bt`, the adjacency-weighted sum over the graph's nodes. -/
theorem agg4 (bt : Fin 64) (p : Fin 1024) (e : Fin 256) :
    val_main_v21 (F := Ideal) x0 x1 x2 x3 x4 x5 x6 x7 (ix3 bt p e)
      = Net.agg (fun p m => x1 (ix3 bt p m)) (fun p e => (val_main_v20 (F := Ideal) x0 x1 x2 x3 x4 x5 x6 x7) (ix3 bt p e)) p e := by
  rw [val_main_v21_apply]
  unfold Net.agg
  refine Finset.sum_congr rfl fun m _ => ?_
  rw [lidx_v21, ridx_v21]

/-- The joined row of layer 4: own features, then the gathered ones. -/
theorem cat4 (bt : Fin 64) (p : Fin 1024) (k : Fin 512) :
    val_main_v22 (F := Ideal) x0 x1 x2 x3 x4 x5 x6 x7 (ix3 bt p k)
      = Net.catRow (fun e => (val_main_v20 (F := Ideal) x0 x1 x2 x3 x4 x5 x6 x7) (ix3 bt p e))
          (Net.agg (fun p m => x1 (ix3 bt p m)) (fun p e => (val_main_v20 (F := Ideal) x0 x1 x2 x3 x4 x5 x6 x7) (ix3 bt p e)) p) k := by
  unfold val_main_v22
  exact (cat3_apply (B := 64) (n := 1024) (d := 256) (K := 512) (val_main_v20 (F := Ideal) x0 x1 x2 x3 x4 x5 x6 x7) (val_main_v21 (F := Ideal) x0 x1 x2 x3 x4 x5 x6 x7) _ bt p k).trans
    (congrArg (fun g => Net.catRow (fun e => (val_main_v20 (F := Ideal) x0 x1 x2 x3 x4 x5 x6 x7) (ix3 bt p e)) g k) (funext fun e => agg4 x0 x1 x2 x3 x4 x5 x6 x7 bt p e))

/-- GRAPH LAYER 4 of the reference, for graph `bt`, read at node `p` and feature `q`. -/
theorem layer4 (bt : Fin 64) (p : Fin 1024) (q : Fin 256) :
    val_main_v27 (F := Ideal) x0 x1 x2 x3 x4 x5 x6 x7 x8 x9 (ix3 bt p q)
      = Net.gconv (fun p m => x1 (ix3 bt p m)) (fun p e => (val_main_v20 (F := Ideal) x0 x1 x2 x3 x4 x5 x6 x7) (ix3 bt p e)) (fun k q => x8 (ix2 k q))
          (fun q => x9 (ix1 q)) p q := by
  rw [val_main_v27_apply, val_main_v26_apply, val_main_call3_v0_apply, val_main_call3_cst_apply,
    val_main_v25_apply, val_main_v24_apply, val_main_v23_apply]
  simp only [Ideal.maximumf_def, Ideal.addf_def, Ideal.ofBits_def]
  unfold Net.gconv Net.reluDense Net.joined
  refine congrArg₂ max (congrArg₂ (· + ·) (Finset.sum_congr rfl fun k _ => ?_) ?_) rfl
  · rw [lidx_v23, ridx_v23, cat4]
  · rw [idx_v25]

/-! ## The four layers composed -/

/-- After its four graph layers the reference holds, at graph `bt`, node `p` and feature `q`, the four-fold
    `Net.gconv` of graph `bt`'s adjacency matrix and node features. -/
theorem layers (bt : Fin 64) (p : Fin 1024) (q : Fin 256) :
    val_main_v27 (F := Ideal) x0 x1 x2 x3 x4 x5 x6 x7 x8 x9 (ix3 bt p q)
      = Net.gconv (fun p m => x1 (ix3 bt p m))
          (Net.gconv (fun p m => x1 (ix3 bt p m))
            (Net.gconv (fun p m => x1 (ix3 bt p m))
              (Net.gconv (fun p m => x1 (ix3 bt p m)) (fun p e => x0 (ix3 bt p e)) (fun k q => x2 (ix2 k q)) (fun q => x3 (ix1 q)))
              (fun k q => x4 (ix2 k q)) (fun q => x5 (ix1 q)))
            (fun k q => x6 (ix2 k q)) (fun q => x7 (ix1 q)))
          (fun k q => x8 (ix2 k q)) (fun q => x9 (ix1 q)) p q := by
  rw [layer4]
  have e3 : (fun (p : Fin 1024) (e : Fin 256) => val_main_v20 (F := Ideal) x0 x1 x2 x3 x4 x5 x6 x7 (ix3 bt p e))
      = Net.gconv (fun p m => x1 (ix3 bt p m)) (fun p e => val_main_v13 (F := Ideal) x0 x1 x2 x3 x4 x5 (ix3 bt p e))
          (fun k q => x6 (ix2 k q)) (fun q => x7 (ix1 q)) :=
    funext fun p => funext fun e => layer3 x0 x1 x2 x3 x4 x5 x6 x7 bt p e
  have e2 : (fun (p : Fin 1024) (e : Fin 512) => val_main_v13 (F := Ideal) x0 x1 x2 x3 x4 x5 (ix3 bt p e))
      = Net.gconv (fun p m => x1 (ix3 bt p m)) (fun p e => val_main_v6 (F := Ideal) x0 x1 x2 x3 (ix3 bt p e))
          (fun k q => x4 (ix2 k q)) (fun q => x5 (ix1 q)) :=
    funext fun p => funext fun e => layer2 x0 x1 x2 x3 x4 x5 bt p e
  have e1 : (fun (p : Fin 1024) (e : Fin 512) => val_main_v6 (F := Ideal) x0 x1 x2 x3 (ix3 bt p e))
      = Net.gconv (fun p m => x1 (ix3 bt p m)) (fun p e => x0 (ix3 bt p e)) (fun k q => x2 (ix2 k q)) (fun q => x3 (ix1 q)) :=
    funext fun p => funext fun e => layer1 x0 x1 x2 x3 bt p e
  rw [e3, e2, e1]

end Cert.RefGraph

end
-- ==== Proof.RefHead.lean ====
/-
  The reference's classifier head, read at an index, and the whole reference as `Net.net` of one graph.

  After the four graph layers the reference flattens `[64, 1024, 256]` to `[65536, 256]`: row `P = bt * 1024 + p` is node
  `p` of graph `bt`. On that table it applies a dense layer, the parametric rectifier, a dense layer onto the two
  classes, and the log-softmax of every row: the row maximum (a fold of `max` from minus infinity, and one more `max`
  with minus infinity, which changes nothing), the shifted scores, the sum of their exponentials started at 0, its
  logarithm subtracted. Every one of these steps acts on one row at a time, so row `P` of the result is a function of
  row `P` of the flattened table alone, that is of node `p` of graph `bt`.
-/
import proofs.«119564_j46969762349346_1_alg».proof.Proof.RefGraph
import proofs.«119564_j46969762349346_1_alg».proof.Proof.LibHostRowReduce

noncomputable section

open scoped BigOperators

namespace Cert.RefHead

open Idealize.ShloMosaic Idealize.ShloMosaic.ValueIdx Cert.ReferenceIdeal Cert.ReferenceIdeal.ReadP

variable
  (x0 : (⟨S64x1024x256, .f32⟩ : BufTy).Contents (Elt Ideal))
  (x1 : (⟨S64x1024x1024, .f32⟩ : BufTy).Contents (Elt Ideal))
  (x2 : (⟨S512x512, .f32⟩ : BufTy).Contents (Elt Ideal))
  (x3 : (⟨S512, .f32⟩ : BufTy).Contents (Elt Ideal))
  (x4 : (⟨S1024x512, .f32⟩ : BufTy).Contents (Elt Ideal))
  (x5 : (⟨S512, .f32⟩ : BufTy).Contents (Elt Ideal))
  (x6 : (⟨S1024x256, .f32⟩ : BufTy).Contents (Elt Ideal))
  (x7 : (⟨S256, .f32⟩ : BufTy).Contents (Elt Ideal))
  (x8 : (⟨S512x256, .f32⟩ : BufTy).Contents (Elt Ideal))
  (x9 : (⟨S256, .f32⟩ : BufTy).Contents (Elt Ideal))
  (x10 : (⟨S256x256, .f32⟩ : BufTy).Contents (Elt Ideal))
  (x11 : (⟨S256, .f32⟩ : BufTy).Contents (Elt Ideal))
  (x12 : (⟨S256, .f32⟩ : BufTy).Contents (Elt Ideal))
  (x13 : (⟨S256x2, .f32⟩ : BufTy).Contents (Elt Ideal))
  (x14 : (⟨S2, .f32⟩ : BufTy).Contents (Elt Ideal))

/-! ## The flattening: row `bt * 1024 + p` is node `p` of graph `bt` -/

theorem idx_v28 (bt : Fin 64) (p : Fin 1024) (k : Fin 256) (P : Fin 65536) (hP : P.val = bt.val * 1024 + p.val) :
    idx_main_v28 (ix2 P k) = ix3 bt p k :=
  funext fun a => Fin.ext (by
    have hb := bt.isLt
    have hp := p.isLt
    have hk := k.isLt
    match a with
    | ⟨0, _⟩ => show (P.val * 256 + k.val) / 262144 = bt.val; omega
    | ⟨1, _⟩ => show (P.val * 256 + k.val) / 256 % 1024 = p.val; omega
    | ⟨2, _⟩ => show (P.val * 256 + k.val) % 256 = k.val; omega)

/-! ## The dense layer and the parametric rectifier -/

/-- The first dense layer at row `P = bt * 1024 + p`: `Net.dense` of graph `bt`'s rows after the graph layers. -/
theorem dense1 (bt : Fin 64) (p : Fin 1024) (q : Fin 256) (P : Fin 65536) (hP : P.val = bt.val * 1024 + p.val) :
    val_main_v32 (F := Ideal) x0 x1 x2 x3 x4 x5 x6 x7 x8 x9 x10 x11 (ix2 P q)
      = Net.dense (fun p k => val_main_v27 (F := Ideal) x0 x1 x2 x3 x4 x5 x6 x7 x8 x9 (ix3 bt p k)) (fun k q => x10 (ix2 k q))
          (fun q => x11 (ix1 q)) p q := by
  rw [val_main_v32_apply, val_main_v31_apply, val_main_v30_apply, val_main_v29_apply]
  simp only [Ideal.addf_def]
  unfold Net.dense
  refine congrArg₂ (· + ·) (Finset.sum_congr rfl fun k _ => ?_) ?_
  · rw [show lidx_main_v29 (ix2 P q) k = ix2 P k from funext fun a => Fin.ext (by match a with | ⟨0, _⟩ => rfl | ⟨1, _⟩ => rfl),
      show ridx_main_v29 (ix2 P q) k = ix2 k q from funext fun a => Fin.ext (by match a with | ⟨0, _⟩ => rfl | ⟨1, _⟩ => rfl),
      val_main_v28_apply, idx_v28 bt p k P hP]
  · rw [show idx_main_v30 (idx_main_v31 (ix2 P q)) = ix1 q from funext fun a => Fin.ext (by match a with | ⟨0, _⟩ => rfl)]

/-- The hidden row before the last layer, at row `P = bt * 1024 + p`. -/
theorem hidden (bt : Fin 64) (p : Fin 1024) (q : Fin 256) (P : Fin 65536) (hP : P.val = bt.val * 1024 + p.val) :
    val_main_v38 (F := Ideal) x0 x1 x2 x3 x4 x5 x6 x7 x8 x9 x10 x11 x12 (ix2 P q)
      = Net.prelu (fun q => x12 (ix1 q))
          (Net.dense (fun p k => val_main_v27 (F := Ideal) x0 x1 x2 x3 x4 x5 x6 x7 x8 x9 (ix3 bt p k)) (fun k q => x10 (ix2 k q))
            (fun q => x11 (ix1 q))) p q := by
  rw [val_main_v38_apply, val_main_v34_apply, val_main_v37_apply, val_main_v36_apply, val_main_v35_apply,
    val_main_v33_apply, val_main_cst_apply, dense1 x0 x1 x2 x3 x4 x5 x6 x7 x8 x9 x10 x11 bt p q P hP,
    show idx_main_v35 (idx_main_v36 (ix2 P q)) = ix1 q from funext fun a => Fin.ext (by match a with | ⟨0, _⟩ => rfl)]
  simp only [Ideal.mulf_def, Ideal.ofBits_def]
  rfl

/-! ## The class scores and their log-softmax -/

/-- The class scores at row `P`: `Net.dense` of the hidden rows, read at row `P`. -/
theorem logits (P : Fin 65536) (q : Fin 2) :
    val_main_v42 (F := Ideal) x0 x1 x2 x3 x4 x5 x6 x7 x8 x9 x10 x11 x12 x13 x14 (ix2 P q)
      = Net.dense (fun (P : Fin 65536) (k : Fin 256) => val_main_v38 (F := Ideal) x0 x1 x2 x3 x4 x5 x6 x7 x8 x9 x10 x11 x12 (ix2 P k))
          (fun k q => x13 (ix2 k q)) (fun q => x14 (ix1 q)) P q := by
  rw [val_main_v42_apply, val_main_v41_apply, val_main_v40_apply, val_main_v39_apply]
  simp only [Ideal.addf_def]
  unfold Net.dense
  refine congrArg₂ (· + ·) (Finset.sum_congr rfl fun k _ => ?_) ?_
  · rw [show lidx_main_v39 (ix2 P q) k = ix2 P k from funext fun a => Fin.ext (by match a with | ⟨0, _⟩ => rfl | ⟨1, _⟩ => rfl),
      show ridx_main_v39 (ix2 P q) k = ix2 k q from funext fun a => Fin.ext (by match a with | ⟨0, _⟩ => rfl | ⟨1, _⟩ => rfl)]
  · rw [show idx_main_v40 (idx_main_v41 (ix2 P q)) = ix1 q from funext fun a => Fin.ext (by match a with | ⟨0, _⟩ => rfl)]

/-- The row maximum the reference uses at row `P`: the fold of `max` over the row's two scores from minus infinity. -/
theorem rowmax (P : Fin 65536) :
    val_main_call5_v2 (F := Ideal) x0 x1 x2 x3 x4 x5 x6 x7 x8 x9 x10 x11 x12 x13 x14 (ix1 P)
      = Net.rowMax (fun k => val_main_v42 (F := Ideal) x0 x1 x2 x3 x4 x5 x6 x7 x8 x9 x10 x11 x12 x13 x14 (ix2 P k)) := by
  rw [val_main_call5_v2_apply, val_main_call5_v1_apply, val_main_call5_cst_0_apply]
  unfold val_main_call5_v0
  rw [Cert.HostRowReduce.hostReduce_maximumf_row (a := 65536) (b := 2) _ _ _ (by decide) _ P, val_main_call5_cst_apply]
  simp only [Ideal.maximumf_def, Ideal.ofBits_def]
  exact Cert.HostRowReduce.max_start_fold _ _

/-- The shifted score at `(P, k)`. -/
theorem shifted (P : Fin 65536) (k : Fin 2) :
    val_main_call5_v5 (F := Ideal) x0 x1 x2 x3 x4 x5 x6 x7 x8 x9 x10 x11 x12 x13 x14 (ix2 P k)
      = val_main_v42 (F := Ideal) x0 x1 x2 x3 x4 x5 x6 x7 x8 x9 x10 x11 x12 x13 x14 (ix2 P k)
          - Net.rowMax (fun k => val_main_v42 (F := Ideal) x0 x1 x2 x3 x4 x5 x6 x7 x8 x9 x10 x11 x12 x13 x14 (ix2 P k)) := by
  rw [val_main_call5_v5_apply, val_main_call5_v4_apply, val_main_call5_v3_apply,
    show idx_main_call5_v3 (idx_main_call5_v4 (ix2 P k)) = ix1 P from funext fun a => Fin.ext (by match a with | ⟨0, _⟩ => rfl),
    rowmax]
  rfl

/-- The sum of the exponentials of row `P`'s shifted scores: the reference starts it at 0, which adds nothing. -/
theorem expsum (P : Fin 65536) :
    val_main_call5_v7 (F := Ideal) x0 x1 x2 x3 x4 x5 x6 x7 x8 x9 x10 x11 x12 x13 x14 (ix1 P)
      = ∑ k : Fin 2, Ideal.exp (val_main_v42 (F := Ideal) x0 x1 x2 x3 x4 x5 x6 x7 x8 x9 x10 x11 x12 x13 x14 (ix2 P k)
          - Net.rowMax (fun k => val_main_v42 (F := Ideal) x0 x1 x2 x3 x4 x5 x6 x7 x8 x9 x10 x11 x12 x13 x14 (ix2 P k))) := by
  rw [val_main_call5_v7_apply, val_main_call5_cst_1_apply]
  simp only [Ideal.ofBits_def, Ideal.ofBits_zero_f32, zero_add]
  refine Finset.sum_congr rfl fun k _ => ?_
  rw [show idx_main_call5_v7 (ix1 P) k = ix2 P k from funext fun a => Fin.ext (by match a with | ⟨0, _⟩ => rfl | ⟨1, _⟩ => rfl),
    val_main_call5_v6_apply, shifted]
  rfl

/-- THE LOG-SOFTMAX of the reference at `(P, q)`: `Net.logSoftmaxRow` of row `P` of the class scores. -/
theorem logsoftmax (P : Fin 65536) (q : Fin 2) :
    val_main_v43 (F := Ideal) x0 x1 x2 x3 x4 x5 x6 x7 x8 x9 x10 x11 x12 x13 x14 (ix2 P q)
      = Net.logSoftmaxRow (fun k => val_main_v42 (F := Ideal) x0 x1 x2 x3 x4 x5 x6 x7 x8 x9 x10 x11 x12 x13 x14 (ix2 P k)) q := by
  rw [val_main_v43_apply, val_main_call5_v10_apply, val_main_call5_v9_apply, val_main_call5_v8_apply,
    show idx_main_call5_v8 (idx_main_call5_v10 (ix2 P q)) = ix1 P from funext fun a => Fin.ext (by match a with | ⟨0, _⟩ => rfl),
    expsum, shifted]
  rfl

/-! ## The whole reference, for one graph -/

/-- THE REFERENCE'S RESULT at row `P = bt * 1024 + p` and class `q` is the network of `Net.lean` applied to graph `bt`:
    its node features, its adjacency matrix, and the shared weights. -/
theorem result (bt : Fin 64) (p : Fin 1024) (q : Fin 2) (P : Fin 65536) (hP : P.val = bt.val * 1024 + p.val) :
    val_main_v43 (F := Ideal) x0 x1 x2 x3 x4 x5 x6 x7 x8 x9 x10 x11 x12 x13 x14 (ix2 P q)
      = Net.net (fun p e => x0 (ix3 bt p e)) (fun p m => x1 (ix3 bt p m)) (fun k q => x2 (ix2 k q)) (fun q => x3 (ix1 q))
          (fun k q => x4 (ix2 k q)) (fun q => x5 (ix1 q)) (fun k q => x6 (ix2 k q)) (fun q => x7 (ix1 q))
          (fun k q => x8 (ix2 k q)) (fun q => x9 (ix1 q)) (fun k q => x10 (ix2 k q)) (fun q => x11 (ix1 q))
          (fun q => x12 (ix1 q)) (fun k q => x13 (ix2 k q)) (fun q => x14 (ix1 q)) p q := by
  rw [logsoftmax]
  unfold Net.net
  refine congrArg (fun r => Net.logSoftmaxRow r q) (funext fun c => ?_)
  rw [logits]
  unfold Net.dense
  refine congrArg (· + x14 (ix1 c)) (Finset.sum_congr rfl fun k _ => ?_)
  refine congrArg (· * x13 (ix2 k c)) ?_
  refine (hidden x0 x1 x2 x3 x4 x5 x6 x7 x8 x9 x10 x11 x12 bt p k P hP).trans ?_
  unfold Net.hidden
  refine congrArg (fun v => Net.prelu (fun q => x12 (ix1 q)) (Net.dense v (fun k q => x10 (ix2 k q)) (fun q => x11 (ix1 q))) p k) ?_
  exact funext fun p' => funext fun e => Cert.RefGraph.layers x0 x1 x2 x3 x4 x5 x6 x7 x8 x9 bt p' e

end Cert.RefHead

end
-- ==== Proof.Bridge.lean ====
/-
  The kernel's result is the reference's result of the same arguments.

  Entry `(P, q)` of either result, with `P = bt * 1024 + p`, is the network of `Net.lean` applied to graph `bt` of the
  arguments, at node `p` and class `q`: for the kernel by `KernelValue.lean` (the arrays the region finds are the
  arguments, each bias and the slopes laid as one row by a host operation before the region), for the reference by
  `RefHead.lean`. Every row number below 65536 is `bt * 1024 + p` for the graph `bt = P / 1024` and the node
  `p = P % 1024`.
-/
import proofs.«119564_j46969762349346_1_alg».proof.Proof.KernelValue
import proofs.«119564_j46969762349346_1_alg».proof.Proof.RefHead

set_option maxRecDepth 16384

noncomputable section

open scoped BigOperators

namespace Cert.Bridge

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-! ## The one-row arrays laid before the region -/

/-- The one-row array the region finds for argument 3: entry `(0, q)` is the argument's entry `q`. -/
theorem V_main_v0 (c : Dev nD) (q : Fin 512) :
    V m c main_v0 (ix2 (0 : Fin 1) q) = (m ((c : Thread nD τ).loc main_arg3)) (ix1 q) := by
  have e : (V m c main_v0 : S1x512.Idx → Net.R)
      = shapeCast S1x512 (m ((c : Thread nD τ).loc main_arg3)) shapeCasts_S512_S1x512 := by
    show StableHlo.after hostOps0 (fun b => m (c, b)) (Proc.devRef .tc main_v0) = _
    after_results
    rfl
  rw [e]
  exact (shapeCast_addUnit_apply ![512] _ _ (ix2 (0 : Fin 1) q)).trans
    (congrArg _ (funext fun a => by match a with | ⟨0, _⟩ => rfl))

/-- The one-row array the region finds for argument 5: entry `(0, q)` is the argument's entry `q`. -/
theorem V_main_v1 (c : Dev nD) (q : Fin 512) :
    V m c main_v1 (ix2 (0 : Fin 1) q) = (m ((c : Thread nD τ).loc main_arg5)) (ix1 q) := by
  have e : (V m c main_v1 : S1x512.Idx → Net.R)
      = shapeCast S1x512 (m ((c : Thread nD τ).loc main_arg5)) shapeCasts_S512_S1x512 := by
    show StableHlo.after hostOps0 (fun b => m (c, b)) (Proc.devRef .tc main_v1) = _
    after_results
    rfl
  rw [e]
  exact (shapeCast_addUnit_apply ![512] _ _ (ix2 (0 : Fin 1) q)).trans
    (congrArg _ (funext fun a => by match a with | ⟨0, _⟩ => rfl))

/-- The one-row array the region finds for argument 7: entry `(0, q)` is the argument's entry `q`. -/
theorem V_main_v2 (c : Dev nD) (q : Fin 256) :
    V m c main_v2 (ix2 (0 : Fin 1) q) = (m ((c : Thread nD τ).loc main_arg7)) (ix1 q) := by
  have e : (V m c main_v2 : S1x256.Idx → Net.R)
      = shapeCast S1x256 (m ((c : Thread nD τ).loc main_arg7)) shapeCasts_S256_S1x256 := by
    show StableHlo.after hostOps0 (fun b => m (c, b)) (Proc.devRef .tc main_v2) = _
    after_results
    rfl
  rw [e]
  exact (shapeCast_addUnit_apply ![256] _ _ (ix2 (0 : Fin 1) q)).trans
    (congrArg _ (funext fun a => by match a with | ⟨0, _⟩ => rfl))

/-- The one-row array the region finds for argument 9: entry `(0, q)` is the argument's entry `q`. -/
theorem V_main_v3 (c : Dev nD) (q : Fin 256) :
    V m c main_v3 (ix2 (0 : Fin 1) q) = (m ((c : Thread nD τ).loc main_arg9)) (ix1 q) := by
  have e : (V m c main_v3 : S1x256.Idx → Net.R)
      = shapeCast S1x256 (m ((c : Thread nD τ).loc main_arg9)) shapeCasts_S256_S1x256 := by
    show StableHlo.after hostOps0 (fun b => m (c, b)) (Proc.devRef .tc main_v3) = _
    after_results
    rfl
  rw [e]
  exact (shapeCast_addUnit_apply ![256] _ _ (ix2 (0 : Fin 1) q)).trans
    (congrArg _ (funext fun a => by match a with | ⟨0, _⟩ => rfl))

/-- The one-row array the region finds for argument 11: entry `(0, q)` is the argument's entry `q`. -/
theorem V_main_v4 (c : Dev nD) (q : Fin 256) :
    V m c main_v4 (ix2 (0 : Fin 1) q) = (m ((c : Thread nD τ).loc main_arg11)) (ix1 q) := by
  have e : (V m c main_v4 : S1x256.Idx → Net.R)
      = shapeCast S1x256 (m ((c : Thread nD τ).loc main_arg11)) shapeCasts_S256_S1x256 := by
    show StableHlo.after hostOps0 (fun b => m (c, b)) (Proc.devRef .tc main_v4) = _
    after_results
    rfl
  rw [e]
  exact (shapeCast_addUnit_apply ![256] _ _ (ix2 (0 : Fin 1) q)).trans
    (congrArg _ (funext fun a => by match a with | ⟨0, _⟩ => rfl))

/-- The one-row array the region finds for argument 14: entry `(0, q)` is the argument's entry `q`. -/
theorem V_main_v5 (c : Dev nD) (q : Fin 2) :
    V m c main_v5 (ix2 (0 : Fin 1) q) = (m ((c : Thread nD τ).loc main_arg14)) (ix1 q) := by
  have e : (V m c main_v5 : S1x2.Idx → Net.R)
      = shapeCast S1x2 (m ((c : Thread nD τ).loc main_arg14)) shapeCasts_S2_S1x2 := by
    show StableHlo.after hostOps0 (fun b => m (c, b)) (Proc.devRef .tc main_v5) = _
    after_results
    rfl
  rw [e]
  exact (shapeCast_addUnit_apply ![2] _ _ (ix2 (0 : Fin 1) q)).trans
    (congrArg _ (funext fun a => by match a with | ⟨0, _⟩ => rfl))

/-- The one-row array the region finds for argument 12: entry `(0, q)` is the argument's entry `q`. -/
theorem V_main_v6 (c : Dev nD) (q : Fin 256) :
    V m c main_v6 (ix2 (0 : Fin 1) q) = (m ((c : Thread nD τ).loc main_arg12)) (ix1 q) := by
  have e : (V m c main_v6 : S1x256.Idx → Net.R)
      = shapeCast S1x256 (m ((c : Thread nD τ).loc main_arg12)) shapeCasts_S256_S1x256 := by
    show StableHlo.after hostOps0 (fun b => m (c, b)) (Proc.devRef .tc main_v6) = _
    after_results
    rfl
  rw [e]
  exact (shapeCast_addUnit_apply ![256] _ _ (ix2 (0 : Fin 1) q)).trans
    (congrArg _ (funext fun a => by match a with | ⟨0, _⟩ => rfl))

/-! ## The two results, entry by entry -/

/-- THE KERNEL'S RESULT IS THE REFERENCE'S STAGE of the kernel's own arguments. -/
theorem kernel_is_ref (c : Dev nD) :
    Cert.KernelValue.result m c
      = Cert.ReferenceIdeal.ReadP.val_main_v43 (F := Ideal)
        (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14)) := by
  refine funext fun (i : S65536x2.Idx) => ?_
  obtain ⟨P, q, rfl⟩ : ∃ (P : Fin 65536) (q : Fin 2), i = ix2 P q := ⟨i 0, i 1, eq_ix2 i⟩
  have hPlt := P.isLt
  obtain ⟨bt, p, hP⟩ : ∃ (bt : Fin 64) (p : Fin 1024), P.val = bt.val * 1024 + p.val :=
    ⟨⟨P.val / 1024, by omega⟩, ⟨P.val % 1024, by omega⟩, by
      show P.val = P.val / 1024 * 1024 + P.val % 1024
      omega⟩
  rw [Cert.KernelValue.result_apply m c bt p q P hP,
    Cert.RefHead.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) bt p q P hP]
  unfold Cert.KernelValue.gAt
  rw [V_main_arg0 m c, V_main_arg1 m c, V_main_arg2 m c, V_main_arg4 m c, V_main_arg6 m c, V_main_arg8 m c, V_main_arg10 m c, V_main_arg13 m c]
  have h3 : (fun q : Fin 512 => V m c main_v0 (ix2 (0 : Fin 1) q)) = fun q => (m ((c : Thread nD τ).loc main_arg3)) (ix1 q) :=
    funext fun q => V_main_v0 m c q
  have h5 : (fun q : Fin 512 => V m c main_v1 (ix2 (0 : Fin 1) q)) = fun q => (m ((c : Thread nD τ).loc main_arg5)) (ix1 q) :=
    funext fun q => V_main_v1 m c q
  have h7 : (fun q : Fin 256 => V m c main_v2 (ix2 (0 : Fin 1) q)) = fun q => (m ((c : Thread nD τ).loc main_arg7)) (ix1 q) :=
    funext fun q => V_main_v2 m c q
  have h9 : (fun q : Fin 256 => V m c main_v3 (ix2 (0 : Fin 1) q)) = fun q => (m ((c : Thread nD τ).loc main_arg9)) (ix1 q) :=
    funext fun q => V_main_v3 m c q
  have h11 : (fun q : Fin 256 => V m c main_v4 (ix2 (0 : Fin 1) q)) = fun q => (m ((c : Thread nD τ).loc main_arg11)) (ix1 q) :=
    funext fun q => V_main_v4 m c q
  have h14 : (fun q : Fin 2 => V m c main_v5 (ix2 (0 : Fin 1) q)) = fun q => (m ((c : Thread nD τ).loc main_arg14)) (ix1 q) :=
    funext fun q => V_main_v5 m c q
  have h12 : (fun q : Fin 256 => V m c main_v6 (ix2 (0 : Fin 1) q)) = fun q => (m ((c : Thread nD τ).loc main_arg12)) (ix1 q) :=
    funext fun q => V_main_v6 m c q
  rw [h3, h5, h7, h9, h11, h14, h12]

end Cert.Bridge

end
-- ==== Proof.lean ====
/-
  A graph network over 64 graphs of 1024 nodes — four layers `h ↦ max ([h | adj · h] · W + b) 0`, a dense layer with a
  parametric rectifier, a dense layer onto two classes and the log-softmax of every node's two scores — computed by
  a kernel that holds one graph per grid point and does everything for that graph in one body, against a reference
  that works on all 64 graphs at once with batched products and flattens `[64, 1024, ·]` to `[65536, ·]` before the
  classifier head.

  Over the extended reals the two are the same function of the arguments, entry by entry, and no argument need be
  finite for that: a change of float format is the identity, a product on the matrix unit into a zero accumulator
  and a host contraction are the same finite sum of the same products, a batched product at graph `bt` only sums
  over that graph's nodes, and the head acts on one row at a time, row `bt * 1024 + p` of the flattened table being
  node `p` of graph `bt`. `Net.lean` states that function once for one graph; `KernelValue.lean` reads the kernel's
  result array as it, `RefHead.lean` the reference's, and `Bridge.lean` joins them.

  The frames of the two kernel programs are the generated frame certificates; the reference's frame is its run
  (`RefWalk.lean`: its 67 host operations walked one at a time) with the result dropped. The ideal pass changed nothing the claim has to account for, so `preserves` is `True`.
-/
import proofs.«119564_j46969762349346_1_alg».proof.Defs
import proofs.«119564_j46969762349346_1_alg».proof.Proof.Gen.Kernel
import proofs.«119564_j46969762349346_1_alg».proof.Proof.Gen.Kernel.Skeleton
import proofs.«119564_j46969762349346_1_alg».proof.Proof.Gen.Kernel.Launch
import proofs.«119564_j46969762349346_1_alg».proof.Proof.Gen.Kernel.Points
import proofs.«119564_j46969762349346_1_alg».proof.Proof.Gen.Kernel.Frame
import proofs.«119564_j46969762349346_1_alg».proof.Proof.Gen.KernelIdeal
import proofs.«119564_j46969762349346_1_alg».proof.Proof.Gen.KernelIdeal.Skeleton
import proofs.«119564_j46969762349346_1_alg».proof.Proof.Gen.KernelIdeal.Launch
import proofs.«119564_j46969762349346_1_alg».proof.Proof.Gen.KernelIdeal.Points
import proofs.«119564_j46969762349346_1_alg».proof.Proof.Gen.KernelIdeal.Frame
import proofs.«119564_j46969762349346_1_alg».proof.Proof.Gen.ReferenceIdeal
import proofs.«119564_j46969762349346_1_alg».proof.Proof.Gen.Pre_finite_inputs
import proofs.«119564_j46969762349346_1_alg».proof.Proof.RefOps
import proofs.«119564_j46969762349346_1_alg».proof.Proof.RefRead
import proofs.«119564_j46969762349346_1_alg».proof.Proof.RefWalk
import proofs.«119564_j46969762349346_1_alg».proof.Proof.KernelValue
import proofs.«119564_j46969762349346_1_alg».proof.Proof.Bridge
import Idealize.ShloMosaic.Adequacy
import Idealize.ShloMosaic.Init

noncomputable section

namespace Cert.Proof

open Idealize.ShloMosaic Idealize.SL.Sem

/-- The kernel's program terminates, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the statement about the result dropped. -/
theorem frame_referenceIdeal : Cert.frame_ReferenceIdeal := fun m ρ _ =>
  (θ_run Cert.ReferenceIdeal.defs _ _).mono (fun _ h c => (h c).2) (Cert.RefWalk.run m ρ)

/-- The idealization applied no rewrite that needs an account. -/
theorem preserves : Cert.preserves_Kernel_KernelIdeal := trivial

/-- Run from memories that agree on the arguments, the idealized kernel and the idealized reference end with the
    same result: the reference's stage term of the arguments, which the kernel's result array is, entry by entry. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.RefWalk.run m' ρ')
  obtain ⟨a0, a1, a2, a3, a4, a5, a6, a7, a8, a9, a10, a11, a12, a13, a14⟩ := hagree c
  rw [a0, a1, a2, a3, a4, a5, a6, a7, a8, a9, a10, a11, a12, a13, a14]
  exact (Cert.Bridge.kernel_is_ref m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
